-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x48x16x5 : Shape := ⟨4, ![8, 48, 16, 5]⟩
abbrev S_ : Shape := ⟨0, ![]⟩
abbrev S37 : Shape := ⟨1, ![37]⟩
abbrev S37x1 : Shape := ⟨2, ![37, 1]⟩
abbrev S12 : Shape := ⟨1, ![12]⟩
abbrev S1x12 : Shape := ⟨2, ![1, 12]⟩
abbrev S37x12 : Shape := ⟨2, ![37, 12]⟩
abbrev S12x1 : Shape := ⟨2, ![12, 1]⟩
abbrev S5 : Shape := ⟨1, ![5]⟩
abbrev S1x5 : Shape := ⟨2, ![1, 5]⟩
abbrev S12x5 : Shape := ⟨2, ![12, 5]⟩
abbrev S37x1x12x1 : Shape := ⟨4, ![37, 1, 12, 1]⟩
abbrev S1x12x1x5 : Shape := ⟨4, ![1, 12, 1, 5]⟩
abbrev S37x12x12x5 : Shape := ⟨4, ![37, 12, 12, 5]⟩
abbrev S37x12x12x5x1 : Shape := ⟨5, ![37, 12, 12, 5, 1]⟩
abbrev S37x12x12x5x2 : Shape := ⟨5, ![37, 12, 12, 5, 2]⟩
abbrev S8x37x12x12x5x5 : Shape := ⟨6, ![8, 37, 12, 12, 5, 5]⟩
abbrev S8x5x37x12x12x5 : Shape := ⟨6, ![8, 5, 37, 12, 12, 5]⟩
abbrev S8x2220x60 : Shape := ⟨3, ![8, 2220, 60]⟩
abbrev S8x2220 : Shape := ⟨2, ![8, 2220]⟩
abbrev S8x2220x1 : Shape := ⟨3, ![8, 2220, 1]⟩

class Facts : Prop where
  bcast_S_S8x48x16x5 : S_.BroadcastsInDim S8x48x16x5 (![] : Fin 0 → Fin S8x48x16x5.rank)
  reducesTo_S8x48x16x5_S_d0_1_2_3 : S8x48x16x5.ReducesTo [0, 1, 2, 3] S_
  h_S_ : 0 < S_.numel
  bcast_S37_S37x1_0 : S37.BroadcastsInDim S37x1 (![0] : Fin 1 → Fin S37x1.rank)
  bcast_S12_S1x12_1 : S12.BroadcastsInDim S1x12 (![1] : Fin 1 → Fin S1x12.rank)
  bcast_S37x1_S37x12_0_1 : S37x1.BroadcastsInDim S37x12 (![0, 1] : Fin 2 → Fin S37x12.rank)
  bcast_S1x12_S37x12_0_1 : S1x12.BroadcastsInDim S37x12 (![0, 1] : Fin 2 → Fin S37x12.rank)
  bcast_S12_S12x1_0 : S12.BroadcastsInDim S12x1 (![0] : Fin 1 → Fin S12x1.rank)
  bcast_S5_S1x5_1 : S5.BroadcastsInDim S1x5 (![1] : Fin 1 → Fin S1x5.rank)
  bcast_S12x1_S12x5_0_1 : S12x1.BroadcastsInDim S12x5 (![0, 1] : Fin 2 → Fin S12x5.rank)
  bcast_S1x5_S12x5_0_1 : S1x5.BroadcastsInDim S12x5 (![0, 1] : Fin 2 → Fin S12x5.rank)
  bcast_S37x12_S37x1x12x1_0_2 : S37x12.BroadcastsInDim S37x1x12x1 (![0, 2] : Fin 2 → Fin S37x1x12x1.rank)
  bcast_S12x5_S1x12x1x5_1_3 : S12x5.BroadcastsInDim S1x12x1x5 (![1, 3] : Fin 2 → Fin S1x12x1x5.rank)
  bcast_S_S37x1x12x1 : S_.BroadcastsInDim S37x1x12x1 (![] : Fin 0 → Fin S37x1x12x1.rank)
  bcast_S_S1x12x1x5 : S_.BroadcastsInDim S1x12x1x5 (![] : Fin 0 → Fin S1x12x1x5.rank)
  bcast_S37x1x12x1_S37x12x12x5_0_1_2_3 : S37x1x12x1.BroadcastsInDim S37x12x12x5 (![0, 1, 2, 3] : Fin 4 → Fin S37x12x12x5.rank)
  bcast_S1x12x1x5_S37x12x12x5_0_1_2_3 : S1x12x1x5.BroadcastsInDim S37x12x12x5 (![0, 1, 2, 3] : Fin 4 → Fin S37x12x12x5.rank)
  bcast_S37x12x12x5_S37x12x12x5x1_0_1_2_3 : S37x12x12x5.BroadcastsInDim S37x12x12x5x1 (![0, 1, 2, 3] : Fin 4 → Fin S37x12x12x5x1.rank)
  concatenates_S37x12x12x5x1_S37x12x12x5x1_S37x12x12x5x2_d4 : Shape.Concatenates [S37x12x12x5x1, S37x12x12x5x1] S37x12x12x5x2 4
  transposes_S8x37x12x12x5x5_S8x5x37x12x12x5_0_5_1_2_3_4 : S8x37x12x12x5x5.Transposes [0, 5, 1, 2, 3, 4] S8x5x37x12x12x5
  shapeCasts_S8x5x37x12x12x5_S8x2220x60 : S8x5x37x12x12x5.ShapeCasts S8x2220x60
  reducesTo_S8x2220x60_S8x2220_d2 : S8x2220x60.ReducesTo [2] S8x2220
  bcast_S8x2220_S8x2220x1_0_1 : S8x2220.BroadcastsInDim S8x2220x1 (![0, 1] : Fin 2 → Fin S8x2220x1.rank)
  bcast_S_S8x2220x1 : S_.BroadcastsInDim S8x2220x1 (![] : Fin 0 → Fin S8x2220x1.rank)
  bcast_S8x2220x1_S8x2220x60_0_1_2 : S8x2220x1.BroadcastsInDim S8x2220x60 (![0, 1, 2] : Fin 3 → Fin S8x2220x60.rank)
  bcast_S_S8x2220 : S_.BroadcastsInDim S8x2220 (![] : Fin 0 → Fin S8x2220.rank)
  reducesTo_S8x2220_S_d0_1 : S8x2220.ReducesTo [0, 1] S_
  gather_S8x48x16x5_S37x12x12x5x2_S8x37x12x12x5x5_05_12_n_n_12_4_8115_wf : GatherDims.WF S8x48x16x5 S37x12x12x5x2 S8x37x12x12x5x5 [0, 5] [1, 2] [] [1, 2] [] 4 ![8, 1, 1, 5]

variable [Facts]

def gather_S8x48x16x5_S37x12x12x5x2_S8x37x12x12x5x5_05_12_n_n_12_4_8115 : GatherDims S8x48x16x5 S37x12x12x5x2 S8x37x12x12x5x5 where
  offsetDims := [0, 5]
  collapsedSliceDims := [1, 2]
  operandBatchingDims := []
  startIndicesBatchingDims := []
  startIndexMap := [1, 2]
  indexVectorDim := 4
  sliceSizes := ![8, 1, 1, 5]
  wf := gather_S8x48x16x5_S37x12x12x5x2_S8x37x12x12x5x5_05_12_n_n_12_4_8115_wf
def fn_part5 {F : FTy → Type} [FloatOps F] (main_v54 : IVec S_ 1) (main_v98 : IVec S8x2220 1) : IVec S_ 1 :=
  let main_c_19 : IVec S_ 1 := constantI S_ 1 1#1
  let main_v99 : IVec S_ 1 := (fun x v => Host.reduce IntOp.andi x v reducesTo_S8x2220_S_d0_1 h_S_) main_v98 main_c_19
  let main_v100 : IVec S_ 1 := andi main_v54 main_v99
  main_v100

def fn_part4 {F : FTy → Type} [FloatOps F] (main_arg1 : FVec F S8x48x16x5 .f32) (main_v54 : IVec S_ 1) (main_v70 : IVec S1x12x1x5 32) (main_v75 : IVec S37x1x12x1 32) (main_v77 : IVec S1x12x1x5 1) (main_v78 : IVec S1x12x1x5 32) : IVec S_ 1 :=
  let main_v79 : IVec S1x12x1x5 32 := addi main_v70 main_v78
  let main_v80 : IVec S1x12x1x5 32 := select main_v77 main_v79 main_v70
  let main_v81 : IVec S37x12x12x5 32 := broadcastInDim S37x12x12x5 ![0, 1, 2, 3] bcast_S37x1x12x1_S37x12x12x5_0_1_2_3 main_v75
  let main_v82 : IVec S37x12x12x5 32 := broadcastInDim S37x12x12x5 ![0, 1, 2, 3] bcast_S1x12x1x5_S37x12x12x5_0_1_2_3 main_v80
  let main_v83 : IVec S37x12x12x5x1 32 := broadcastInDim S37x12x12x5x1 ![0, 1, 2, 3] bcast_S37x12x12x5_S37x12x12x5x1_0_1_2_3 main_v81
  let main_v84 : IVec S37x12x12x5x1 32 := broadcastInDim S37x12x12x5x1 ![0, 1, 2, 3] bcast_S37x12x12x5_S37x12x12x5x1_0_1_2_3 main_v82
  let main_v85 : IVec S37x12x12x5x2 32 := (fun a b => concatenate S37x12x12x5x2 4 [⟨S37x12x12x5x1, a⟩, ⟨S37x12x12x5x1, b⟩] concatenates_S37x12x12x5x1_S37x12x12x5x1_S37x12x12x5x2_d4) main_v83 main_v84
  let main_v86 : FVec F S8x37x12x12x5x5 .f32 := (fun x i => Host.gather gather_S8x48x16x5_S37x12x12x5x2_S8x37x12x12x5x5_05_12_n_n_12_4_8115 x i) main_arg1 main_v85
  let main_v87 : FVec F S8x5x37x12x12x5 .f32 := (transpose S8x5x37x12x12x5 [0, 5, 1, 2, 3, 4] · transposes_S8x37x12x12x5x5_S8x5x37x12x12x5_0_5_1_2_3_4) main_v86
  let main_v88 : FVec F S8x2220x60 .f32 := shapeCast S8x2220x60 main_v87 shapeCasts_S8x5x37x12x12x5_S8x2220x60
  let main_cst_15 : FVec F S_ .f32 := constant S_ .f32 0x00000000#32
  let main_v89 : FVec F S8x2220 .f32 := (fun x v => Host.reduceAdd x v reducesTo_S8x2220x60_S8x2220_d2 h_S_) main_v88 main_cst_15
  let main_v90 : FVec F S8x2220x1 .f32 := broadcastInDim S8x2220x1 ![0, 1] bcast_S8x2220_S8x2220x1_0_1 main_v89
  let main_cst_16 : FVec F S_ .f32 := constant S_ .f32 0x42700000#32
  let main_v91 : FVec F S8x2220x1 .f32 := broadcastInDim S8x2220x1 ![] bcast_S_S8x2220x1 main_cst_16
  let main_v92 : FVec F S8x2220x1 .f32 := Host.divf main_v90 main_v91
  let main_v93 : FVec F S8x2220x60 .f32 := broadcastInDim S8x2220x60 ![0, 1, 2] bcast_S8x2220x1_S8x2220x60_0_1_2 main_v92
  let main_v94 : FVec F S8x2220x60 .f32 := subf main_v88 main_v93
  let main_v95 : FVec F S8x2220x60 .f32 := mulf main_v94 main_v94
  let main_cst_17 : FVec F S_ .f32 := constant S_ .f32 0x00000000#32
  let main_v96 : FVec F S8x2220 .f32 := (fun x v => Host.reduceAdd x v reducesTo_S8x2220x60_S8x2220_d2 h_S_) main_v95 main_cst_17
  let main_cst_18 : FVec F S_ .f32 := constant S_ .f32 0x00000000#32
  let main_v97 : FVec F S8x2220 .f32 := broadcastInDim S8x2220 ![] bcast_S_S8x2220 main_cst_18
  let main_v98 : IVec S8x2220 1 := cmpf .ogt main_v96 main_v97
  fn_part5 (F := F) main_v54 main_v98

def fn_part3 {F : FTy → Type} [FloatOps F] (main_arg1 : FVec F S8x48x16x5 .f32) (main_v54 : IVec S_ 1) (main_v56 : IVec S37x1 32) (main_v58 : IVec S1x12 32) : IVec S_ 1 :=
  let main_v59 : IVec S37x12 32 := broadcastInDim S37x12 ![0, 1] bcast_S37x1_S37x12_0_1 main_v56
  let main_v60 : IVec S37x12 32 := broadcastInDim S37x12 ![0, 1] bcast_S1x12_S37x12_0_1 main_v58
  let main_v61 : IVec S37x12 32 := addi main_v59 main_v60
  let main_v62 : IVec S12 32 := iotaInDim S12 32 0
  let main_v63 : IVec S12x1 32 := broadcastInDim S12x1 ![0] bcast_S12_S12x1_0 main_v62
  let main_v64 : IVec S5 32 := iotaInDim S5 32 0
  let main_v65 : IVec S1x5 32 := broadcastInDim S1x5 ![1] bcast_S5_S1x5_1 main_v64
  let main_v66 : IVec S12x5 32 := broadcastInDim S12x5 ![0, 1] bcast_S12x1_S12x5_0_1 main_v63
  let main_v67 : IVec S12x5 32 := broadcastInDim S12x5 ![0, 1] bcast_S1x5_S12x5_0_1 main_v65
  let main_v68 : IVec S12x5 32 := addi main_v66 main_v67
  let main_v69 : IVec S37x1x12x1 32 := broadcastInDim S37x1x12x1 ![0, 2] bcast_S37x12_S37x1x12x1_0_2 main_v61
  let main_v70 : IVec S1x12x1x5 32 := broadcastInDim S1x12x1x5 ![1, 3] bcast_S12x5_S1x12x1x5_1_3 main_v68
  let main_c_11 : IVec S_ 32 := constantI S_ 32 0#32
  let main_v71 : IVec S37x1x12x1 32 := broadcastInDim S37x1x12x1 ![] bcast_S_S37x1x12x1 main_c_11
  let main_v72 : IVec S37x1x12x1 1 := cmpi .slt main_v69 main_v71
  let main_c_12 : IVec S_ 32 := constantI S_ 32 48#32
  let main_v73 : IVec S37x1x12x1 32 := broadcastInDim S37x1x12x1 ![] bcast_S_S37x1x12x1 main_c_12
  let main_v74 : IVec S37x1x12x1 32 := addi main_v69 main_v73
  let main_v75 : IVec S37x1x12x1 32 := select main_v72 main_v74 main_v69
  let main_c_13 : IVec S_ 32 := constantI S_ 32 0#32
  let main_v76 : IVec S1x12x1x5 32 := broadcastInDim S1x12x1x5 ![] bcast_S_S1x12x1x5 main_c_13
  let main_v77 : IVec S1x12x1x5 1 := cmpi .slt main_v70 main_v76
  let main_c_14 : IVec S_ 32 := constantI S_ 32 16#32
  let main_v78 : IVec S1x12x1x5 32 := broadcastInDim S1x12x1x5 ![] bcast_S_S1x12x1x5 main_c_14
  fn_part4 (F := F) main_arg1 main_v54 main_v70 main_v75 main_v77 main_v78

def fn_part2 {F : FTy → Type} [FloatOps F] (main_arg0 : FVec F S8x48x16x5 .f32) (main_arg1 : FVec F S8x48x16x5 .f32) (main_v8 : IVec S_ 1) (main_v39 : IVec S37x12x12x5x2 32) : IVec S_ 1 :=
  let main_v40 : FVec F S8x37x12x12x5x5 .f32 := (fun x i => Host.gather gather_S8x48x16x5_S37x12x12x5x2_S8x37x12x12x5x5_05_12_n_n_12_4_8115 x i) main_arg0 main_v39
  let main_v41 : FVec F S8x5x37x12x12x5 .f32 := (transpose S8x5x37x12x12x5 [0, 5, 1, 2, 3, 4] · transposes_S8x37x12x12x5x5_S8x5x37x12x12x5_0_5_1_2_3_4) main_v40
  let main_v42 : FVec F S8x2220x60 .f32 := shapeCast S8x2220x60 main_v41 shapeCasts_S8x5x37x12x12x5_S8x2220x60
  let main_cst_6 : FVec F S_ .f32 := constant S_ .f32 0x00000000#32
  let main_v43 : FVec F S8x2220 .f32 := (fun x v => Host.reduceAdd x v reducesTo_S8x2220x60_S8x2220_d2 h_S_) main_v42 main_cst_6
  let main_v44 : FVec F S8x2220x1 .f32 := broadcastInDim S8x2220x1 ![0, 1] bcast_S8x2220_S8x2220x1_0_1 main_v43
  let main_cst_7 : FVec F S_ .f32 := constant S_ .f32 0x42700000#32
  let main_v45 : FVec F S8x2220x1 .f32 := broadcastInDim S8x2220x1 ![] bcast_S_S8x2220x1 main_cst_7
  let main_v46 : FVec F S8x2220x1 .f32 := Host.divf main_v44 main_v45
  let main_v47 : FVec F S8x2220x60 .f32 := broadcastInDim S8x2220x60 ![0, 1, 2] bcast_S8x2220x1_S8x2220x60_0_1_2 main_v46
  let main_v48 : FVec F S8x2220x60 .f32 := subf main_v42 main_v47
  let main_v49 : FVec F S8x2220x60 .f32 := mulf main_v48 main_v48
  let main_cst_8 : FVec F S_ .f32 := constant S_ .f32 0x00000000#32
  let main_v50 : FVec F S8x2220 .f32 := (fun x v => Host.reduceAdd x v reducesTo_S8x2220x60_S8x2220_d2 h_S_) main_v49 main_cst_8
  let main_cst_9 : FVec F S_ .f32 := constant S_ .f32 0x00000000#32
  let main_v51 : FVec F S8x2220 .f32 := broadcastInDim S8x2220 ![] bcast_S_S8x2220 main_cst_9
  let main_v52 : IVec S8x2220 1 := cmpf .ogt main_v50 main_v51
  let main_c_10 : IVec S_ 1 := constantI S_ 1 1#1
  let main_v53 : IVec S_ 1 := (fun x v => Host.reduce IntOp.andi x v reducesTo_S8x2220_S_d0_1 h_S_) main_v52 main_c_10
  let main_v54 : IVec S_ 1 := andi main_v8 main_v53
  let main_v55 : IVec S37 32 := iotaInDim S37 32 0
  let main_v56 : IVec S37x1 32 := broadcastInDim S37x1 ![0] bcast_S37_S37x1_0 main_v55
  let main_v57 : IVec S12 32 := iotaInDim S12 32 0
  let main_v58 : IVec S1x12 32 := broadcastInDim S1x12 ![1] bcast_S12_S1x12_1 main_v57
  fn_part3 (F := F) main_arg1 main_v54 main_v56 main_v58

def fn_part1 {F : FTy → Type} [FloatOps F] (main_arg0 : FVec F S8x48x16x5 .f32) (main_arg1 : FVec F S8x48x16x5 .f32) (main_v8 : IVec S_ 1) (main_v15 : IVec S37x12 32) (main_v17 : IVec S12x1 32) (main_v19 : IVec S1x5 32) : IVec S_ 1 :=
  let main_v20 : IVec S12x5 32 := broadcastInDim S12x5 ![0, 1] bcast_S12x1_S12x5_0_1 main_v17
  let main_v21 : IVec S12x5 32 := broadcastInDim S12x5 ![0, 1] bcast_S1x5_S12x5_0_1 main_v19
  let main_v22 : IVec S12x5 32 := addi main_v20 main_v21
  let main_v23 : IVec S37x1x12x1 32 := broadcastInDim S37x1x12x1 ![0, 2] bcast_S37x12_S37x1x12x1_0_2 main_v15
  let main_v24 : IVec S1x12x1x5 32 := broadcastInDim S1x12x1x5 ![1, 3] bcast_S12x5_S1x12x1x5_1_3 main_v22
  let main_c_2 : IVec S_ 32 := constantI S_ 32 0#32
  let main_v25 : IVec S37x1x12x1 32 := broadcastInDim S37x1x12x1 ![] bcast_S_S37x1x12x1 main_c_2
  let main_v26 : IVec S37x1x12x1 1 := cmpi .slt main_v23 main_v25
  let main_c_3 : IVec S_ 32 := constantI S_ 32 48#32
  let main_v27 : IVec S37x1x12x1 32 := broadcastInDim S37x1x12x1 ![] bcast_S_S37x1x12x1 main_c_3
  let main_v28 : IVec S37x1x12x1 32 := addi main_v23 main_v27
  let main_v29 : IVec S37x1x12x1 32 := select main_v26 main_v28 main_v23
  let main_c_4 : IVec S_ 32 := constantI S_ 32 0#32
  let main_v30 : IVec S1x12x1x5 32 := broadcastInDim S1x12x1x5 ![] bcast_S_S1x12x1x5 main_c_4
  let main_v31 : IVec S1x12x1x5 1 := cmpi .slt main_v24 main_v30
  let main_c_5 : IVec S_ 32 := constantI S_ 32 16#32
  let main_v32 : IVec S1x12x1x5 32 := broadcastInDim S1x12x1x5 ![] bcast_S_S1x12x1x5 main_c_5
  let main_v33 : IVec S1x12x1x5 32 := addi main_v24 main_v32
  let main_v34 : IVec S1x12x1x5 32 := select main_v31 main_v33 main_v24
  let main_v35 : IVec S37x12x12x5 32 := broadcastInDim S37x12x12x5 ![0, 1, 2, 3] bcast_S37x1x12x1_S37x12x12x5_0_1_2_3 main_v29
  let main_v36 : IVec S37x12x12x5 32 := broadcastInDim S37x12x12x5 ![0, 1, 2, 3] bcast_S1x12x1x5_S37x12x12x5_0_1_2_3 main_v34
  let main_v37 : IVec S37x12x12x5x1 32 := broadcastInDim S37x12x12x5x1 ![0, 1, 2, 3] bcast_S37x12x12x5_S37x12x12x5x1_0_1_2_3 main_v35
  let main_v38 : IVec S37x12x12x5x1 32 := broadcastInDim S37x12x12x5x1 ![0, 1, 2, 3] bcast_S37x12x12x5_S37x12x12x5x1_0_1_2_3 main_v36
  let main_v39 : IVec S37x12x12x5x2 32 := (fun a b => concatenate S37x12x12x5x2 4 [⟨S37x12x12x5x1, a⟩, ⟨S37x12x12x5x1, b⟩] concatenates_S37x12x12x5x1_S37x12x12x5x1_S37x12x12x5x2_d4) main_v37 main_v38
  fn_part2 (F := F) main_arg0 main_arg1 main_v8 main_v39

def fn {F : FTy → Type} [FloatOps F] (main_arg0 : FVec F S8x48x16x5 .f32) (main_arg1 : FVec F S8x48x16x5 .f32) : IVec S_ 1 :=
  let main_v0 : FVec F S8x48x16x5 .f32 := Host.absf main_arg0
  let main_cst : FVec F S_ .f32 := constant S_ .f32 0x7F800000#32
  let main_v1 : FVec F S8x48x16x5 .f32 := broadcastInDim S8x48x16x5 ![] bcast_S_S8x48x16x5 main_cst
  let main_v2 : IVec S8x48x16x5 1 := cmpf .olt main_v0 main_v1
  let main_c : IVec S_ 1 := constantI S_ 1 1#1
  let main_v3 : IVec S_ 1 := (fun x v => Host.reduce IntOp.andi x v reducesTo_S8x48x16x5_S_d0_1_2_3 h_S_) main_v2 main_c
  let main_v4 : FVec F S8x48x16x5 .f32 := Host.absf main_arg1
  let main_cst_0 : FVec F S_ .f32 := constant S_ .f32 0x7F800000#32
  let main_v5 : FVec F S8x48x16x5 .f32 := broadcastInDim S8x48x16x5 ![] bcast_S_S8x48x16x5 main_cst_0
  let main_v6 : IVec S8x48x16x5 1 := cmpf .olt main_v4 main_v5
  let main_c_1 : IVec S_ 1 := constantI S_ 1 1#1
  let main_v7 : IVec S_ 1 := (fun x v => Host.reduce IntOp.andi x v reducesTo_S8x48x16x5_S_d0_1_2_3 h_S_) main_v6 main_c_1
  let main_v8 : IVec S_ 1 := andi main_v3 main_v7
  let main_v9 : IVec S37 32 := iotaInDim S37 32 0
  let main_v10 : IVec S37x1 32 := broadcastInDim S37x1 ![0] bcast_S37_S37x1_0 main_v9
  let main_v11 : IVec S12 32 := iotaInDim S12 32 0
  let main_v12 : IVec S1x12 32 := broadcastInDim S1x12 ![1] bcast_S12_S1x12_1 main_v11
  let main_v13 : IVec S37x12 32 := broadcastInDim S37x12 ![0, 1] bcast_S37x1_S37x12_0_1 main_v10
  let main_v14 : IVec S37x12 32 := broadcastInDim S37x12 ![0, 1] bcast_S1x12_S37x12_0_1 main_v12
  let main_v15 : IVec S37x12 32 := addi main_v13 main_v14
  let main_v16 : IVec S12 32 := iotaInDim S12 32 0
  let main_v17 : IVec S12x1 32 := broadcastInDim S12x1 ![0] bcast_S12_S12x1_0 main_v16
  let main_v18 : IVec S5 32 := iotaInDim S5 32 0
  let main_v19 : IVec S1x5 32 := broadcastInDim S1x5 ![1] bcast_S5_S1x5_1 main_v18
  fn_part1 (F := F) main_arg0 main_arg1 main_v8 main_v15 main_v17 main_v19
-- ==== Kernel.lean ====
abbrev S8x48x16x5 : Shape := ⟨4, ![8, 48, 16, 5]⟩
abbrev S37 : Shape := ⟨1, ![37]⟩
abbrev S37x1 : Shape := ⟨2, ![37, 1]⟩
abbrev S12 : Shape := ⟨1, ![12]⟩
abbrev S1x12 : Shape := ⟨2, ![1, 12]⟩
abbrev S37x12 : Shape := ⟨2, ![37, 12]⟩
abbrev S12x1 : Shape := ⟨2, ![12, 1]⟩
abbrev S5 : Shape := ⟨1, ![5]⟩
abbrev S1x5 : Shape := ⟨2, ![1, 5]⟩
abbrev S12x5 : Shape := ⟨2, ![12, 5]⟩
abbrev S37x1x12x1 : Shape := ⟨4, ![37, 1, 12, 1]⟩
abbrev S1x12x1x5 : Shape := ⟨4, ![1, 12, 1, 5]⟩
abbrev S_ : Shape := ⟨0, ![]⟩
abbrev S37x12x12x5 : Shape := ⟨4, ![37, 12, 12, 5]⟩
abbrev S37x12x12x5x1 : Shape := ⟨5, ![37, 12, 12, 5, 1]⟩
abbrev S37x12x12x5x2 : Shape := ⟨5, ![37, 12, 12, 5, 2]⟩
abbrev S8x37x12x12x5x5 : Shape := ⟨6, ![8, 37, 12, 12, 5, 5]⟩
abbrev S8x5x37x12x12x5 : Shape := ⟨6, ![8, 5, 37, 12, 12, 5]⟩
abbrev S8x2220x60 : Shape := ⟨3, ![8, 2220, 60]⟩
abbrev S8x2220x2220 : Shape := ⟨3, ![8, 2220, 2220]⟩
abbrev S1x2220x60 : Shape := ⟨3, ![1, 2220, 60]⟩
abbrev S1x768x60 : Shape := ⟨3, ![1, 768, 60]⟩
abbrev S1x2220x768 : Shape := ⟨3, ![1, 2220, 768]⟩
abbrev S2220x60 : Shape := ⟨2, ![2220, 60]⟩
abbrev S2220 : Shape := ⟨1, ![2220]⟩
abbrev S2220x1 : Shape := ⟨2, ![2220, 1]⟩
abbrev S768x60 : Shape := ⟨2, ![768, 60]⟩
abbrev S768 : Shape := ⟨1, ![768]⟩
abbrev S768x1 : Shape := ⟨2, ![768, 1]⟩
abbrev S2220x768 : Shape := ⟨2, ![2220, 768]⟩
abbrev S296x37x12x300 : Shape := ⟨4, ![296, 37, 12, 300]⟩

abbrev nBuf : Space → Nat
  | .hbm => 80
  | .vmem => 7
  | .smem => 0
  | _ => 0

abbrev bufTy : (tb : Table) → Fin (tcTables nBuf tb) → BufTy
  | .hbm, ⟨0, _⟩ => ⟨S8x48x16x5, .f32⟩
  | .hbm, ⟨1, _⟩ => ⟨S8x48x16x5, .f32⟩
  | .hbm, ⟨2, _⟩ => ⟨S37, .i32⟩
  | .hbm, ⟨3, _⟩ => ⟨S37x1, .i32⟩
  | .hbm, ⟨4, _⟩ => ⟨S12, .i32⟩
  | .hbm, ⟨5, _⟩ => ⟨S1x12, .i32⟩
  | .hbm, ⟨6, _⟩ => ⟨S37x12, .i32⟩
  | .hbm, ⟨7, _⟩ => ⟨S37x12, .i32⟩
  | .hbm, ⟨8, _⟩ => ⟨S37x12, .i32⟩
  | .hbm, ⟨9, _⟩ => ⟨S12, .i32⟩
  | .hbm, ⟨10, _⟩ => ⟨S12x1, .i32⟩
  | .hbm, ⟨11, _⟩ => ⟨S5, .i32⟩
  | .hbm, ⟨12, _⟩ => ⟨S1x5, .i32⟩
  | .hbm, ⟨13, _⟩ => ⟨S12x5, .i32⟩
  | .hbm, ⟨14, _⟩ => ⟨S12x5, .i32⟩
  | .hbm, ⟨15, _⟩ => ⟨S12x5, .i32⟩
  | .hbm, ⟨16, _⟩ => ⟨S37x1x12x1, .i32⟩
  | .hbm, ⟨17, _⟩ => ⟨S1x12x1x5, .i32⟩
  | .hbm, ⟨18, _⟩ => ⟨S_, .i32⟩
  | .hbm, ⟨19, _⟩ => ⟨S37x1x12x1, .i32⟩
  | .hbm, ⟨20, _⟩ => ⟨S37x1x12x1, .i1⟩
  | .hbm, ⟨21, _⟩ => ⟨S_, .i32⟩
  | .hbm, ⟨22, _⟩ => ⟨S37x1x12x1, .i32⟩
  | .hbm, ⟨23, _⟩ => ⟨S37x1x12x1, .i32⟩
  | .hbm, ⟨24, _⟩ => ⟨S37x1x12x1, .i32⟩
  | .hbm, ⟨25, _⟩ => ⟨S_, .i32⟩
  | .hbm, ⟨26, _⟩ => ⟨S1x12x1x5, .i32⟩
  | .hbm, ⟨27, _⟩ => ⟨S1x12x1x5, .i1⟩
  | .hbm, ⟨28, _⟩ => ⟨S_, .i32⟩
  | .hbm, ⟨29, _⟩ => ⟨S1x12x1x5, .i32⟩
  | .hbm, ⟨30, _⟩ => ⟨S1x12x1x5, .i32⟩
  | .hbm, ⟨31, _⟩ => ⟨S1x12x1x5, .i32⟩
  | .hbm, ⟨32, _⟩ => ⟨S37x12x12x5, .i32⟩
  | .hbm, ⟨33, _⟩ => ⟨S37x12x12x5, .i32⟩
  | .hbm, ⟨34, _⟩ => ⟨S37x12x12x5x1, .i32⟩
  | .hbm, ⟨35, _⟩ => ⟨S37x12x12x5x1, .i32⟩
  | .hbm, ⟨36, _⟩ => ⟨S37x12x12x5x2, .i32⟩
  | .hbm, ⟨37, _⟩ => ⟨S8x37x12x12x5x5, .f32⟩
  | .hbm, ⟨38, _⟩ => ⟨S8x5x37x12x12x5, .f32⟩
  | .hbm, ⟨39, _⟩ => ⟨S8x2220x60, .f32⟩
  | .hbm, ⟨40, _⟩ => ⟨S37, .i32⟩
  | .hbm, ⟨41, _⟩ => ⟨S37x1, .i32⟩
  | .hbm, ⟨42, _⟩ => ⟨S12, .i32⟩
  | .hbm, ⟨43, _⟩ => ⟨S1x12, .i32⟩
  | .hbm, ⟨44, _⟩ => ⟨S37x12, .i32⟩
  | .hbm, ⟨45, _⟩ => ⟨S37x12, .i32⟩
  | .hbm, ⟨46, _⟩ => ⟨S37x12, .i32⟩
  | .hbm, ⟨47, _⟩ => ⟨S12, .i32⟩
  | .hbm, ⟨48, _⟩ => ⟨S12x1, .i32⟩
  | .hbm, ⟨49, _⟩ => ⟨S5, .i32⟩
  | .hbm, ⟨50, _⟩ => ⟨S1x5, .i32⟩
  | .hbm, ⟨51, _⟩ => ⟨S12x5, .i32⟩
  | .hbm, ⟨52, _⟩ => ⟨S12x5, .i32⟩
  | .hbm, ⟨53, _⟩ => ⟨S12x5, .i32⟩
  | .hbm, ⟨54, _⟩ => ⟨S37x1x12x1, .i32⟩
  | .hbm, ⟨55, _⟩ => ⟨S1x12x1x5, .i32⟩
  | .hbm, ⟨56, _⟩ => ⟨S_, .i32⟩
  | .hbm, ⟨57, _⟩ => ⟨S37x1x12x1, .i32⟩
  | .hbm, ⟨58, _⟩ => ⟨S37x1x12x1, .i1⟩
  | .hbm, ⟨59, _⟩ => ⟨S_, .i32⟩
  | .hbm, ⟨60, _⟩ => ⟨S37x1x12x1, .i32⟩
  | .hbm, ⟨61, _⟩ => ⟨S37x1x12x1, .i32⟩
  | .hbm, ⟨62, _⟩ => ⟨S37x1x12x1, .i32⟩
  | .hbm, ⟨63, _⟩ => ⟨S_, .i32⟩
  | .hbm, ⟨64, _⟩ => ⟨S1x12x1x5, .i32⟩
  | .hbm, ⟨65, _⟩ => ⟨S1x12x1x5, .i1⟩
  | .hbm, ⟨66, _⟩ => ⟨S_, .i32⟩
  | .hbm, ⟨67, _⟩ => ⟨S1x12x1x5, .i32⟩
  | .hbm, ⟨68, _⟩ => ⟨S1x12x1x5, .i32⟩
  | .hbm, ⟨69, _⟩ => ⟨S1x12x1x5, .i32⟩
  | .hbm, ⟨70, _⟩ => ⟨S37x12x12x5, .i32⟩
  | .hbm, ⟨71, _⟩ => ⟨S37x12x12x5, .i32⟩
  | .hbm, ⟨72, _⟩ => ⟨S37x12x12x5x1, .i32⟩
  | .hbm, ⟨73, _⟩ => ⟨S37x12x12x5x1, .i32⟩
  | .hbm, ⟨74, _⟩ => ⟨S37x12x12x5x2, .i32⟩
  | .hbm, ⟨75, _⟩ => ⟨S8x37x12x12x5x5, .f32⟩
  | .hbm, ⟨76, _⟩ => ⟨S8x5x37x12x12x5, .f32⟩
  | .hbm, ⟨77, _⟩ => ⟨S8x2220x60, .f32⟩
  | .hbm, ⟨78, _⟩ => ⟨S8x2220x2220, .f32⟩
  | .hbm, ⟨79, _⟩ => ⟨S296x37x12x300, .f32⟩
  | .local _ .vmem, ⟨0, _⟩ => ⟨S1x2220x60, .f32⟩
  | .local _ .vmem, ⟨1, _⟩ => ⟨S1x2220x60, .f32⟩
  | .local _ .vmem, ⟨2, _⟩ => ⟨S1x768x60, .f32⟩
  | .local _ .vmem, ⟨3, _⟩ => ⟨S1x768x60, .f32⟩
  | .local _ .vmem, ⟨4, _⟩ => ⟨S1x2220x768, .f32⟩
  | .local _ .vmem, ⟨5, _⟩ => ⟨S1x2220x768, .f32⟩
  | .local _ .vmem, ⟨6, _⟩ => ⟨S2220x60, .bf16⟩
  | _, _ => ⟨S8x48x16x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_1 : Ref sig .tc := ⟨.hbm, 25, rfl⟩
abbrev main_v21 : Ref sig .tc := ⟨.hbm, 26, rfl⟩
abbrev main_v22 : Ref sig .tc := ⟨.hbm, 27, rfl⟩
abbrev main_c_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_c_3 : Ref sig .tc := ⟨.hbm, 56, rfl⟩
abbrev main_v50 : Ref sig .tc := ⟨.hbm, 57, rfl⟩
abbrev main_v51 : Ref sig .tc := ⟨.hbm, 58, rfl⟩
abbrev main_c_4 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_c_5 : Ref sig .tc := ⟨.hbm, 63, rfl⟩
abbrev main_v55 : Ref sig .tc := ⟨.hbm, 64, rfl⟩
abbrev main_v56 : Ref sig .tc := ⟨.hbm, 65, rfl⟩
abbrev main_c_6 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2220x60 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x60 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2220x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S37_S37x1_0 : S37.BroadcastsInDim S37x1 (![0] : Fin 1 → Fin S37x1.rank)
  bcast_S12_S1x12_1 : S12.BroadcastsInDim S1x12 (![1] : Fin 1 → Fin S1x12.rank)
  bcast_S37x1_S37x12_0_1 : S37x1.BroadcastsInDim S37x12 (![0, 1] : Fin 2 → Fin S37x12.rank)
  bcast_S1x12_S37x12_0_1 : S1x12.BroadcastsInDim S37x12 (![0, 1] : Fin 2 → Fin S37x12.rank)
  bcast_S12_S12x1_0 : S12.BroadcastsInDim S12x1 (![0] : Fin 1 → Fin S12x1.rank)
  bcast_S5_S1x5_1 : S5.BroadcastsInDim S1x5 (![1] : Fin 1 → Fin S1x5.rank)
  bcast_S12x1_S12x5_0_1 : S12x1.BroadcastsInDim S12x5 (![0, 1] : Fin 2 → Fin S12x5.rank)
  bcast_S1x5_S12x5_0_1 : S1x5.BroadcastsInDim S12x5 (![0, 1] : Fin 2 → Fin S12x5.rank)
  bcast_S37x12_S37x1x12x1_0_2 : S37x12.BroadcastsInDim S37x1x12x1 (![0, 2] : Fin 2 → Fin S37x1x12x1.rank)
  bcast_S12x5_S1x12x1x5_1_3 : S12x5.BroadcastsInDim S1x12x1x5 (![1, 3] : Fin 2 → Fin S1x12x1x5.rank)
  bcast_S_S37x1x12x1 : S_.BroadcastsInDim S37x1x12x1 (![] : Fin 0 → Fin S37x1x12x1.rank)
  bcast_S_S1x12x1x5 : S_.BroadcastsInDim S1x12x1x5 (![] : Fin 0 → Fin S1x12x1x5.rank)
  bcast_S37x1x12x1_S37x12x12x5_0_1_2_3 : S37x1x12x1.BroadcastsInDim S37x12x12x5 (![0, 1, 2, 3] : Fin 4 → Fin S37x12x12x5.rank)
  bcast_S1x12x1x5_S37x12x12x5_0_1_2_3 : S1x12x1x5.BroadcastsInDim S37x12x12x5 (![0, 1, 2, 3] : Fin 4 → Fin S37x12x12x5.rank)
  bcast_S37x12x12x5_S37x12x12x5x1_0_1_2_3 : S37x12x12x5.BroadcastsInDim S37x12x12x5x1 (![0, 1, 2, 3] : Fin 4 → Fin S37x12x12x5x1.rank)
  concatenates_S37x12x12x5x1_S37x12x12x5x1_S37x12x12x5x2_d4 : Shape.Concatenates [S37x12x12x5x1, S37x12x12x5x1] S37x12x12x5x2 4
  transposes_S8x37x12x12x5x5_S8x5x37x12x12x5_0_5_1_2_3_4 : S8x37x12x12x5x5.Transposes [0, 5, 1, 2, 3, 4] S8x5x37x12x12x5
  shapeCasts_S8x5x37x12x12x5_S8x2220x60 : S8x5x37x12x12x5.ShapeCasts S8x2220x60
  inb_S1x2220x60_S1x2220x60_0_0_0 : ∀ a, (![0, 0, 0] : Fin 3 → Nat) a + S1x2220x60.size a ≤ S1x2220x60.size a
  h_S1x2220x60 : 0 < S1x2220x60.numel
  shapeCasts_S1x2220x60_S2220x60 : S1x2220x60.ShapeCasts S2220x60
  reduces_S2220x60_S2220 : S2220x60.Reduces [1] S2220
  shapeCasts_S2220_S2220x1 : S2220.ShapeCasts S2220x1
  broadcasts_S2220x1_S2220x60 : S2220x1.Broadcasts S2220x60
  bitsLt_bf16_f32 : FTy.bits .bf16 < FTy.bits .f32
  inb_S2220x60_S2220x60_0_0 : ∀ a, (![0, 0] : Fin 2 → Nat) a + S2220x60.size a ≤ S2220x60.size a
  h_S2220x60 : 0 < S2220x60.numel
  shapeCasts_S2220x60_S2220x60 : S2220x60.ShapeCasts S2220x60
  packedbf16_S2220x60_S2220x60_0_0 : (Rect.unit (s := S2220x60) ![0, 0] S2220x60.size inb_S2220x60_S2220x60_0_0).PackedRows (EltTy.packing .bf16)
  inb_S1x768x60_S1x768x60_0_0_0 : ∀ a, (![0, 0, 0] : Fin 3 → Nat) a + S1x768x60.size a ≤ S1x768x60.size a
  h_S1x768x60 : 0 < S1x768x60.numel
  shapeCasts_S1x768x60_S768x60 : S1x768x60.ShapeCasts S768x60
  reduces_S768x60_S768 : S768x60.Reduces [1] S768
  shapeCasts_S768_S768x1 : S768.ShapeCasts S768x1
  broadcasts_S768x1_S768x60 : S768x1.Broadcasts S768x60
  inb_S1x2220x768_S1x2220x768_0_0_0 : ∀ a, (![0, 0, 0] : Fin 3 → Nat) a + S1x2220x768.size a ≤ S1x2220x768.size a
  h_S1x2220x768 : 0 < S1x2220x768.numel
  shapeCasts_S1x2220x768_S2220x768 : S1x2220x768.ShapeCasts S2220x768
  shapeCasts_S2220x768_S1x2220x768 : S2220x768.ShapeCasts S1x2220x768
  shapeCasts_S8x2220x2220_S296x37x12x300 : S8x2220x2220.ShapeCasts S296x37x12x300
  gather_S8x48x16x5_S37x12x12x5x2_S8x37x12x12x5x5_05_12_n_n_12_4_8115_wf : GatherDims.WF S8x48x16x5 S37x12x12x5x2 S8x37x12x12x5x5 [0, 5] [1, 2] [] [1, 2] [] 4 ![8, 1, 1, 5]
  dot_S2220x60_S768x60_S2220x768_1_1_0_0_n_n_wf : DotDims.WF S2220x60 S768x60 S2220x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2220x60.size a ≤ S8x2220x60.size a
  hwx0_0 : ∀ i : grid0.Coords, EltTy.bits .f32 = 32 ∨ (Rect.block (s := S8x2220x60) S1x2220x60.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x768x60.size a < S8x2220x60.size a
  hwx0_1 : ∀ i : grid0.Coords, EltTy.bits .f32 = 32 ∨ (Rect.unit (s := S8x2220x60) (fun a => cc0_transform_1 i a * S1x768x60.size a) (fun a => (Pipeline.Clip.of (cc0_transform_1 i a) (S1x768x60.size a) (S8x2220x60.size a)).extent (S1x768x60.size a)) fun a => Pipeline.Clip.inb (Pipeline.Clip.ok_of (hstart0_1 i a))).WholeWords (EltTy.packing .f32)
  hwxs0_1 : ∀ i : grid0.Coords, EltTy.bits .f32 = 32 ∨ (Rect.unit (s := S1x768x60) (fun _ => 0) (fun a => (Pipeline.Clip.of (cc0_transform_1 i a) (S1x768x60.size a) (S8x2220x60.size a)).extent (S1x768x60.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2220x768.size a < S8x2220x2220.size a
  hwx0_2 : ∀ i : grid0.Coords, EltTy.bits .f32 = 32 ∨ (Rect.unit (s := S8x2220x2220) (fun a => cc0_transform_2 i a * S1x2220x768.size a) (fun a => (Pipeline.Clip.of (cc0_transform_2 i a) (S1x2220x768.size a) (S8x2220x2220.size a)).extent (S1x2220x768.size a)) fun a => Pipeline.Clip.inb (Pipeline.Clip.ok_of (hstart0_2 i a))).WholeWords (EltTy.packing .f32)
  hwxs0_2 : ∀ i : grid0.Coords, EltTy.bits .f32 = 32 ∨ (Rect.unit (s := S1x2220x768) (fun _ => 0) (fun a => (Pipeline.Clip.of (cc0_transform_2 i a) (S1x2220x768.size a) (S8x2220x2220.size a)).extent (S1x2220x768.size a)) fun a => (Nat.zero_add _).trans_le (Pipeline.Clip.extent_le (Pipeline.Clip.ok_of (hstart0_2 i a)))).WholeWords (EltTy.packing .f32)

variable [Facts₀]

def gather_S8x48x16x5_S37x12x12x5x2_S8x37x12x12x5x5_05_12_n_n_12_4_8115 : GatherDims S8x48x16x5 S37x12x12x5x2 S8x37x12x12x5x5 where
  offsetDims := [0, 5]
  collapsedSliceDims := [1, 2]
  operandBatchingDims := []
  startIndicesBatchingDims := []
  startIndexMap := [1, 2]
  indexVectorDim := 4
  sliceSizes := ![8, 1, 1, 5]
  wf := gather_S8x48x16x5_S37x12x12x5x2_S8x37x12x12x5x5_05_12_n_n_12_4_8115_wf
def dot_S2220x60_S768x60_S2220x768_1_1_0_0_n_n : DotDims S2220x60 S768x60 S2220x768 where
  lhsContracting := [1]
  rhsContracting := [1]
  lhsNonContracting := [0]
  rhsNonContracting := [0]
  lhsBatch := []
  rhsBatch := []
  wf := dot_S2220x60_S768x60_S2220x768_1_1_0_0_n_n_wf

abbrev win0_0 : Pipeline.Window sig grid0 :=
  Pipeline.Window.ofSpec (Memref.whole main_v67) S1x2220x60.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v33) S1x768x60.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v68) S1x2220x768.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x48x16x5 : Shape := ⟨4, ![8, 48, 16, 5]⟩
abbrev S37 : Shape := ⟨1, ![37]⟩
abbrev S37x1 : Shape := ⟨2, ![37, 1]⟩
abbrev S12 : Shape := ⟨1, ![12]⟩
abbrev S1x12 : Shape := ⟨2, ![1, 12]⟩
abbrev S37x12 : Shape := ⟨2, ![37, 12]⟩
abbrev S12x1 : Shape := ⟨2, ![12, 1]⟩
abbrev S5 : Shape := ⟨1, ![5]⟩
abbrev S1x5 : Shape := ⟨2, ![1, 5]⟩
abbrev S12x5 : Shape := ⟨2, ![12, 5]⟩
abbrev S37x1x12x1 : Shape := ⟨4, ![37, 1, 12, 1]⟩
abbrev S1x12x1x5 : Shape := ⟨4, ![1, 12, 1, 5]⟩
abbrev S_ : Shape := ⟨0, ![]⟩
abbrev S37x12x12x5 : Shape := ⟨4, ![37, 12, 12, 5]⟩
abbrev S37x12x12x5x1 : Shape := ⟨5, ![37, 12, 12, 5, 1]⟩
abbrev S37x12x12x5x2 : Shape := ⟨5, ![37, 12, 12, 5, 2]⟩
abbrev S8x37x12x12x5x5 : Shape := ⟨6, ![8, 37, 12, 12, 5, 5]⟩
abbrev S8x5x37x12x12x5 : Shape := ⟨6, ![8, 5, 37, 12, 12, 5]⟩
abbrev S8x2220x60 : Shape := ⟨3, ![8, 2220, 60]⟩
abbrev S8x2220 : Shape := ⟨2, ![8, 2220]⟩
abbrev S8x2220x1 : Shape := ⟨3, ![8, 2220, 1]⟩
abbrev S8x2220x2220 : Shape := ⟨3, ![8, 2220, 2220]⟩
abbrev S296x37x12x300 : Shape := ⟨4, ![296, 37, 12, 300]⟩

abbrev nBuf : Space → Nat
  | .hbm => 150
  | .vmem => 0
  | .smem => 0
  | _ => 0

abbrev hbmTy0_0 (i : Nat) : BufTy := match i % 128 with
  | 0 => ⟨S8x48x16x5, .f32⟩
  | 1 => ⟨S8x48x16x5, .f32⟩
  | 2 => ⟨S37, .i32⟩
  | 3 => ⟨S37x1, .i32⟩
  | 4 => ⟨S12, .i32⟩
  | 5 => ⟨S1x12, .i32⟩
  | 6 => ⟨S37x12, .i32⟩
  | 7 => ⟨S37x12, .i32⟩
  | 8 => ⟨S37x12, .i32⟩
  | 9 => ⟨S12, .i32⟩
  | 10 => ⟨S12x1, .i32⟩
  | 11 => ⟨S5, .i32⟩
  | 12 => ⟨S1x5, .i32⟩
  | 13 => ⟨S12x5, .i32⟩
  | 14 => ⟨S12x5, .i32⟩
  | 15 => ⟨S12x5, .i32⟩
  | 16 => ⟨S37x1x12x1, .i32⟩
  | 17 => ⟨S1x12x1x5, .i32⟩
  | 18 => ⟨S_, .i32⟩
  | 19 => ⟨S37x1x12x1, .i32⟩
  | 20 => ⟨S37x1x12x1, .i1⟩
  | 21 => ⟨S_, .i32⟩
  | 22 => ⟨S37x1x12x1, .i32⟩
  | 23 => ⟨S37x1x12x1, .i32⟩
  | 24 => ⟨S37x1x12x1, .i32⟩
  | 25 => ⟨S_, .i32⟩
  | 26 => ⟨S1x12x1x5, .i32⟩
  | 27 => ⟨S1x12x1x5, .i1⟩
  | 28 => ⟨S_, .i32⟩
  | 29 => ⟨S1x12x1x5, .i32⟩
  | 30 => ⟨S1x12x1x5, .i32⟩
  | 31 => ⟨S1x12x1x5, .i32⟩
  | 32 => ⟨S37x12x12x5, .i32⟩
  | 33 => ⟨S37x12x12x5, .i32⟩
  | 34 => ⟨S37x12x12x5x1, .i32⟩
  | 35 => ⟨S37x12x12x5x1, .i32⟩
  | 36 => ⟨S37x12x12x5x2, .i32⟩
  | 37 => ⟨S8x37x12x12x5x5, .f32⟩
  | 38 => ⟨S8x5x37x12x12x5, .f32⟩
  | 39 => ⟨S8x2220x60, .f32⟩
  | 40 => ⟨S37, .i32⟩
  | 41 => ⟨S37x1, .i32⟩
  | 42 => ⟨S12, .i32⟩
  | 43 => ⟨S1x12, .i32⟩
  | 44 => ⟨S37x12, .i32⟩
  | 45 => ⟨S37x12, .i32⟩
  | 46 => ⟨S37x12, .i32⟩
  | 47 => ⟨S12, .i32⟩
  | 48 => ⟨S12x1, .i32⟩
  | 49 => ⟨S5, .i32⟩
  | 50 => ⟨S1x5, .i32⟩
  | 51 => ⟨S12x5, .i32⟩
  | 52 => ⟨S12x5, .i32⟩
  | 53 => ⟨S12x5, .i32⟩
  | 54 => ⟨S37x1x12x1, .i32⟩
  | 55 => ⟨S1x12x1x5, .i32⟩
  | 56 => ⟨S_, .i32⟩
  | 57 => ⟨S37x1x12x1, .i32⟩
  | 58 => ⟨S37x1x12x1, .i1⟩
  | 59 => ⟨S_, .i32⟩
  | 60 => ⟨S37x1x12x1, .i32⟩
  | 61 => ⟨S37x1x12x1, .i32⟩
  | 62 => ⟨S37x1x12x1, .i32⟩
  | 63 => ⟨S_, .i32⟩
  | 64 => ⟨S1x12x1x5, .i32⟩
  | 65 => ⟨S1x12x1x5, .i1⟩
  | 66 => ⟨S_, .i32⟩
  | 67 => ⟨S1x12x1x5, .i32⟩
  | 68 => ⟨S1x12x1x5, .i32⟩
  | 69 => ⟨S1x12x1x5, .i32⟩
  | 70 => ⟨S37x12x12x5, .i32⟩
  | 71 => ⟨S37x12x12x5, .i32⟩
  | 72 => ⟨S37x12x12x5x1, .i32⟩
  | 73 => ⟨S37x12x12x5x1, .i32⟩
  | 74 => ⟨S37x12x12x5x2, .i32⟩
  | 75 => ⟨S8x37x12x12x5x5, .f32⟩
  | 76 => ⟨S8x5x37x12x12x5, .f32⟩
  | 77 => ⟨S8x2220x60, .f32⟩
  | 78 => ⟨S_, .f32⟩
  | 79 => ⟨S8x2220, .f32⟩
  | 80 => ⟨S8x2220x1, .f32⟩
  | 81 => ⟨S_, .f32⟩
  | 82 => ⟨S8x2220x1, .f32⟩
  | 83 => ⟨S8x2220x1, .f32⟩
  | 84 => ⟨S_, .i32⟩
  | 85 => ⟨S_, .f32⟩
  | 86 => ⟨S8x2220, .f32⟩
  | 87 => ⟨S8x2220x1, .f32⟩
  | 88 => ⟨S_, .f32⟩
  | 89 => ⟨S8x2220x1, .f32⟩
  | 90 => ⟨S8x2220x1, .f32⟩
  | 91 => ⟨S8x2220x60, .f32⟩
  | 92 => ⟨S8x2220x60, .f32⟩
  | 93 => ⟨S8x2220x60, .f32⟩
  | 94 => ⟨S_, .f32⟩
  | 95 => ⟨S_, .f32⟩
  | 96 => ⟨S_, .f32⟩
  | 97 => ⟨S_, .f32⟩
  | 98 => ⟨S8x2220, .f32⟩
  | 99 => ⟨S8x2220x1, .f32⟩
  | 100 => ⟨S8x2220x1, .f32⟩
  | 101 => ⟨S8x2220x1, .f32⟩
  | 102 => ⟨S_, .f32⟩
  | 103 => ⟨S_, .i1⟩
  | 104 => ⟨S_, .f32⟩
  | 105 => ⟨S_, .f32⟩
  | 106 => ⟨S8x2220x1, .f32⟩
  | 107 => ⟨S8x2220x1, .f32⟩
  | 108 => ⟨S8x2220x1, .f32⟩
  | 109 => ⟨S8x2220x60, .f32⟩
  | 110 => ⟨S8x2220x60, .f32⟩
  | 111 => ⟨S8x2220x60, .f32⟩
  | 112 => ⟨S8x2220x60, .f32⟩
  | 113 => ⟨S_, .f32⟩
  | 114 => ⟨S8x2220, .f32⟩
  | 115 => ⟨S8x2220x1, .f32⟩
  | 116 => ⟨S_, .f32⟩
  | 117 => ⟨S8x2220x1, .f32⟩
  | 118 => ⟨S8x2220x1, .f32⟩
  | 119 => ⟨S_, .i32⟩
  | 120 => ⟨S_, .f32⟩
  | 121 => ⟨S8x2220, .f32⟩
  | 122 => ⟨S8x2220x1, .f32⟩
  | 123 => ⟨S_, .f32⟩
  | 124 => ⟨S8x2220x1, .f32⟩
  | 125 => ⟨S8x2220x1, .f32⟩
  | 126 => ⟨S8x2220x60, .f32⟩
  | 127 => ⟨S8x2220x60, .f32⟩
  | _ => ⟨S8x48x16x5, .f32⟩

abbrev hbmTy0_1 (i : Nat) : BufTy := match i % 128 with
  | 0 => ⟨S8x2220x60, .f32⟩
  | 1 => ⟨S_, .f32⟩
  | 2 => ⟨S_, .f32⟩
  | 3 => ⟨S_, .f32⟩
  | 4 => ⟨S_, .f32⟩
  | 5 => ⟨S8x2220, .f32⟩
  | 6 => ⟨S8x2220x1, .f32⟩
  | 7 => ⟨S8x2220x1, .f32⟩
  | 8 => ⟨S8x2220x1, .f32⟩
  | 9 => ⟨S_, .f32⟩
  | 10 => ⟨S_, .i1⟩
  | 11 => ⟨S_, .f32⟩
  | 12 => ⟨S_, .f32⟩
  | 13 => ⟨S8x2220x1, .f32⟩
  | 14 => ⟨S8x2220x1, .f32⟩
  | 15 => ⟨S8x2220x1, .f32⟩
  | 16 => ⟨S8x2220x60, .f32⟩
  | 17 => ⟨S8x2220x60, .f32⟩
  | 18 => ⟨S8x2220x60, .f32⟩
  | 19 => ⟨S8x2220x60, .f32⟩
  | 20 => ⟨S8x2220x2220, .f32⟩
  | 21 => ⟨S296x37x12x300, .f32⟩
  | _ => ⟨S8x48x16x5, .f32⟩

abbrev hbmTy (i : Nat) : BufTy := match i / 128 with
  | 0 => hbmTy0_0 i
  | 1 => hbmTy0_1 i
  | _ => ⟨S8x48x16x5, .f32⟩

abbrev bufTy : (tb : Table) → Fin (tcTables nBuf tb) → BufTy
  | .hbm, ⟨i, _⟩ => hbmTy i
  | _, _ => ⟨S8x48x16x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_1 : Ref sig .tc := ⟨.hbm, 25, rfl⟩
abbrev main_v21 : Ref sig .tc := ⟨.hbm, 26, rfl⟩
abbrev main_v22 : Ref sig .tc := ⟨.hbm, 27, rfl⟩
abbrev main_c_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_c_3 : Ref sig .tc := ⟨.hbm, 56, rfl⟩
abbrev main_v50 : Ref sig .tc := ⟨.hbm, 57, rfl⟩
abbrev main_v51 : Ref sig .tc := ⟨.hbm, 58, rfl⟩
abbrev main_c_4 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_c_5 : Ref sig .tc := ⟨.hbm, 63, rfl⟩
abbrev main_v55 : Ref sig .tc := ⟨.hbm, 64, rfl⟩
abbrev main_v56 : Ref sig .tc := ⟨.hbm, 65, rfl⟩
abbrev main_c_6 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst : Ref sig .tc := ⟨.hbm, 78, rfl⟩
abbrev main_v68 : Ref sig .tc := ⟨.hbm, 79, rfl⟩
abbrev main_v69 : Ref sig .tc := ⟨.hbm, 80, rfl⟩
abbrev main_cst_7 : Ref sig .tc := ⟨.hbm, 81, rfl⟩
abbrev main_v70 : Ref sig .tc := ⟨.hbm, 82, rfl⟩
abbrev main_v71 : Ref sig .tc := ⟨.hbm, 83, rfl⟩
abbrev main_c_8 : Ref sig .tc := ⟨.hbm, 84, rfl⟩
abbrev main_call0_call0_cst : Ref sig .tc := ⟨.hbm, 85, rfl⟩
abbrev main_call0_call0_v0 : Ref sig .tc := ⟨.hbm, 86, rfl⟩
abbrev main_call0_call0_v1 : Ref sig .tc := ⟨.hbm, 87, rfl⟩
abbrev main_call0_call0_cst_0 : Ref sig .tc := ⟨.hbm, 88, rfl⟩
abbrev main_call0_call0_v2 : Ref sig .tc := ⟨.hbm, 89, rfl⟩
abbrev main_call0_call0_v3 : Ref sig .tc := ⟨.hbm, 90, rfl⟩
abbrev main_call0_call0_v4 : Ref sig .tc := ⟨.hbm, 91, rfl⟩
abbrev main_call0_call0_v5 : Ref sig .tc := ⟨.hbm, 92, rfl⟩
abbrev main_call0_call0_v6 : Ref sig .tc := ⟨.hbm, 93, rfl⟩
abbrev main_call0_call0_v7 : Ref sig .tc := ⟨.hbm, 94, rfl⟩
abbrev main_call0_call0_cst_1 : Ref sig .tc := ⟨.hbm, 95, rfl⟩
abbrev main_call0_call0_v8 : Ref sig .tc := ⟨.hbm, 96, rfl⟩
abbrev main_call0_call0_cst_2 : Ref sig .tc := ⟨.hbm, 97, rfl⟩
abbrev main_call0_call0_v9 : Ref sig .tc := ⟨.hbm, 98, rfl⟩
abbrev main_call0_call0_v10 : Ref sig .tc := ⟨.hbm, 99, rfl⟩
abbrev main_call0_call0_v11 : Ref sig .tc := ⟨.hbm, 100, rfl⟩
abbrev main_call0_call0_v12 : Ref sig .tc := ⟨.hbm, 101, rfl⟩
abbrev main_call0_call0_cst_3 : Ref sig .tc := ⟨.hbm, 102, rfl⟩
abbrev main_call0_call0_v13 : Ref sig .tc := ⟨.hbm, 103, rfl⟩
abbrev main_call0_call0_cst_4 : Ref sig .tc := ⟨.hbm, 104, rfl⟩
abbrev main_call0_call0_call0_v0 : Ref sig .tc := ⟨.hbm, 105, rfl⟩
abbrev main_call0_call0_call0_v1 : Ref sig .tc := ⟨.hbm, 106, rfl⟩
abbrev main_call0_v0 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_9 : Ref sig .tc := ⟨.hbm, 113, rfl⟩
abbrev main_v77 : Ref sig .tc := ⟨.hbm, 114, rfl⟩
abbrev main_v78 : Ref sig .tc := ⟨.hbm, 115, rfl⟩
abbrev main_cst_10 : Ref sig .tc := ⟨.hbm, 116, rfl⟩
abbrev main_v79 : Ref sig .tc := ⟨.hbm, 117, rfl⟩
abbrev main_v80 : Ref sig .tc := ⟨.hbm, 118, rfl⟩
abbrev main_c_11 : Ref sig .tc := ⟨.hbm, 119, rfl⟩
abbrev main_call1_call0_cst : Ref sig .tc := ⟨.hbm, 120, rfl⟩
abbrev main_call1_call0_v0 : Ref sig .tc := ⟨.hbm, 121, rfl⟩
abbrev main_call1_call0_v1 : Ref sig .tc := ⟨.hbm, 122, rfl⟩
abbrev main_call1_call0_cst_0 : Ref sig .tc := ⟨.hbm, 123, rfl⟩
abbrev main_call1_call0_v2 : Ref sig .tc := ⟨.hbm, 124, rfl⟩
abbrev main_call1_call0_v3 : Ref sig .tc := ⟨.hbm, 125, rfl⟩
abbrev main_call1_call0_v4 : Ref sig .tc := ⟨.hbm, 126, rfl⟩
abbrev main_call1_call0_v5 : Ref sig .tc := ⟨.hbm, 127, rfl⟩
abbrev main_call1_call0_v6 : Ref sig .tc := ⟨.hbm, 128, rfl⟩
abbrev main_call1_call0_v7 : Ref sig .tc := ⟨.hbm, 129, rfl⟩
abbrev main_call1_call0_cst_1 : Ref sig .tc := ⟨.hbm, 130, rfl⟩
abbrev main_call1_call0_v8 : Ref sig .tc := ⟨.hbm, 131, rfl⟩
abbrev main_call1_call0_cst_2 : Ref sig .tc := ⟨.hbm, 132, rfl⟩
abbrev main_call1_call0_v9 : Ref sig .tc := ⟨.hbm, 133, rfl⟩
abbrev main_call1_call0_v10 : Ref sig .tc := ⟨.hbm, 134, rfl⟩
abbrev main_call1_call0_v11 : Ref sig .tc := ⟨.hbm, 135, rfl⟩
abbrev main_call1_call0_v12 : Ref sig .tc := ⟨.hbm, 136, rfl⟩
abbrev main_call1_call0_cst_3 : Ref sig .tc := ⟨.hbm, 137, rfl⟩
abbrev main_call1_call0_v13 : Ref sig .tc := ⟨.hbm, 138, rfl⟩
abbrev main_call1_call0_cst_4 : Ref sig .tc := ⟨.hbm, 139, rfl⟩
abbrev main_call1_call0_call0_v0 : Ref sig .tc := ⟨.hbm, 140, rfl⟩
abbrev main_call1_call0_call0_v1 : Ref sig .tc := ⟨.hbm, 141, rfl⟩
abbrev main_call1_v0 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩

abbrev nD : Nat := 1
abbrev τ : Topo := Topo.v7x

variable {F : FTy → Type} [FloatOps F]

class Facts₀ : Prop where
  bcast_S37_S37x1_0 : S37.BroadcastsInDim S37x1 (![0] : Fin 1 → Fin S37x1.rank)
  bcast_S12_S1x12_1 : S12.BroadcastsInDim S1x12 (![1] : Fin 1 → Fin S1x12.rank)
  bcast_S37x1_S37x12_0_1 : S37x1.BroadcastsInDim S37x12 (![0, 1] : Fin 2 → Fin S37x12.rank)
  bcast_S1x12_S37x12_0_1 : S1x12.BroadcastsInDim S37x12 (![0, 1] : Fin 2 → Fin S37x12.rank)
  bcast_S12_S12x1_0 : S12.BroadcastsInDim S12x1 (![0] : Fin 1 → Fin S12x1.rank)
  bcast_S5_S1x5_1 : S5.BroadcastsInDim S1x5 (![1] : Fin 1 → Fin S1x5.rank)
  bcast_S12x1_S12x5_0_1 : S12x1.BroadcastsInDim S12x5 (![0, 1] : Fin 2 → Fin S12x5.rank)
  bcast_S1x5_S12x5_0_1 : S1x5.BroadcastsInDim S12x5 (![0, 1] : Fin 2 → Fin S12x5.rank)
  bcast_S37x12_S37x1x12x1_0_2 : S37x12.BroadcastsInDim S37x1x12x1 (![0, 2] : Fin 2 → Fin S37x1x12x1.rank)
  bcast_S12x5_S1x12x1x5_1_3 : S12x5.BroadcastsInDim S1x12x1x5 (![1, 3] : Fin 2 → Fin S1x12x1x5.rank)
  bcast_S_S37x1x12x1 : S_.BroadcastsInDim S37x1x12x1 (![] : Fin 0 → Fin S37x1x12x1.rank)
  bcast_S_S1x12x1x5 : S_.BroadcastsInDim S1x12x1x5 (![] : Fin 0 → Fin S1x12x1x5.rank)
  bcast_S37x1x12x1_S37x12x12x5_0_1_2_3 : S37x1x12x1.BroadcastsInDim S37x12x12x5 (![0, 1, 2, 3] : Fin 4 → Fin S37x12x12x5.rank)
  bcast_S1x12x1x5_S37x12x12x5_0_1_2_3 : S1x12x1x5.BroadcastsInDim S37x12x12x5 (![0, 1, 2, 3] : Fin 4 → Fin S37x12x12x5.rank)
  bcast_S37x12x12x5_S37x12x12x5x1_0_1_2_3 : S37x12x12x5.BroadcastsInDim S37x12x12x5x1 (![0, 1, 2, 3] : Fin 4 → Fin S37x12x12x5x1.rank)
  concatenates_S37x12x12x5x1_S37x12x12x5x1_S37x12x12x5x2_d4 : Shape.Concatenates [S37x12x12x5x1, S37x12x12x5x1] S37x12x12x5x2 4
  transposes_S8x37x12x12x5x5_S8x5x37x12x12x5_0_5_1_2_3_4 : S8x37x12x12x5x5.Transposes [0, 5, 1, 2, 3, 4] S8x5x37x12x12x5
  shapeCasts_S8x5x37x12x12x5_S8x2220x60 : S8x5x37x12x12x5.ShapeCasts S8x2220x60
  reducesTo_S8x2220x60_S8x2220_d2 : S8x2220x60.ReducesTo [2] S8x2220
  h_S_ : 0 < S_.numel
  bcast_S8x2220_S8x2220x1_0_1 : S8x2220.BroadcastsInDim S8x2220x1 (![0, 1] : Fin 2 → Fin S8x2220x1.rank)
  bcast_S_S8x2220x1 : S_.BroadcastsInDim S8x2220x1 (![] : Fin 0 → Fin S8x2220x1.rank)
  bcast_S8x2220x1_S8x2220x60_0_1_2 : S8x2220x1.BroadcastsInDim S8x2220x60 (![0, 1, 2] : Fin 3 → Fin S8x2220x60.rank)
  shapeCasts_S8x2220x2220_S296x37x12x300 : S8x2220x2220.ShapeCasts S296x37x12x300
  gather_S8x48x16x5_S37x12x12x5x2_S8x37x12x12x5x5_05_12_n_n_12_4_8115_wf : GatherDims.WF S8x48x16x5 S37x12x12x5x2 S8x37x12x12x5x5 [0, 5] [1, 2] [] [1, 2] [] 4 ![8, 1, 1, 5]
  dot_S8x2220x60_S8x2220x60_S8x2220x2220_2_2_1_1_0_0_wf : DotDims.WF S8x2220x60 S8x2220x60 S8x2220x2220 [2] [2] [1] [1] [0] [0]

variable [Facts₀]

def gather_S8x48x16x5_S37x12x12x5x2_S8x37x12x12x5x5_05_12_n_n_12_4_8115 : GatherDims S8x48x16x5 S37x12x12x5x2 S8x37x12x12x5x5 where
  offsetDims := [0, 5]
  collapsedSliceDims := [1, 2]
  operandBatchingDims := []
  startIndicesBatchingDims := []
  startIndexMap := [1, 2]
  indexVectorDim := 4
  sliceSizes := ![8, 1, 1, 5]
  wf := gather_S8x48x16x5_S37x12x12x5x2_S8x37x12x12x5x5_05_12_n_n_12_4_8115_wf
def dot_S8x2220x60_S8x2220x60_S8x2220x2220_2_2_1_1_0_0 : DotDims S8x2220x60 S8x2220x60 S8x2220x2220 where
  lhsContracting := [2]
  rhsContracting := [2]
  lhsNonContracting := [1]
  rhsNonContracting := [1]
  lhsBatch := [0]
  rhsBatch := [0]
  wf := dot_S8x2220x60_S8x2220x60_S8x2220x2220_2_2_1_1_0_0_wf

class Facts : Prop extends Facts₀ where

variable [Facts]
-- ==== Proof.DataBits.lean ====
/-
  The proof data of the one pallas_call, on one core: what each window's staging buffer holds after the body at each
  of the 24 grid points (8 batches × 3 tiles of 768 rows), and the invariant that carries the scratch from point to point.

  Point t = 3·b + j is batch b, tile j. Window 0 is batch b's whole [2220, 60] block of the second patch array (fetched when
  the batch changes, at j = 0); window 1 is rows 768·j … of batch b's block of the first patch array, cut at row 2220 (so at
  j = 2 only its first 684 rows are rows of the array; the buffer's other 84 rows hold words nothing names); window 2 is
  columns 768·j … of batch b's [2220, 2220] output block, cut the same way and written back at every point.
  At j = 0 the body normalises window 0's block into the scratch; at every j it normalises window 1's block and stores the
  product of the scratch with its transpose. So between the points of one batch the scratch holds that batch's normalised
  block, and before a point with j = 0 what it holds is never read.
-/
import proofs.«116544_j88252987998983_2_alg».proof.Proof.Gen.Kernel.Frame
import proofs.«116544_j88252987998983_2_alg».proof.Proof.Gen.Kernel.Skeleton
import Idealize.ShloMosaic.Lib.Pipeline.Kit
import Idealize.ShloMosaic.Lib.Pipeline.Value
import Idealize.ShloMosaic.Lib.Tactic

set_option maxRecDepth 16384

noncomputable section

namespace Cert.Kernel.Data

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- The first point of point t's batch. -/
def batchHead (t : Fin cfg0.N) : Fin cfg0.N := ⟨3 * (t.val / 3), by have := t.isLt; have : cfg0.N = 24 := N_0; omega⟩

/-- Batch b's normalised block of the second patch array, as the body computes it from window 0's block at the
    batch's first point: what the scratch holds between the points of that batch. -/
def normed (c : Dev nD) (t : Fin cfg0.N) : S2220x60.Idx → Elt F .bf16 :=
  k0_pay1 (iblk m c 0 (batchHead t))

/-- Window 1's block at point t as the fetch reads it (its rows inside the array), filled out past the array's end
    with the zero word: nothing reads those rows of it. -/
def rowsBlk (c : Dev nD) (t : Fin cfg0.N) : S1x768x60.Idx → Elt F .f32 :=
  win0_1.fill (grid0.coords t) (fun _ => Scalar.ofBits .f32 0#32) (iblk m c 1 t)

/-- What the body stores into window 2's buffer at point t, computed from the filled-out block: on the columns inside
    the array it is what the body stores whatever the buffer's other rows held. -/
def outBlk (c : Dev nD) (t : Fin cfg0.N) : S1x2220x768.Idx → Elt F .f32 :=
  k0_pay2 (rowsBlk m c t) (normed m c t)

/-! ## The proof data -/

/-- The scratch's part of the invariant before point t (t = 24: after the last point): at the head of a batch, any
    contents; inside a batch, the batch's normalised block. -/
def scratchAt (c : Dev nD) (t : Fin (cfg0.N + 1)) : sProp 𝕄 :=
  if h : t.val % 3 = 0 then iprop(∃ f : Buf (Elt F) ((c : Thread nD τ).loc cc0_scratch0), ((c : Thread nD τ).loc cc0_scratch0) ↦{fullShare} f)
  else owns (c : Thread nD τ) (Memref.whole cc0_scratch0) fullShare
    (normed m c ⟨t.val - 1, by have := t.isLt; have : cfg0.N = 24 := N_0; omega⟩)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => rowsBlk m c t
    | ⟨2, _⟩ => outBlk m c t
  Φ t := iprop(scratchAt m c t ∗ ∃ r, prngReg c r)
  q _ := fullShare
  owed _ := 0

/-! ## What the body finds -/

/-- Window 2 is an output: never fetched. -/
theorem fetch0_2 : ∀ t : Fin cfg0.N, (cfg0.win 2).fetch t = false :=
  (by decide +kernel : ∀ t : Fin grid0.N, win0_2.fetch t = false)

/-- Window 0's buffer holds batch b's block at every point of the batch, fetched there or not. -/
theorem before_0 (c : Dev nD) (t : Fin cfg0.N) (d) : (dats m 0 c).before (0 : Fin 3) t d = iblk m c 0 t :=
  before0_0_of m (dats m 0 c) rfl (fun _ => rfl) t d

/-- Window 1's buffer was just fetched: the block's rows inside the array, anything below them. -/
theorem before_1 (c : Dev nD) (t : Fin cfg0.N) (d) :
    (dats m 0 c).before (1 : Fin 3) t d = win0_1.fill (grid0.coords t) d (iblk m c 1 t) := by
  unfold Dat.before; rw [if_pos (fetch0_1 t)]; rfl

/-- Window 2's buffer holds contents nothing names: it was written back at the previous point. -/
theorem before_2 (c : Dev nD) (t : Fin cfg0.N) (d) : (dats m 0 c).before (2 : Fin 3) t d = d := by
  unfold Dat.before
  rw [if_neg (by rw [fetch0_2 t]; exact Bool.false_ne_true)]
  by_cases h0 : t.val = 0
  · rw [if_pos h0]
  · rw [if_neg h0]; exact if_pos (flush0_2 _)

/-! ## The invariant's two ends -/

theorem scratchAt_head (c : Dev nD) (t : Fin (cfg0.N + 1)) (h : t.val % 3 = 0) :
    scratchAt m c t = iprop(∃ f : Buf (Elt F) ((c : Thread nD τ).loc cc0_scratch0), ((c : Thread nD τ).loc cc0_scratch0) ↦{fullShare} f) := by
  unfold scratchAt; rw [dif_pos h]

theorem scratchAt_inside (c : Dev nD) (t : Fin (cfg0.N + 1)) (h : ¬ t.val % 3 = 0) :
    scratchAt m c t = owns (c : Thread nD τ) (Memref.whole cc0_scratch0) fullShare
      (normed m c ⟨t.val - 1, by have := t.isLt; have : cfg0.N = 24 := N_0; omega⟩) := by
  unfold scratchAt; rw [dif_neg h]

/-- Entering the region the scratch holds anything: that is the invariant before point 0. -/
theorem phi_in (c : Dev nD) : Pipeline.ΦA spec0 c ⊢ ((dats m 0 c).Φ 0 : sProp 𝕄) := by
  unfold Pipeline.ΦA
  rw [scopedRest0_eq]
  show _ ⊢ iprop(scratchAt m c 0 ∗ ∃ r, prngReg c r)
  rw [scratchAt_head m c 0 (by decide)]

/-- After the last point (24 = 3·8) the invariant asks nothing of the scratch's contents: the region's own. -/
theorem phi_out (c : Dev nD) : ((dats m 0 c).Φ (Fin.last cfg0.N) : sProp 𝕄) ⊢ Pipeline.ΦA spec0 c := by
  unfold Pipeline.ΦA
  rw [scopedRest0_eq]
  show iprop(scratchAt m c (Fin.last cfg0.N) ∗ ∃ r, prngReg c r) ⊢ _
  rw [scratchAt_head m c (Fin.last cfg0.N) (by decide +kernel)]

end Cert.Kernel.Data

end
-- ==== Proof.BodyBits.lean ====
import proofs.«116544_j88252987998983_2_alg».proof.Proof.Gen.Kernel.Skeleton
import proofs.«116544_j88252987998983_2_alg».proof.Proof.Gen.Kernel.Launch
import Idealize.ShloMosaic.Lib.Pipeline.Kit
import Idealize.ShloMosaic.Lib.Tactic
import Idealize.ShloMosaic.Lib.WholeRead

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-! ## Whole buffers read and written through the rectangle of their own sizes at offsets zero

Every access of the kernel function is of a whole buffer: the rectangle at offsets zero (spelt as a vector
literal) of the buffer's own sizes. Through it a load reads the contents, one store leaves its payload,
and a load after that store reads the payload back. -/

/-- The printed zero offsets of a rank-2 access are the constant zero; -/
theorem zero2 : (![0, 0] : Fin 2 → Nat) = fun _ => 0 := funext fun a => by fin_cases a <;> rfl
/-- of a rank-3 access likewise. -/
theorem zero3 : (![0, 0, 0] : Fin 3 → Nat) = fun _ => 0 := funext fun a => by fin_cases a <;> rfl

/-- A whole memref held at the raw contents that read `X`, loaded whole, reads `X`. -/
theorem readAt_whole_unread {κ : Kind} {sp : Space} {s : Shape} {e : EltTy} {m : Memref sig κ sp s e} (h : m.IsWhole)
    {off : Fin s.rank → Nat} (hz : off = fun _ => 0) (inb : ∀ a, off a + s.size a ≤ s.size a) (X : s.Idx → Elt F e) :
    m.view.readAt (Elt F) (Rect.unit off s.size inb).toLoadRect (h.unread X) = X := by
  funext x
  rw [h.readAt_unread X]
  exact congrFun (View.ld_unit_zero hz inb X) x

/-- One whole store into a memref's buffer, whatever it held, reads back as the payload. -/
theorem read_writes_whole {κ : Kind} {sp : Space} {s : Shape} {e : EltTy} (m : Memref sig κ sp s e)
    {off : Fin s.rank → Nat} (hz : off = fun _ => 0) (inb : ∀ a, off a + s.size a ≤ s.size a)
    (f : m.view.ty.Contents (Elt F)) (w : s.Idx → Elt F e) :
    m.view.read (Elt F) (m.view.writes (Elt F) f [(⟨Rect.unit off s.size inb, w⟩ : View.Piece (Elt F) s e)]) = w := by
  rw [View.read_writes_eq_canon _ _ _ (fun y => ⟨_, List.mem_singleton_self _, View.mem_set_unit_zero hz inb y⟩),
    View.canon_unit_zero hz inb w]

/-! ## The kernel function's one condition -/

/-- The condition of the kernel function's `scf.if`, as the printed program computes it from the M-tile
    coordinate: `program_id(1) == 0`, widened to a word and compared with zero. -/
abbrev firstTile (i : grid0.Coords) : Prop :=
  (Scalar.cmpi .ne (Scalar.extui (Scalar.cmpi .eq (BitVec.ofNat 32 (i 1).val) 0#32)) 0#32) = 1#1

/-- It holds exactly at M-tile 0 (the coordinate is below 3: the three cases are computed). -/
theorem firstTile_iff (i : grid0.Coords) : firstTile i ↔ (i 1).val = 0 := by
  have key : ∀ n : Fin 3, ((Scalar.cmpi .ne (Scalar.extui (Scalar.cmpi .eq (BitVec.ofNat 32 n.val) 0#32)) 0#32) = 1#1)
      ↔ n.val = 0 := by decide
  exact key (i 1)

/-! ## The kernel function on any four whole memrefs -/

/-- At M-tile 0: the first window's buffer is loaded whole, its normalised block `k0_pay1 X0` stored whole into
    the scratch (the load of the scratch before it is dead); then the second window's buffer and the scratch —
    now that block — are loaded whole and `k0_pay2` of the two stored whole into the output's buffer (the load of
    the output's buffer is dead). The two inputs' buffers are as they were. -/
theorem sound_first (c : Dev nD) (E : Set ℕ) (i : grid0.Coords) (hc : firstTile i)
    (arg2 : Memref sig .tc .vmem S1x2220x60 .f32) (harg2 : arg2.IsWhole) (arg3 : Memref sig .tc .vmem S1x768x60 .f32) (harg3 : arg3.IsWhole)
    (arg4 : Memref sig .tc .vmem S1x2220x768 .f32) (harg4 : arg4.IsWhole) (arg5 : Memref sig .tc .vmem S2220x60 .bf16) (harg5 : arg5.IsWhole)
    (X0 : S1x2220x60.Idx → Elt F .f32) (X1 : S1x768x60.Idx → Elt F .f32) (X2 : S1x2220x768.Idx → Elt F .f32)
    (S : S2220x60.Idx → Elt F .bf16) (K : PUnit → sProp 𝕄) :
    iprop((owns (c : Thread nD τ) arg2 fullShare X0 ∗ owns (c : Thread nD τ) arg3 fullShare X1
            ∗ owns (c : Thread nD τ) arg4 fullShare X2 ∗ owns (c : Thread nD τ) arg5 fullShare S)
          ∗ (iprop(owns (c : Thread nD τ) arg2 fullShare X0 ∗ owns (c : Thread nD τ) arg3 fullShare X1
                  ∗ owns (c : Thread nD τ) arg4 fullShare (k0_pay2 X1 (k0_pay1 X0))
                  ∗ owns (c : Thread nD τ) arg5 fullShare (k0_pay1 X0)) -∗ K ⟨⟩))
      ⊢ wp frame (wpE (defs₀ (F := F)) Variants.none c none) E
          (cc0__corr_kernel i arg2 harg2 arg3 harg3 arg4 harg4 arg5 harg5) K := by
  simp only [cc0__corr_kernel_eq_skeleton]; unfold cc0__corr_kernel_skel
  unfold owns
  iintro ⟨⟨⟨%f0, %hf0, H0⟩, ⟨%f1, %hf1, H1⟩, ⟨%f2, %hf2, H2⟩, ⟨%f5, %hf5, H5⟩⟩, Hk⟩
  obtain rfl := harg2.eq_unread hf0; obtain rfl := harg3.eq_unread hf1
  obtain rfl := harg4.eq_unread hf2; obtain rfl := harg5.eq_unread hf5
  sl_exec (disch := first | exact hc)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [read_writes_whole arg4 zero3, readAt_whole_unread harg3 zero3, View.readCov_unit_zero _ zero2,
      readAt_whole_unread harg2 zero3]
  · iexists _; isplitr; swap; · iexact H5
    ipureintro
    rw [read_writes_whole arg5 zero2, readAt_whole_unread harg2 zero3]

/-- At a later M-tile: the branch is not taken and the scratch keeps what it held, `S`; the second window's
    buffer and the scratch are loaded whole and `k0_pay2` of the two stored whole into the output's buffer. -/
theorem sound_later (c : Dev nD) (E : Set ℕ) (i : grid0.Coords) (hc : ¬firstTile i)
    (arg2 : Memref sig .tc .vmem S1x2220x60 .f32) (harg2 : arg2.IsWhole) (arg3 : Memref sig .tc .vmem S1x768x60 .f32) (harg3 : arg3.IsWhole)
    (arg4 : Memref sig .tc .vmem S1x2220x768 .f32) (harg4 : arg4.IsWhole) (arg5 : Memref sig .tc .vmem S2220x60 .bf16) (harg5 : arg5.IsWhole)
    (X0 : S1x2220x60.Idx → Elt F .f32) (X1 : S1x768x60.Idx → Elt F .f32) (X2 : S1x2220x768.Idx → Elt F .f32)
    (S : S2220x60.Idx → Elt F .bf16) (K : PUnit → sProp 𝕄) :
    iprop((owns (c : Thread nD τ) arg2 fullShare X0 ∗ owns (c : Thread nD τ) arg3 fullShare X1
            ∗ owns (c : Thread nD τ) arg4 fullShare X2 ∗ owns (c : Thread nD τ) arg5 fullShare S)
          ∗ (iprop(owns (c : Thread nD τ) arg2 fullShare X0 ∗ owns (c : Thread nD τ) arg3 fullShare X1
                  ∗ owns (c : Thread nD τ) arg4 fullShare (k0_pay2 X1 S)
                  ∗ owns (c : Thread nD τ) arg5 fullShare S) -∗ K ⟨⟩))
      ⊢ wp frame (wpE (defs₀ (F := F)) Variants.none c none) E
          (cc0__corr_kernel i arg2 harg2 arg3 harg3 arg4 harg4 arg5 harg5) K := by
  simp only [cc0__corr_kernel_eq_skeleton]; unfold cc0__corr_kernel_skel
  unfold owns
  iintro ⟨⟨⟨%f0, %hf0, H0⟩, ⟨%f1, %hf1, H1⟩, ⟨%f2, %hf2, H2⟩, ⟨%f5, %hf5, H5⟩⟩, Hk⟩
  obtain rfl := harg2.eq_unread hf0; obtain rfl := harg3.eq_unread hf1
  obtain rfl := harg4.eq_unread hf2; obtain rfl := harg5.eq_unread hf5
  sl_exec (disch := first | exact hc)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [read_writes_whole arg4 zero3, readAt_whole_unread harg3 zero3, readAt_whole_unread harg5 zero2]
  · iexists _; isplitr; · ipureintro; exact harg5.read_unread _
    iexact H5

/-! ## The body's triple at the pipeline's buffers -/

/-- What the scratch holds after the body at a point whose M-tile coordinate is `i 1`: the normalised block of the
    first window's buffer at tile 0, what it held otherwise. -/
def scratchAfter (i : grid0.Coords) (X0 : S1x2220x60.Idx → Elt F .f32) (S : S2220x60.Idx → Elt F .bf16) :
    S2220x60.Idx → Elt F .bf16 :=
  if (i 1).val = 0 then k0_pay1 X0 else S

/-- The kernel function on any four whole memrefs, the two cases in one statement. -/
theorem sound_kernel (c : Dev nD) (E : Set ℕ) (i : grid0.Coords)
    (arg2 : Memref sig .tc .vmem S1x2220x60 .f32) (harg2 : arg2.IsWhole) (arg3 : Memref sig .tc .vmem S1x768x60 .f32) (harg3 : arg3.IsWhole)
    (arg4 : Memref sig .tc .vmem S1x2220x768 .f32) (harg4 : arg4.IsWhole) (arg5 : Memref sig .tc .vmem S2220x60 .bf16) (harg5 : arg5.IsWhole)
    (X0 : S1x2220x60.Idx → Elt F .f32) (X1 : S1x768x60.Idx → Elt F .f32) (X2 : S1x2220x768.Idx → Elt F .f32)
    (S : S2220x60.Idx → Elt F .bf16) (K : PUnit → sProp 𝕄) :
    iprop((owns (c : Thread nD τ) arg2 fullShare X0 ∗ owns (c : Thread nD τ) arg3 fullShare X1
            ∗ owns (c : Thread nD τ) arg4 fullShare X2 ∗ owns (c : Thread nD τ) arg5 fullShare S)
          ∗ (iprop(owns (c : Thread nD τ) arg2 fullShare X0 ∗ owns (c : Thread nD τ) arg3 fullShare X1
                  ∗ owns (c : Thread nD τ) arg4 fullShare (k0_pay2 X1 (scratchAfter i X0 S))
                  ∗ owns (c : Thread nD τ) arg5 fullShare (scratchAfter i X0 S)) -∗ K ⟨⟩))
      ⊢ wp frame (wpE (defs₀ (F := F)) Variants.none c none) E
          (cc0__corr_kernel i arg2 harg2 arg3 harg3 arg4 harg4 arg5 harg5) K := by
  by_cases h : (i 1).val = 0
  · rw [show scratchAfter i X0 S = k0_pay1 X0 from if_pos h]
    exact sound_first c E i ((firstTile_iff i).2 h) arg2 harg2 arg3 harg3 arg4 harg4 arg5 harg5 X0 X1 X2 S K
  · rw [show scratchAfter i X0 S = S from if_neg h]
    exact sound_later c E i (fun hf => h ((firstTile_iff i).1 hf)) arg2 harg2 arg3 harg3 arg4 harg4 arg5 harg5 X0 X1 X2 S K

/-- The kernel body on staging buffers `s0`, `s1` of the two input windows, `s2` of the output's, and the scratch:
    the inputs' buffers unchanged, the scratch at `scratchAfter`, the output's buffer at `k0_pay2` of the second
    input's contents and the scratch's. -/
theorem sound_body (c : Dev nD) (E : Set ℕ) (i : grid0.Coords) (s0 s1 s2 : Fin 2)
    (X0 : S1x2220x60.Idx → Elt F .f32) (X1 : S1x768x60.Idx → Elt F .f32) (X2 : S1x2220x768.Idx → Elt F .f32)
    (S : S2220x60.Idx → Elt F .bf16) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (Memref.whole cc0_scratch0) fullShare S)
          ∗ (iprop(owns (c : Thread nD τ) (stage0_0 s0) fullShare X0 ∗ owns (c : Thread nD τ) (stage0_1 s1) fullShare X1
                  ∗ owns (c : Thread nD τ) (stage0_2 s2) fullShare (k0_pay2 X1 (scratchAfter i X0 S))
                  ∗ owns (c : Thread nD τ) (Memref.whole cc0_scratch0) fullShare (scratchAfter i X0 S)) -∗ K ⟨⟩))
      ⊢ wp frame (wpE (defs₀ (F := F)) Variants.none c none) E
          (cc0__corr_kernel i (stage0_0 s0) (hstage0_0 s0) (stage0_1 s1) (hstage0_1 s1) (stage0_2 s2) (hstage0_2 s2)
            (Memref.whole cc0_scratch0) (Memref.isWhole_whole _)) K :=
  sound_kernel c E i (stage0_0 s0) (hstage0_0 s0) (stage0_1 s1) (hstage0_1 s1) (stage0_2 s2) (hstage0_2 s2)
    (Memref.whole cc0_scratch0) (Memref.isWhole_whole _) X0 X1 X2 S K

end Cert.Kernel.Body

end
-- ==== Proof.OblBits.lean ====
/-
  The body obligation of the pallas_call at each of its 24 points, for the frame of the word-level program: the output
  window's buffer is handed to the body at any contents and taken back at any contents (nothing of what the body stores there
  is named), so the obligation needs no law of the float operations.

  At point t = 3·b + j the body finds window 0's buffer at batch b's block, window 1's at its block's rows inside the array
  with anything below them, and the scratch at anything (j = 0) or at batch b's normalised block (j > 0). It leaves windows 0
  and 1 as they were and the scratch at batch b's normalised block.
-/
import proofs.«116544_j88252987998983_2_alg».proof.Proof.DataBits
import proofs.«116544_j88252987998983_2_alg».proof.Proof.BodyBits

set_option maxRecDepth 16384

noncomputable section

namespace Cert.Kernel.Data

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's arithmetic -/

/-- Point t's tile coordinate is t mod 3. -/
theorem tile_eq : ∀ t : Fin cfg0.N, ((grid0.coords t) 1).val = t.val % 3 :=
  (by decide +kernel : ∀ t : Fin grid0.N, ((grid0.coords t) 1).val = t.val % 3)

theorem batchHead_of_head (t : Fin cfg0.N) (h : t.val % 3 = 0) : batchHead t = t :=
  Fin.ext (by show 3 * (t.val / 3) = t.val; omega)

theorem batchHead_pred (t : Fin cfg0.N) (h : ¬ t.val % 3 = 0) (hlt) : batchHead (⟨t.val - 1, hlt⟩ : Fin cfg0.N) = batchHead t :=
  Fin.ext (by show 3 * ((t.val - 1) / 3) = 3 * (t.val / 3); omega)

/-- At the head of a batch the batch's normalised block is the normalised block of the point's own window-0 block. -/
theorem normed_head (c : Dev nD) (t : Fin cfg0.N) (h : t.val % 3 = 0) : normed m c t = k0_pay1 (iblk m c 0 t) := by
  unfold normed; rw [batchHead_of_head t h]

/-- Inside a batch the previous point's batch is the point's. -/
theorem normed_pred (c : Dev nD) (t : Fin cfg0.N) (h : ¬ t.val % 3 = 0) (hlt) :
    normed m c (⟨t.val - 1, hlt⟩ : Fin cfg0.N) = normed m c t := by
  unfold normed; rw [batchHead_pred t h hlt]

/-- What the scratch holds after the body at point t, whatever it held before a batch's head: the batch's normalised block. -/
theorem scratchAfter_head (c : Dev nD) (t : Fin cfg0.N) (h : t.val % 3 = 0) (S : S2220x60.Idx → Elt F .bf16) :
    scratchAfter (grid0.coords t) (iblk m c 0 t) S = normed m c t := by
  unfold scratchAfter; rw [if_pos (by rw [tile_eq t]; exact h), normed_head m c t h]

theorem scratchAfter_inside (t : Fin cfg0.N) (h : ¬ t.val % 3 = 0) (X0 : S1x2220x60.Idx → Elt F .f32) (S : S2220x60.Idx → Elt F .bf16) :
    scratchAfter (grid0.coords t) X0 S = S := by
  unfold scratchAfter; rw [if_neg (by rw [tile_eq t]; exact h)]

/-! ## The obligation at a point -/

/-- The output window is forgotten: nothing reads what the kernel leaves in its buffer. -/
def forgets : Fin 3 → Bool := fun w => w.val == 2

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns: window 0's buffer exactly, window 1's up to what lies outside the part its transfers move, window 2's at anything. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ X, owns (c : Thread nD τ) (st0_2 t) fullShare X))

theorem sound_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).after 0 t = iblk m c 0 t from by dsimp only [dats],
    show (dats m 0 c).after 1 t = rowsBlk m c t from by dsimp only [dats],
    show (dats m 0 c).owesAt () t.succ = (dats m 0 c).owesAt () t.castSucc from rfl,
    show (dats m 0 c).Φ t.castSucc = iprop(scratchAt m c t.castSucc ∗ ∃ r, prngReg c r) from by dsimp only [dats],
    show (dats m 0 c).Φ t.succ = iprop(scratchAt m c t.succ ∗ ∃ r, prngReg c r) from by dsimp only [dats]]
  have hN : t.val < 24 := lt_of_lt_of_eq t.isLt (show cfg0.N = 24 from N_0)
  -- window 1 ends as it was found: its block's rows inside the array, the same words below them
  have hrows : ∀ d, win0_1.fill (grid0.coords t) d (win0_1.cut (grid0.coords t) (rowsBlk m c t)) = win0_1.fill (grid0.coords t) d (iblk m c 1 t) := by
    intro d; unfold rowsBlk; rw [win0_1.cut_fill]
  by_cases h : t.val % 3 = 0
  · -- the head of a batch: the scratch held anything, and is overwritten with the batch's normalised block
    have h' : ¬ (t.succ : Fin (cfg0.N + 1)).val % 3 = 0 := by show ¬ (t.val + 1) % 3 = 0; omega
    rw [scratchAt_head m c t.castSucc h, scratchAt_inside m c t.succ h']
    iintro ⟨⟨⟨%f, Hs⟩, Hr⟩, Ho, ⟨%d0, H0⟩, ⟨%d1, H1⟩, ⟨%d2, H2⟩⟩
    iapply (sound_body c Set.univ (grid0.coords t) ((cfg0.slots t 0).cast nbuf0_0) ((cfg0.slots t 1).cast nbuf0_1)
      ((cfg0.slots t 2).cast nbuf0_2) (iblk m c 0 t) (win0_1.fill (grid0.coords t) d1 (iblk m c 1 t)) d2 f _)
    isplitl [H0 H1 H2 Hs]
    · isplitl [H0]; · iexact H0
      isplitl [H1]; · iexact H1
      isplitl [H2]; · iexact H2
      rw [owns_whole]; iexact Hs
    rw [scratchAfter_head m c t h f]
    iintro ⟨H0, H1, H2, Hs⟩
    isplitl [Hs Hr]
    · isplitl [Hs]; · iexact Hs
      iexact Hr
    isplitl [Ho]; · iexact Ho
    isplitl [H0]; · iexact H0
    isplitl [H1]
    · iexists d1; rw [hrows]; iexact H1
    · iexists _; iexact H2
  · -- inside a batch: the scratch holds the batch's normalised block, and keeps it
    have hlt : t.val - 1 < cfg0.N := by have : cfg0.N = 24 := N_0; omega
    rw [scratchAt_inside m c t.castSucc h, show (⟨(t.castSucc : Fin (cfg0.N + 1)).val - 1, _⟩ : Fin cfg0.N) = ⟨t.val - 1, hlt⟩ from rfl,
      normed_pred m c t h hlt]
    iintro ⟨⟨Hs, Hr⟩, Ho, ⟨%d0, H0⟩, ⟨%d1, H1⟩, ⟨%d2, H2⟩⟩
    iapply (sound_body c Set.univ (grid0.coords t) ((cfg0.slots t 0).cast nbuf0_0) ((cfg0.slots t 1).cast nbuf0_1)
      ((cfg0.slots t 2).cast nbuf0_2) (iblk m c 0 t) (win0_1.fill (grid0.coords t) d1 (iblk m c 1 t)) d2 (normed m c t) _)
    isplitl [H0 H1 H2 Hs]
    · isplitl [H0]; · iexact H0
      isplitl [H1]; · iexact H1
      isplitl [H2]; · iexact H2
      iexact Hs
    rw [scratchAfter_inside t h]
    iintro ⟨H0, H1, H2, Hs⟩
    isplitl [Hs Hr]
    · isplitl [Hs]
      · by_cases h2 : (t.succ : Fin (cfg0.N + 1)).val % 3 = 0
        · rw [scratchAt_head m c t.succ h2]; iexists _; rw [← owns_whole]; iexact Hs
        · rw [scratchAt_inside m c t.succ h2]; iexact Hs
      iexact Hr
    isplitl [Ho]; · iexact Ho
    isplitl [H0]; · iexact H0
    isplitl [H1]
    · iexists d1; rw [hrows]; iexact H1
    · iexists _; iexact H2

/-- The library's body obligation, at every point, the output window forgotten. -/
theorem body_obligation (c : Dev nD) :
    BodyObligationLoose (dats (F := F) m 0 c) (defs₀ (F := F)) Variants.none () Set.univ forgets := fun t => by
  rw [bigSep_W0, bigSep_W0]
  exact sound_point m c t

end Cert.Kernel.Data

end
-- ==== Proof.FrameBits.lean ====
/-
  The run of the word-level kernel program and its frame.

  The output window is forgotten: nothing is said of what the kernel stores in it, nor of the result the host operation after
  the region computes from it. What remains is that every weakly fair execution terminates, nothing faults, and every buffer
  that is neither one of the pipeline's arrays nor written by that last operation ends as the region found it — among them
  the two argument arrays, which no host operation writes.
-/
import proofs.«116544_j88252987998983_2_alg».proof.Proof.OblBits
import Idealize.ShloMosaic.Lib.Pipeline.FrameSuffix

set_option maxRecDepth 16384

noncomputable section

namespace Cert.Kernel.Data

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The proof data's arrays are the contents the region finds. -/
theorem A_eq (c : Dev nD) (w : Fin cfg0.W) : (dats m 0 c).A w = V m c (Pipeline.arrRef spec0 w) := by
  dsimp only [dats]

/-- The one buffer the host operation after the region writes: its result. -/
def tailWrites : Finset (Ref sig .tc) := {main_v69}

theorem sfx_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  exact Finset.mem_singleton.mpr (Proc.devRef_injective _ hb)

set_option backward.isDefEq.respectTransparency.types false in
theorem run_main :
    θ_run defs (onTc (τ := τ) (main (F := F))) (s₀ m ρ)
      (Pipeline.RDat.FramePostR (cfgs 0) (fun c => (dats m 0 c).toRForget forgets) tailWrites (V m)) :=
  Pipeline.RDat.θ_run_frame_around_T_track cfgs (0 : Fin 1) launch0 defs₀ Variants.none
    (fun c => (dats m 0 c).toRForget forgets) tailWrites m ρ main
    (hbody := fun c => (body_obligation m c).toRForget)
    (hshare := fun c => ((dats m 0 c).toRForget forgets).share_full fun _ => rfl) (howed := fun _ _ => rfl)
    (V₀ := V0 m) (opss := [hostOps1]) (hsub := sfx_sub) (hfresh := sfx_fresh) (hkeep := sfx_keeps) (hT := sfx_writes)
    (hmain := hmain m Variants.none) (hA := A_eq m) (hin := phi_in m) (hout := phi_out m)

/-- The frame: the two argument arrays end as they began. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide),
        fun hm => absurd (Finset.mem_singleton.mp hm) (by decide)⟩)).trans (V_main_arg0 m c),
     ((h c).2 main_arg1 (Finset.mem_sdiff.mpr ⟨Pipeline.mem_restRefs_of main_arg1 (by decide) (by decide),
        fun hm => absurd (Finset.mem_singleton.mp hm) (by decide)⟩)).trans (V_main_arg1 m c)⟩) (run_main m ρ)

end Cert.Kernel.Data

end
-- ==== Proof.DataIdeal.lean ====
/-
  The proof data of the one pallas_call, on one core: what each window's staging buffer holds after the body at each
  of the 24 grid points (8 batches × 3 tiles of 768 rows), and the invariant that carries the scratch from point to point.

  Point t = 3·b + j is batch b, tile j. Window 0 is batch b's whole [2220, 60] block of the second patch array (fetched when
  the batch changes, at j = 0); window 1 is rows 768·j … of batch b's block of the first patch array, cut at row 2220 (so at
  j = 2 only its first 684 rows are rows of the array; the buffer's other 84 rows hold words nothing names); window 2 is
  columns 768·j … of batch b's [2220, 2220] output block, cut the same way and written back at every point.
  At j = 0 the body normalises window 0's block into the scratch; at every j it normalises window 1's block and stores the
  product of the scratch with its transpose. So between the points of one batch the scratch holds that batch's normalised
  block, and before a point with j = 0 what it holds is never read.
-/
import proofs.«116544_j88252987998983_2_alg».proof.Proof.Gen.KernelIdeal.Frame
import proofs.«116544_j88252987998983_2_alg».proof.Proof.Gen.KernelIdeal.Skeleton
import Idealize.ShloMosaic.Lib.Pipeline.Kit
import Idealize.ShloMosaic.Lib.Pipeline.Value
import Idealize.ShloMosaic.Lib.Tactic

set_option maxRecDepth 16384

noncomputable section

namespace Cert.KernelIdeal.Data

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- The first point of point t's batch. -/
def batchHead (t : Fin cfg0.N) : Fin cfg0.N := ⟨3 * (t.val / 3), by have := t.isLt; have : cfg0.N = 24 := N_0; omega⟩

/-- Batch b's normalised block of the second patch array, as the body computes it from window 0's block at the
    batch's first point: what the scratch holds between the points of that batch. -/
def normed (c : Dev nD) (t : Fin cfg0.N) : S2220x60.Idx → Elt F .bf16 :=
  k0_pay1 (iblk m c 0 (batchHead t))

/-- Window 1's block at point t as the fetch reads it (its rows inside the array), filled out past the array's end
    with the zero word: nothing reads those rows of it. -/
def rowsBlk (c : Dev nD) (t : Fin cfg0.N) : S1x768x60.Idx → Elt F .f32 :=
  win0_1.fill (grid0.coords t) (fun _ => Scalar.ofBits .f32 0#32) (iblk m c 1 t)

/-- What the body stores into window 2's buffer at point t, computed from the filled-out block: on the columns inside
    the array it is what the body stores whatever the buffer's other rows held. -/
def outBlk (c : Dev nD) (t : Fin cfg0.N) : S1x2220x768.Idx → Elt F .f32 :=
  k0_pay2 (rowsBlk m c t) (normed m c t)

/-! ## The proof data -/

/-- The scratch's part of the invariant before point t (t = 24: after the last point): at the head of a batch, any
    contents; inside a batch, the batch's normalised block. -/
def scratchAt (c : Dev nD) (t : Fin (cfg0.N + 1)) : sProp 𝕄 :=
  if h : t.val % 3 = 0 then iprop(∃ f : Buf (Elt F) ((c : Thread nD τ).loc cc0_scratch0), ((c : Thread nD τ).loc cc0_scratch0) ↦{fullShare} f)
  else owns (c : Thread nD τ) (Memref.whole cc0_scratch0) fullShare
    (normed m c ⟨t.val - 1, by have := t.isLt; have : cfg0.N = 24 := N_0; omega⟩)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => rowsBlk m c t
    | ⟨2, _⟩ => outBlk m c t
  Φ t := iprop(scratchAt m c t ∗ ∃ r, prngReg c r)
  q _ := fullShare
  owed _ := 0

/-! ## What the body finds -/

/-- Window 2 is an output: never fetched. -/
theorem fetch0_2 : ∀ t : Fin cfg0.N, (cfg0.win 2).fetch t = false :=
  (by decide +kernel : ∀ t : Fin grid0.N, win0_2.fetch t = false)

/-- Window 0's buffer holds batch b's block at every point of the batch, fetched there or not. -/
theorem before_0 (c : Dev nD) (t : Fin cfg0.N) (d) : (dats m 0 c).before (0 : Fin 3) t d = iblk m c 0 t :=
  before0_0_of m (dats m 0 c) rfl (fun _ => rfl) t d

/-- Window 1's buffer was just fetched: the block's rows inside the array, anything below them. -/
theorem before_1 (c : Dev nD) (t : Fin cfg0.N) (d) :
    (dats m 0 c).before (1 : Fin 3) t d = win0_1.fill (grid0.coords t) d (iblk m c 1 t) := by
  unfold Dat.before; rw [if_pos (fetch0_1 t)]; rfl

/-- Window 2's buffer holds contents nothing names: it was written back at the previous point. -/
theorem before_2 (c : Dev nD) (t : Fin cfg0.N) (d) : (dats m 0 c).before (2 : Fin 3) t d = d := by
  unfold Dat.before
  rw [if_neg (by rw [fetch0_2 t]; exact Bool.false_ne_true)]
  by_cases h0 : t.val = 0
  · rw [if_pos h0]
  · rw [if_neg h0]; exact if_pos (flush0_2 _)

/-! ## The invariant's two ends -/

theorem scratchAt_head (c : Dev nD) (t : Fin (cfg0.N + 1)) (h : t.val % 3 = 0) :
    scratchAt m c t = iprop(∃ f : Buf (Elt F) ((c : Thread nD τ).loc cc0_scratch0), ((c : Thread nD τ).loc cc0_scratch0) ↦{fullShare} f) := by
  unfold scratchAt; rw [dif_pos h]

theorem scratchAt_inside (c : Dev nD) (t : Fin (cfg0.N + 1)) (h : ¬ t.val % 3 = 0) :
    scratchAt m c t = owns (c : Thread nD τ) (Memref.whole cc0_scratch0) fullShare
      (normed m c ⟨t.val - 1, by have := t.isLt; have : cfg0.N = 24 := N_0; omega⟩) := by
  unfold scratchAt; rw [dif_neg h]

/-- Entering the region the scratch holds anything: that is the invariant before point 0. -/
theorem phi_in (c : Dev nD) : Pipeline.ΦA spec0 c ⊢ ((dats m 0 c).Φ 0 : sProp 𝕄) := by
  unfold Pipeline.ΦA
  rw [scopedRest0_eq]
  show _ ⊢ iprop(scratchAt m c 0 ∗ ∃ r, prngReg c r)
  rw [scratchAt_head m c 0 (by decide)]

/-- After the last point (24 = 3·8) the invariant asks nothing of the scratch's contents: the region's own. -/
theorem phi_out (c : Dev nD) : ((dats m 0 c).Φ (Fin.last cfg0.N) : sProp 𝕄) ⊢ Pipeline.ΦA spec0 c := by
  unfold Pipeline.ΦA
  rw [scopedRest0_eq]
  show iprop(scratchAt m c (Fin.last cfg0.N) ∗ ∃ r, prngReg c r) ⊢ _
  rw [scratchAt_head m c (Fin.last cfg0.N) (by decide +kernel)]

end Cert.KernelIdeal.Data

end
-- ==== Proof.BodyIdeal.lean ====
import proofs.«116544_j88252987998983_2_alg».proof.Proof.Gen.KernelIdeal.Skeleton
import proofs.«116544_j88252987998983_2_alg».proof.Proof.Gen.KernelIdeal.Launch
import Idealize.ShloMosaic.Lib.Pipeline.Kit
import Idealize.ShloMosaic.Lib.Tactic
import Idealize.ShloMosaic.Lib.WholeRead

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-! ## Whole buffers read and written through the rectangle of their own sizes at offsets zero

Every access of the kernel function is of a whole buffer: the rectangle at offsets zero (spelt as a vector
literal) of the buffer's own sizes. Through it a load reads the contents, one store leaves its payload,
and a load after that store reads the payload back. -/

/-- The printed zero offsets of a rank-2 access are the constant zero; -/
theorem zero2 : (![0, 0] : Fin 2 → Nat) = fun _ => 0 := funext fun a => by fin_cases a <;> rfl
/-- of a rank-3 access likewise. -/
theorem zero3 : (![0, 0, 0] : Fin 3 → Nat) = fun _ => 0 := funext fun a => by fin_cases a <;> rfl

/-- A whole memref held at the raw contents that read `X`, loaded whole, reads `X`. -/
theorem readAt_whole_unread {κ : Kind} {sp : Space} {s : Shape} {e : EltTy} {m : Memref sig κ sp s e} (h : m.IsWhole)
    {off : Fin s.rank → Nat} (hz : off = fun _ => 0) (inb : ∀ a, off a + s.size a ≤ s.size a) (X : s.Idx → Elt F e) :
    m.view.readAt (Elt F) (Rect.unit off s.size inb).toLoadRect (h.unread X) = X := by
  funext x
  rw [h.readAt_unread X]
  exact congrFun (View.ld_unit_zero hz inb X) x

/-- One whole store into a memref's buffer, whatever it held, reads back as the payload. -/
theorem read_writes_whole {κ : Kind} {sp : Space} {s : Shape} {e : EltTy} (m : Memref sig κ sp s e)
    {off : Fin s.rank → Nat} (hz : off = fun _ => 0) (inb : ∀ a, off a + s.size a ≤ s.size a)
    (f : m.view.ty.Contents (Elt F)) (w : s.Idx → Elt F e) :
    m.view.read (Elt F) (m.view.writes (Elt F) f [(⟨Rect.unit off s.size inb, w⟩ : View.Piece (Elt F) s e)]) = w := by
  rw [View.read_writes_eq_canon _ _ _ (fun y => ⟨_, List.mem_singleton_self _, View.mem_set_unit_zero hz inb y⟩),
    View.canon_unit_zero hz inb w]

/-! ## The kernel function's one condition -/

/-- The condition of the kernel function's `scf.if`, as the printed program computes it from the M-tile
    coordinate: `program_id(1) == 0`, widened to a word and compared with zero. -/
abbrev firstTile (i : grid0.Coords) : Prop :=
  (Scalar.cmpi .ne (Scalar.extui (Scalar.cmpi .eq (BitVec.ofNat 32 (i 1).val) 0#32)) 0#32) = 1#1

/-- It holds exactly at M-tile 0 (the coordinate is below 3: the three cases are computed). -/
theorem firstTile_iff (i : grid0.Coords) : firstTile i ↔ (i 1).val = 0 := by
  have key : ∀ n : Fin 3, ((Scalar.cmpi .ne (Scalar.extui (Scalar.cmpi .eq (BitVec.ofNat 32 n.val) 0#32)) 0#32) = 1#1)
      ↔ n.val = 0 := by decide
  exact key (i 1)

/-! ## The kernel function on any four whole memrefs -/

/-- At M-tile 0: the first window's buffer is loaded whole, its normalised block `k0_pay1 X0` stored whole into
    the scratch (the load of the scratch before it is dead); then the second window's buffer and the scratch —
    now that block — are loaded whole and `k0_pay2` of the two stored whole into the output's buffer (the load of
    the output's buffer is dead). The two inputs' buffers are as they were. -/
theorem sound_first (c : Dev nD) (E : Set ℕ) (i : grid0.Coords) (hc : firstTile i)
    (arg2 : Memref sig .tc .vmem S1x2220x60 .f32) (harg2 : arg2.IsWhole) (arg3 : Memref sig .tc .vmem S1x768x60 .f32) (harg3 : arg3.IsWhole)
    (arg4 : Memref sig .tc .vmem S1x2220x768 .f32) (harg4 : arg4.IsWhole) (arg5 : Memref sig .tc .vmem S2220x60 .bf16) (harg5 : arg5.IsWhole)
    (X0 : S1x2220x60.Idx → Elt F .f32) (X1 : S1x768x60.Idx → Elt F .f32) (X2 : S1x2220x768.Idx → Elt F .f32)
    (S : S2220x60.Idx → Elt F .bf16) (K : PUnit → sProp 𝕄) :
    iprop((owns (c : Thread nD τ) arg2 fullShare X0 ∗ owns (c : Thread nD τ) arg3 fullShare X1
            ∗ owns (c : Thread nD τ) arg4 fullShare X2 ∗ owns (c : Thread nD τ) arg5 fullShare S)
          ∗ (iprop(owns (c : Thread nD τ) arg2 fullShare X0 ∗ owns (c : Thread nD τ) arg3 fullShare X1
                  ∗ owns (c : Thread nD τ) arg4 fullShare (k0_pay2 X1 (k0_pay1 X0))
                  ∗ owns (c : Thread nD τ) arg5 fullShare (k0_pay1 X0)) -∗ K ⟨⟩))
      ⊢ wp frame (wpE (defs₀ (F := F)) Variants.none c none) E
          (cc0__corr_kernel i arg2 harg2 arg3 harg3 arg4 harg4 arg5 harg5) K := by
  simp only [cc0__corr_kernel_eq_skeleton]; unfold cc0__corr_kernel_skel
  unfold owns
  iintro ⟨⟨⟨%f0, %hf0, H0⟩, ⟨%f1, %hf1, H1⟩, ⟨%f2, %hf2, H2⟩, ⟨%f5, %hf5, H5⟩⟩, Hk⟩
  obtain rfl := harg2.eq_unread hf0; obtain rfl := harg3.eq_unread hf1
  obtain rfl := harg4.eq_unread hf2; obtain rfl := harg5.eq_unread hf5
  sl_exec (disch := first | exact hc)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [read_writes_whole arg4 zero3, readAt_whole_unread harg3 zero3, View.readCov_unit_zero _ zero2,
      readAt_whole_unread harg2 zero3]
  · iexists _; isplitr; swap; · iexact H5
    ipureintro
    rw [read_writes_whole arg5 zero2, readAt_whole_unread harg2 zero3]

/-- At a later M-tile: the branch is not taken and the scratch keeps what it held, `S`; the second window's
    buffer and the scratch are loaded whole and `k0_pay2` of the two stored whole into the output's buffer. -/
theorem sound_later (c : Dev nD) (E : Set ℕ) (i : grid0.Coords) (hc : ¬firstTile i)
    (arg2 : Memref sig .tc .vmem S1x2220x60 .f32) (harg2 : arg2.IsWhole) (arg3 : Memref sig .tc .vmem S1x768x60 .f32) (harg3 : arg3.IsWhole)
    (arg4 : Memref sig .tc .vmem S1x2220x768 .f32) (harg4 : arg4.IsWhole) (arg5 : Memref sig .tc .vmem S2220x60 .bf16) (harg5 : arg5.IsWhole)
    (X0 : S1x2220x60.Idx → Elt F .f32) (X1 : S1x768x60.Idx → Elt F .f32) (X2 : S1x2220x768.Idx → Elt F .f32)
    (S : S2220x60.Idx → Elt F .bf16) (K : PUnit → sProp 𝕄) :
    iprop((owns (c : Thread nD τ) arg2 fullShare X0 ∗ owns (c : Thread nD τ) arg3 fullShare X1
            ∗ owns (c : Thread nD τ) arg4 fullShare X2 ∗ owns (c : Thread nD τ) arg5 fullShare S)
          ∗ (iprop(owns (c : Thread nD τ) arg2 fullShare X0 ∗ owns (c : Thread nD τ) arg3 fullShare X1
                  ∗ owns (c : Thread nD τ) arg4 fullShare (k0_pay2 X1 S)
                  ∗ owns (c : Thread nD τ) arg5 fullShare S) -∗ K ⟨⟩))
      ⊢ wp frame (wpE (defs₀ (F := F)) Variants.none c none) E
          (cc0__corr_kernel i arg2 harg2 arg3 harg3 arg4 harg4 arg5 harg5) K := by
  simp only [cc0__corr_kernel_eq_skeleton]; unfold cc0__corr_kernel_skel
  unfold owns
  iintro ⟨⟨⟨%f0, %hf0, H0⟩, ⟨%f1, %hf1, H1⟩, ⟨%f2, %hf2, H2⟩, ⟨%f5, %hf5, H5⟩⟩, Hk⟩
  obtain rfl := harg2.eq_unread hf0; obtain rfl := harg3.eq_unread hf1
  obtain rfl := harg4.eq_unread hf2; obtain rfl := harg5.eq_unread hf5
  sl_exec (disch := first | exact hc)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [read_writes_whole arg4 zero3, readAt_whole_unread harg3 zero3, readAt_whole_unread harg5 zero2]
  · iexists _; isplitr; · ipureintro; exact harg5.read_unread _
    iexact H5

/-! ## The body's triple at the pipeline's buffers -/

/-- What the scratch holds after the body at a point whose M-tile coordinate is `i 1`: the normalised block of the
    first window's buffer at tile 0, what it held otherwise. -/
def scratchAfter (i : grid0.Coords) (X0 : S1x2220x60.Idx → Elt F .f32) (S : S2220x60.Idx → Elt F .bf16) :
    S2220x60.Idx → Elt F .bf16 :=
  if (i 1).val = 0 then k0_pay1 X0 else S

/-- The kernel function on any four whole memrefs, the two cases in one statement. -/
theorem sound_kernel (c : Dev nD) (E : Set ℕ) (i : grid0.Coords)
    (arg2 : Memref sig .tc .vmem S1x2220x60 .f32) (harg2 : arg2.IsWhole) (arg3 : Memref sig .tc .vmem S1x768x60 .f32) (harg3 : arg3.IsWhole)
    (arg4 : Memref sig .tc .vmem S1x2220x768 .f32) (harg4 : arg4.IsWhole) (arg5 : Memref sig .tc .vmem S2220x60 .bf16) (harg5 : arg5.IsWhole)
    (X0 : S1x2220x60.Idx → Elt F .f32) (X1 : S1x768x60.Idx → Elt F .f32) (X2 : S1x2220x768.Idx → Elt F .f32)
    (S : S2220x60.Idx → Elt F .bf16) (K : PUnit → sProp 𝕄) :
    iprop((owns (c : Thread nD τ) arg2 fullShare X0 ∗ owns (c : Thread nD τ) arg3 fullShare X1
            ∗ owns (c : Thread nD τ) arg4 fullShare X2 ∗ owns (c : Thread nD τ) arg5 fullShare S)
          ∗ (iprop(owns (c : Thread nD τ) arg2 fullShare X0 ∗ owns (c : Thread nD τ) arg3 fullShare X1
                  ∗ owns (c : Thread nD τ) arg4 fullShare (k0_pay2 X1 (scratchAfter i X0 S))
                  ∗ owns (c : Thread nD τ) arg5 fullShare (scratchAfter i X0 S)) -∗ K ⟨⟩))
      ⊢ wp frame (wpE (defs₀ (F := F)) Variants.none c none) E
          (cc0__corr_kernel i arg2 harg2 arg3 harg3 arg4 harg4 arg5 harg5) K := by
  by_cases h : (i 1).val = 0
  · rw [show scratchAfter i X0 S = k0_pay1 X0 from if_pos h]
    exact sound_first c E i ((firstTile_iff i).2 h) arg2 harg2 arg3 harg3 arg4 harg4 arg5 harg5 X0 X1 X2 S K
  · rw [show scratchAfter i X0 S = S from if_neg h]
    exact sound_later c E i (fun hf => h ((firstTile_iff i).1 hf)) arg2 harg2 arg3 harg3 arg4 harg4 arg5 harg5 X0 X1 X2 S K

/-- The kernel body on staging buffers `s0`, `s1` of the two input windows, `s2` of the output's, and the scratch:
    the inputs' buffers unchanged, the scratch at `scratchAfter`, the output's buffer at `k0_pay2` of the second
    input's contents and the scratch's. -/
theorem sound_body (c : Dev nD) (E : Set ℕ) (i : grid0.Coords) (s0 s1 s2 : Fin 2)
    (X0 : S1x2220x60.Idx → Elt F .f32) (X1 : S1x768x60.Idx → Elt F .f32) (X2 : S1x2220x768.Idx → Elt F .f32)
    (S : S2220x60.Idx → Elt F .bf16) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (Memref.whole cc0_scratch0) fullShare S)
          ∗ (iprop(owns (c : Thread nD τ) (stage0_0 s0) fullShare X0 ∗ owns (c : Thread nD τ) (stage0_1 s1) fullShare X1
                  ∗ owns (c : Thread nD τ) (stage0_2 s2) fullShare (k0_pay2 X1 (scratchAfter i X0 S))
                  ∗ owns (c : Thread nD τ) (Memref.whole cc0_scratch0) fullShare (scratchAfter i X0 S)) -∗ K ⟨⟩))
      ⊢ wp frame (wpE (defs₀ (F := F)) Variants.none c none) E
          (cc0__corr_kernel i (stage0_0 s0) (hstage0_0 s0) (stage0_1 s1) (hstage0_1 s1) (stage0_2 s2) (hstage0_2 s2)
            (Memref.whole cc0_scratch0) (Memref.isWhole_whole _)) K :=
  sound_kernel c E i (stage0_0 s0) (hstage0_0 s0) (stage0_1 s1) (hstage0_1 s1) (stage0_2 s2) (hstage0_2 s2)
    (Memref.whole cc0_scratch0) (Memref.isWhole_whole _) X0 X1 X2 S K

end Cert.KernelIdeal.Body

end
-- ==== Proof.OblIdeal.lean ====
/-
  The body obligation of the pallas_call at each of its 24 points, from the kernel function's triple on arbitrary buffer
  contents.

  At point t = 3·b + j the body finds window 0's buffer at batch b's block, window 1's at its block's rows inside the array
  with anything below them, window 2's at anything, and the scratch at anything (j = 0) or at batch b's normalised block
  (j > 0). It leaves windows 0 and 1 as they were, the scratch at batch b's normalised block, and in window 2's buffer the
  product of the scratch with the transposed normalised block of window 1's buffer. Column q of that product depends on row q
  of window 1's buffer only, so on the columns the write-back moves it is the product computed from the block's rows inside
  the array, whatever lay below them: the hypothesis ColumnLocal, a law of the float operations proved where they are exact.
-/
import proofs.«116544_j88252987998983_2_alg».proof.Proof.DataIdeal
import proofs.«116544_j88252987998983_2_alg».proof.Proof.BodyIdeal

set_option maxRecDepth 16384

noncomputable section

namespace Cert.KernelIdeal.Data

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's arithmetic -/

/-- Point t's tile coordinate is t mod 3. -/
theorem tile_eq : ∀ t : Fin cfg0.N, ((grid0.coords t) 1).val = t.val % 3 :=
  (by decide +kernel : ∀ t : Fin grid0.N, ((grid0.coords t) 1).val = t.val % 3)

theorem batchHead_of_head (t : Fin cfg0.N) (h : t.val % 3 = 0) : batchHead t = t :=
  Fin.ext (by show 3 * (t.val / 3) = t.val; omega)

theorem batchHead_pred (t : Fin cfg0.N) (h : ¬ t.val % 3 = 0) (hlt) : batchHead (⟨t.val - 1, hlt⟩ : Fin cfg0.N) = batchHead t :=
  Fin.ext (by show 3 * ((t.val - 1) / 3) = 3 * (t.val / 3); omega)

/-- At the head of a batch the batch's normalised block is the normalised block of the point's own window-0 block. -/
theorem normed_head (c : Dev nD) (t : Fin cfg0.N) (h : t.val % 3 = 0) : normed m c t = k0_pay1 (iblk m c 0 t) := by
  unfold normed; rw [batchHead_of_head t h]

/-- Inside a batch the previous point's batch is the point's. -/
theorem normed_pred (c : Dev nD) (t : Fin cfg0.N) (h : ¬ t.val % 3 = 0) (hlt) :
    normed m c (⟨t.val - 1, hlt⟩ : Fin cfg0.N) = normed m c t := by
  unfold normed; rw [batchHead_pred t h hlt]

/-- What the scratch holds after the body at point t, whatever it held before a batch's head: the batch's normalised block. -/
theorem scratchAfter_head (c : Dev nD) (t : Fin cfg0.N) (h : t.val % 3 = 0) (S : S2220x60.Idx → Elt F .bf16) :
    scratchAfter (grid0.coords t) (iblk m c 0 t) S = normed m c t := by
  unfold scratchAfter; rw [if_pos (by rw [tile_eq t]; exact h), normed_head m c t h]

theorem scratchAfter_inside (t : Fin cfg0.N) (h : ¬ t.val % 3 = 0) (X0 : S1x2220x60.Idx → Elt F .f32) (S : S2220x60.Idx → Elt F .bf16) :
    scratchAfter (grid0.coords t) X0 S = S := by
  unfold scratchAfter; rw [if_neg (by rw [tile_eq t]; exact h)]

/-! ## The law of the float operations the output window needs -/

/-- The columns of the stored block that the write-back moves do not depend on what window 1's buffer holds below the
    rows of the array. -/
def ColumnLocal (F : FTy → Type) [FloatOps F] : Prop :=
  ∀ (t : Fin cfg0.N) (d d' : S1x768x60.Idx → Elt F .f32) (g : (win0_1.xblock (grid0.coords t)).Idx → Elt F .f32)
    (S : S2220x60.Idx → Elt F .bf16),
    win0_2.cut (grid0.coords t) (k0_pay2 (win0_1.fill (grid0.coords t) d g) S)
      = win0_2.cut (grid0.coords t) (k0_pay2 (win0_1.fill (grid0.coords t) d' g) S)

/-! ## The obligation at a point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: window 0's buffer exactly, windows 1 and 2 up to what lies outside the part their transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

theorem sound_point (hloc : ColumnLocal F) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).after 0 t = iblk m c 0 t from by dsimp only [dats],
    show (dats m 0 c).after 1 t = rowsBlk m c t from by dsimp only [dats],
    show (dats m 0 c).after 2 t = outBlk m c t from by dsimp only [dats],
    show (dats m 0 c).owesAt () t.succ = (dats m 0 c).owesAt () t.castSucc from rfl,
    show (dats m 0 c).Φ t.castSucc = iprop(scratchAt m c t.castSucc ∗ ∃ r, prngReg c r) from by dsimp only [dats],
    show (dats m 0 c).Φ t.succ = iprop(scratchAt m c t.succ ∗ ∃ r, prngReg c r) from by dsimp only [dats]]
  have hN : t.val < 24 := lt_of_lt_of_eq t.isLt (show cfg0.N = 24 from N_0)
  -- window 1 ends as it was found: its block's rows inside the array, the same words below them
  have hrows : ∀ d, win0_1.fill (grid0.coords t) d (win0_1.cut (grid0.coords t) (rowsBlk m c t)) = win0_1.fill (grid0.coords t) d (iblk m c 1 t) := by
    intro d; unfold rowsBlk; rw [win0_1.cut_fill]
  -- window 2 ends at the product computed from what window 1's buffer held: on the moved columns that is outBlk
  have hout : ∀ d1 : S1x768x60.Idx → Elt F .f32,
      win0_2.fill (grid0.coords t) (k0_pay2 (win0_1.fill (grid0.coords t) d1 (iblk m c 1 t)) (normed m c t))
          (win0_2.cut (grid0.coords t) (outBlk m c t))
        = k0_pay2 (win0_1.fill (grid0.coords t) d1 (iblk m c 1 t)) (normed m c t) := fun d1 =>
    win0_2.fill_congr_cut (grid0.coords t) (hloc t d1 _ (iblk m c 1 t) (normed m c t))
  by_cases h : t.val % 3 = 0
  · -- the head of a batch: the scratch held anything, and is overwritten with the batch's normalised block
    have h' : ¬ (t.succ : Fin (cfg0.N + 1)).val % 3 = 0 := by show ¬ (t.val + 1) % 3 = 0; omega
    rw [scratchAt_head m c t.castSucc h, scratchAt_inside m c t.succ h']
    iintro ⟨⟨⟨%f, Hs⟩, Hr⟩, Ho, ⟨%d0, H0⟩, ⟨%d1, H1⟩, ⟨%d2, H2⟩⟩
    iapply (sound_body c Set.univ (grid0.coords t) ((cfg0.slots t 0).cast nbuf0_0) ((cfg0.slots t 1).cast nbuf0_1)
      ((cfg0.slots t 2).cast nbuf0_2) (iblk m c 0 t) (win0_1.fill (grid0.coords t) d1 (iblk m c 1 t)) d2 f _)
    isplitl [H0 H1 H2 Hs]
    · isplitl [H0]; · iexact H0
      isplitl [H1]; · iexact H1
      isplitl [H2]; · iexact H2
      rw [owns_whole]; iexact Hs
    rw [scratchAfter_head m c t h f]
    iintro ⟨H0, H1, H2, Hs⟩
    isplitl [Hs Hr]
    · isplitl [Hs]; · iexact Hs
      iexact Hr
    isplitl [Ho]; · iexact Ho
    isplitl [H0]; · iexact H0
    isplitl [H1]
    · iexists d1; rw [hrows]; iexact H1
    · iexists _; rw [hout d1]; iexact H2
  · -- inside a batch: the scratch holds the batch's normalised block, and keeps it
    have hlt : t.val - 1 < cfg0.N := by have : cfg0.N = 24 := N_0; omega
    rw [scratchAt_inside m c t.castSucc h, show (⟨(t.castSucc : Fin (cfg0.N + 1)).val - 1, _⟩ : Fin cfg0.N) = ⟨t.val - 1, hlt⟩ from rfl,
      normed_pred m c t h hlt]
    iintro ⟨⟨Hs, Hr⟩, Ho, ⟨%d0, H0⟩, ⟨%d1, H1⟩, ⟨%d2, H2⟩⟩
    iapply (sound_body c Set.univ (grid0.coords t) ((cfg0.slots t 0).cast nbuf0_0) ((cfg0.slots t 1).cast nbuf0_1)
      ((cfg0.slots t 2).cast nbuf0_2) (iblk m c 0 t) (win0_1.fill (grid0.coords t) d1 (iblk m c 1 t)) d2 (normed m c t) _)
    isplitl [H0 H1 H2 Hs]
    · isplitl [H0]; · iexact H0
      isplitl [H1]; · iexact H1
      isplitl [H2]; · iexact H2
      iexact Hs
    rw [scratchAfter_inside t h]
    iintro ⟨H0, H1, H2, Hs⟩
    isplitl [Hs Hr]
    · isplitl [Hs]
      · by_cases h2 : (t.succ : Fin (cfg0.N + 1)).val % 3 = 0
        · rw [scratchAt_head m c t.succ h2]; iexists _; rw [← owns_whole]; iexact Hs
        · rw [scratchAt_inside m c t.succ h2]; iexact Hs
      iexact Hr
    isplitl [Ho]; · iexact Ho
    isplitl [H0]; · iexact H0
    isplitl [H1]
    · iexists d1; rw [hrows]; iexact H1
    · iexists _; rw [hout d1]; iexact H2

/-- The library's body obligation, at every point. -/
theorem body_obligation (hloc : ColumnLocal F) (c : Dev nD) :
    BodyObligationLoose (dats (F := F) m 0 c) (defs₀ (F := F)) Variants.none () Set.univ := fun t => by
  rw [bigSep_W0, bigSep_W0]
  exact sound_point m hloc c t

end Cert.KernelIdeal.Data

end
-- ==== Proof.FrameIdeal.lean ====
/-
  The run of the idealized kernel program: @main's host operations, the region, the host operation after it.

  From the body obligation at every point, the launch: every weakly fair execution terminates, nothing faults, each array of
  the pipeline ends at what the write-backs leave in it, and every other buffer at what the host operations after the region
  compute from those. Read at the two argument arrays, which no operation writes, this is the frame.
-/
import proofs.«116544_j88252987998983_2_alg».proof.Proof.OblIdeal
import Idealize.ShloMosaic.Lib.Pipeline.FrameSuffix

set_option maxRecDepth 16384

noncomputable section

namespace Cert.KernelIdeal.Data

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The proof data's arrays are the contents the region finds. -/
theorem A_eq (c : Dev nD) (w : Fin cfg0.W) : (dats m 0 c).A w = V m c (Pipeline.arrRef spec0 w) := by
  dsimp only [dats]

set_option backward.isDefEq.respectTransparency.types false in
/-- Every weakly fair execution of @main terminates without a fault; the pipeline's three arrays end at what the proof data
    computes, every other buffer at what the last host operation leaves. -/
theorem run_main (hloc : ColumnLocal F) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) 0 launch0 defs₀ Variants.none m ρ main
    (hbody := fun c => body_obligation m hloc c)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hin := phi_in m) (hout := phi_out m)

/-- The frame: the two argument arrays end as they began. -/
theorem frame (hloc : ColumnLocal F) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hloc)

end Cert.KernelIdeal.Data

end
-- ==== Proof.LibRealEntries.lean ====
/-
  Entries that are real numbers, and the array operations that keep them so (at the ideal instance, where a float is
  an extended real). A sum, a product, a maximum and a finite sum of real numbers are real; hence entrywise sums,
  products and maxima of arrays with real entries, their broadcasts, a gather from such an array (each result entry
  is an entry of the operand), an accumulating scatter of such updates into such an operand (each entry gains
  finitely many real updates), and a contraction of two such arrays (finite sums of real products from zero) all
  have real entries. The reciprocal square root of an extended real that is at least one is real (it is 0 at +∞), so a
  reciprocal square root of anything clamped below at one is real, whatever was clamped.
-/
import Idealize.ShloMosaic.PureOps.Ideal.Laws

noncomputable section

namespace Cert.LibRealEntries

open Idealize.ShloMosaic Idealize.ShloMosaic.TcCoe

/-- An extended real that is a real number. -/
def IsReal (x : EReal) : Prop := ∃ y : ℝ, x = (y : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The reciprocal square root of an extended real that is at least one is a real number. -/
theorem isReal_rsqrt_of_one_le {x : EReal} (h : 1 ≤ x) : IsReal (Ideal.rsqrt x) := by
  induction x using EReal.rec with
  | bot =>
    have hlt : (⊥ : EReal) < 1 := by exact_mod_cast EReal.bot_lt_coe 1
    exact absurd h (not_le.mpr hlt)
  | top => exact ⟨0, rfl⟩
  | coe r =>
    have hr : (1 : ℝ) ≤ r := by exact_mod_cast h
    show IsReal (if r < 0 then ⊥ else if r = 0 then ⊤ else (((Real.sqrt r)⁻¹ : ℝ) : EReal))
    rw [if_neg (by linarith), if_neg (by linarith)]
    exact ⟨_, rfl⟩

theorem isReal_zero_word : IsReal (Ideal.ofBits .f32 0x00000000#32) := by
  rw [Ideal.ofBits_zero_f32]; exact IsReal.zero

/-! ## The operations keep entries real (any shapes) -/

section Generic
variable {s t si u sl sr so : Shape} {w : Nat}

theorem real_maximumf (a b : FVec Ideal s .f32) (ha : ∀ i, IsReal (a i)) (hb : ∀ i, IsReal (b i)) (i : s.Idx) :
    IsReal (maximumf a b i) := (ha i).max (hb i)
theorem real_addf (a b : FVec Ideal s .f32) (ha : ∀ i, IsReal (a i)) (hb : ∀ i, IsReal (b i)) (i : s.Idx) :
    IsReal (addf a b i) := (ha i).add (hb i)
theorem real_mulf (a b : FVec Ideal s .f32) (ha : ∀ i, IsReal (a i)) (hb : ∀ i, IsReal (b i)) (i : s.Idx) :
    IsReal (mulf a b i) := (ha i).mul (hb i)
theorem real_bcast (dims : Fin s.rank → Fin t.rank) (h : s.BroadcastsInDim t dims) (x : FVec Ideal s .f32)
    (hx : ∀ i, IsReal (x i)) (j : t.Idx) : IsReal (broadcastInDim t dims h x j) := hx _
theorem real_gather (d : GatherDims s si t) (x : FVec Ideal s .f32) (idx : IVec si w) (hx : ∀ i, IsReal (x i)) (j : t.Idx) :
    IsReal (Host.gather d x idx j) := hx _
theorem real_scatterAdd (d : ScatterDims s si u) (x : FVec Ideal s .f32) (idx : IVec si w) (upd : FVec Ideal u .f32)
    (hx : ∀ i, IsReal (x i)) (hu : ∀ j, IsReal (upd j)) (i : s.Idx) : IsReal (Host.scatterAdd d x idx upd i) :=
  (hx i).add (IsReal.sum _ _ fun j _ => hu j)
theorem real_dot (d : DotDims sl sr so) (prec : Option ContractPrecision) (l : FVec Ideal sl .f32) (r : FVec Ideal sr .f32)
    (hl : ∀ i, IsReal (l i)) (hr : ∀ i, IsReal (r i)) (j : so.Idx) : IsReal (Host.dotGeneral d prec l r j) :=
  IsReal.zero.add (IsReal.sum _ _ fun k _ => (hl _).mul (hr _))
/-- A reciprocal square root of a value clamped below at one. -/
theorem real_rsqrt_clamp (one y : FVec Ideal s .f32) (h1 : ∀ i, one i = 1) (i : s.Idx) :
    IsReal (Host.rsqrt (maximumf one y) i) := by
  show IsReal (Ideal.rsqrt (Max.max (one i) (y i)))
  rw [h1 i]; exact isReal_rsqrt_of_one_le (le_max_left _ _)

end Generic

end Cert.LibRealEntries

end
-- ==== Proof.GuardLaw.lean ====
/-
  Scalar laws on the extended reals that join a guarded normalisation to an unguarded one.

  A row is centred and divided by a scale.  One side takes the scale to be the square root of the variance `v` when
  `v > 0` and `1` otherwise; the other side takes the square root with no guard.  Once `v > 0` the guard chooses
  the square root, so the two quotients are the same extended real.  The variance is a sum of squares divided by
  the row length 60; a positive real sum of squares divided by 60 is a positive real.  The other side's divisor
  is `60 - ddof` with `ddof` the integer zero, which is 60, and its own test `60 - 0 > 0` always chooses the
  quotient rather than the fill value.
-/
import Idealize.ShloMosaic.PureOps.Ideal
import Idealize.ShloMosaic.PureOps.Ideal.Laws
import proofs.«116544_j88252987998983_2_alg».proof.Proof.LibRealEntries

noncomputable section

namespace Cert.GuardLaw

open Idealize.ShloMosaic Cert.LibRealEntries

/-- The word `0x42700000` is the real number 60. -/
theorem c60 : Ideal.ofBits .f32 0x42700000#32 = ((60 : ℝ) : EReal) := by
  simp [Ideal.ofBits, Ideal.ieee, -EReal.coe_mul]; norm_num

/-- The word `0x3F800000` is one. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- The word `0x00000000` is zero. -/
theorem zero_word : Ideal.ofBits .f32 0x00000000#32 = (0 : EReal) := Ideal.ofBits_zero_f32

/-- A positive real divided by 60 is a positive real. -/
theorem div60_pos {ss : EReal} (h : IsReal ss) (hpos : 0 < ss) :
    0 < Ideal.div ss ((60 : ℝ) : EReal) ∧ IsReal (Ideal.div ss ((60 : ℝ) : EReal)) := by
  obtain ⟨y, rfl⟩ := h
  have hy : 0 < y := by exact_mod_cast hpos
  rw [Ideal.div_coe (by norm_num : (60 : ℝ) ≠ 0), ← EReal.coe_mul]
  refine ⟨?_, ⟨_, rfl⟩⟩
  have : 0 < y * (1 / 60 : ℝ) := by positivity
  exact_mod_cast this

/-- The same with the divisor written as its word. -/
theorem div60_word_pos {ss : EReal} (h : IsReal ss) (hpos : 0 < ss) :
    0 < Ideal.div ss (Ideal.ofBits .f32 0x42700000#32) ∧ IsReal (Ideal.div ss (Ideal.ofBits .f32 0x42700000#32)) := by
  rw [c60]; exact div60_pos h hpos

/-- A comparison `v > 0` that holds is the bit one. -/
theorem cmp_ogt_pos {v : EReal} (hv : 0 < v) : Ideal.cmp .ogt v 0 = 1#1 := by
  simp [Ideal.cmp, hv]

/-- With `v > 0` the guarded scale is the square root. -/
theorem guard_select {v : EReal} (hv : 0 < v) :
    Scalar.select (Ideal.cmp .ogt v 0) (Ideal.sqrt v) (1 : EReal) = Ideal.sqrt v := by
  rw [cmp_ogt_pos hv]; exact if_pos rfl

/-- … so dividing by the guarded scale is dividing by the square root. -/
theorem guard_off {d v : EReal} (hv : 0 < v) :
    Ideal.div d (Scalar.select (Ideal.cmp .ogt v 0) (Ideal.sqrt v) 1) = Ideal.div d (Ideal.sqrt v) := by
  rw [guard_select hv]

/-- The guarded scale with its zero and its one written as their words. -/
theorem guard_select_words {v : EReal} (hv : 0 < v) :
    Scalar.select (Ideal.cmp .ogt v (Ideal.ofBits .f32 0x00000000#32)) (Ideal.sqrt v) (Ideal.ofBits .f32 0x3F800000#32)
      = Ideal.sqrt v := by
  rw [zero_word, one_word]; exact guard_select hv

theorem guard_off_words {d v : EReal} (hv : 0 < v) :
    Ideal.div d (Scalar.select (Ideal.cmp .ogt v (Ideal.ofBits .f32 0x00000000#32)) (Ideal.sqrt v)
        (Ideal.ofBits .f32 0x3F800000#32)) = Ideal.div d (Ideal.sqrt v) := by
  rw [guard_select_words hv]

/-- The same as the operations read at one entry: the comparison and the square root as the fields of the
    exact instance, the two constants as scalar words. -/
theorem guard_off_ops {d v : Ideal .f32} (hv : (0 : EReal) < v) :
    FloatOps.divf d (Scalar.select (FloatOps.cmpf .ogt v (Scalar.ofBits (F := Ideal) .f32 0x00000000#32))
        (FloatOps.sqrt v) (Scalar.ofBits (F := Ideal) .f32 0x3F800000#32)) = Ideal.div d (Ideal.sqrt v) :=
  guard_off_words hv

/-- The integer word zero, converted, is zero. -/
theorem sitofp_zero : (FloatOps.sitofp (F := Ideal) .f32 (0#32 : BitVec 32) : EReal) = 0 := by
  show (((0#32 : BitVec 32).toInt : ℝ) : EReal) = 0
  simp

/-- 60 less the converted integer zero is 60. -/
theorem sixty_minus_zero :
    Ideal.ofBits .f32 0x42700000#32 - (FloatOps.sitofp (F := Ideal) .f32 (0#32 : BitVec 32) : EReal) = ((60 : ℝ) : EReal) := by
  rw [sitofp_zero, c60, sub_zero]

/-- The same with the subtraction as the instance's field. -/
theorem sixty_minus_zero_ops :
    FloatOps.subf (F := Ideal) (φ := .f32) (Ideal.ofBits .f32 0x42700000#32) (FloatOps.sitofp (F := Ideal) .f32 (0#32 : BitVec 32))
      = ((60 : ℝ) : EReal) := sixty_minus_zero

/-- `60 - 0 > 0` holds … -/
theorem sixty_minus_zero_gt :
    Ideal.cmp .ogt (Ideal.ofBits .f32 0x42700000#32 - (FloatOps.sitofp (F := Ideal) .f32 (0#32 : BitVec 32) : EReal))
      (Ideal.ofBits .f32 0x00000000#32) = 1#1 := by
  rw [sixty_minus_zero, zero_word]
  exact cmp_ogt_pos (by exact_mod_cast (by norm_num : (0 : ℝ) < 60))

/-- … so the test on it chooses the quotient, whatever the fill value. -/
theorem where_sixty {α : Type} (x fill : α) :
    Scalar.select (Ideal.cmp .ogt (Ideal.ofBits .f32 0x42700000#32 - (FloatOps.sitofp (F := Ideal) .f32 (0#32 : BitVec 32) : EReal))
      (Ideal.ofBits .f32 0x00000000#32)) x fill = x := by
  rw [sixty_minus_zero_gt]; exact if_pos rfl

/-- The same with the comparison and the subtraction as the instance's fields. -/
theorem where_sixty_ops {α : Type} (x fill : α) :
    Scalar.select (FloatOps.cmpf (F := Ideal) (φ := .f32) .ogt
      (FloatOps.subf (F := Ideal) (φ := .f32) (Ideal.ofBits .f32 0x42700000#32) (FloatOps.sitofp (F := Ideal) .f32 (0#32 : BitVec 32)))
      (Ideal.ofBits .f32 0x00000000#32)) x fill = x := where_sixty x fill

/-- Dividing by `60 - 0` is dividing by 60. -/
theorem div_sixty_minus_zero (x : EReal) :
    Ideal.div x (Ideal.ofBits .f32 0x42700000#32 - (FloatOps.sitofp (F := Ideal) .f32 (0#32 : BitVec 32) : EReal))
      = Ideal.div x ((60 : ℝ) : EReal) := by
  rw [sixty_minus_zero]

end Cert.GuardLaw

end
-- ==== Proof.Spec.lean ====
/-
  One row of a patch array, normalised two ways, over the extended reals.

  For a row x of 60 entries: the mean mu x = (0 + Σ x)/60, the centred sum of squares ss x = 0 + Σ (x − mu x)², the
  variance ss x / 60. The kernel divides the centred row by sqrt(variance) where the variance is positive and by one
  otherwise; the reference divides by sqrt(variance) always. For a row of real numbers whose centred sum of squares is
  positive the variance is a positive real, the kernel's test chooses the square root, and the two rows are one.
  (On a constant row they differ: 0/1 = 0 against 0/0.) The zero, the sixty and the one are kept as the float words the
  programs print, read exactly.
-/
import proofs.«116544_j88252987998983_2_alg».proof.Proof.GuardLaw

noncomputable section

namespace Cert.Spec

open Idealize.ShloMosaic Cert.LibRealEntries Cert.GuardLaw

/-- The words 0.0, 60.0 and 1.0 read exactly. -/
abbrev w0 : EReal := Ideal.ofBits .f32 0x00000000#32
abbrev w60 : EReal := Ideal.ofBits .f32 0x42700000#32
abbrev w1 : EReal := Ideal.ofBits .f32 0x3F800000#32

/-- The row's mean. -/
def mu (x : Fin 60 → EReal) : EReal := Ideal.div (w0 + ∑ j : Fin 60, x j) w60
/-- The row's centred sum of squares. -/
def ss (x : Fin 60 → EReal) : EReal := w0 + ∑ j : Fin 60, (x j - mu x) * (x j - mu x)
/-- The row's population variance. -/
def var (x : Fin 60 → EReal) : EReal := Ideal.div (ss x) w60
/-- The row as the kernel normalises it: the scale is sqrt(var) where var > 0, one otherwise. -/
def kNorm (x : Fin 60 → EReal) (k : Fin 60) : EReal :=
  Ideal.div (x k - mu x) (Scalar.select (Ideal.cmp .ogt (var x) w0) (Ideal.sqrt (var x)) w1)
/-- The row as the reference normalises it: divided by its standard deviation. -/
def rNorm (x : Fin 60 → EReal) (k : Fin 60) : EReal := Ideal.div (x k - mu x) (Ideal.sqrt (var x))

theorem IsReal.sub {a b : EReal} (ha : IsReal a) (hb : IsReal b) : IsReal (a - b) := by
  obtain ⟨p, rfl⟩ := ha; obtain ⟨q, rfl⟩ := hb; exact ⟨p - q, (EReal.coe_sub p q).symm⟩

theorem isReal_div60 {s : EReal} (h : IsReal s) : IsReal (Ideal.div s w60) := by
  obtain ⟨y, rfl⟩ := h
  show IsReal (Ideal.div (y : EReal) (Ideal.ofBits .f32 0x42700000#32))
  rw [c60, Ideal.div_coe (by norm_num : (60 : ℝ) ≠ 0), ← EReal.coe_mul]; exact ⟨_, rfl⟩

theorem isReal_w0 : IsReal w0 := isReal_zero_word

theorem isReal_mu (x : Fin 60 → EReal) (hx : ∀ j, IsReal (x j)) : IsReal (mu x) :=
  isReal_div60 (isReal_w0.add (IsReal.sum _ _ fun j _ => hx j))

theorem isReal_ss (x : Fin 60 → EReal) (hx : ∀ j, IsReal (x j)) : IsReal (ss x) :=
  isReal_w0.add (IsReal.sum _ _ fun j _ => (IsReal.sub (hx j) (isReal_mu x hx)).mul (IsReal.sub (hx j) (isReal_mu x hx)))

/-- A real row with positive centred sum of squares has a positive variance. -/
theorem var_pos (x : Fin 60 → EReal) (hx : ∀ j, IsReal (x j)) (hpos : 0 < ss x) : 0 < var x :=
  (div60_word_pos (isReal_ss x hx) hpos).1

/-- On such a row the kernel's guarded normalisation is the reference's. -/
theorem kNorm_eq_rNorm (x : Fin 60 → EReal) (hx : ∀ j, IsReal (x j)) (hpos : 0 < ss x) (k : Fin 60) :
    kNorm x k = rNorm x k :=
  guard_off_words (var_pos x hx hpos)

end Cert.Spec

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibRowsDot.lean ====
/-
  A product of a matrix with the transpose of another, read at an entry.

  A contraction whose dimension numbers say "the second axis of an [A, K] operand against the second axis of a [B, K]
  operand, no batch axis, result [A, B]" reads its left operand at (row of the result, k) and its right operand at
  (column of the result, k), `k` ranging over the one contracted axis.  So the sum over the contraction index of the
  operands' products, at result entry (p, c), is `Σ_{k < K} l (p, k) · r (c, k)`: row p of the left operand against
  row c of the right one; a `tpu.matmul` into the zero splat is exactly that sum at the ideal values.  Generic in A, K, B,
  in the record and in the operands' float formats: the hypotheses are the record's six lists.
-/
import Idealize.ShloMosaic.PureOps.Ideal.Laws
import Idealize.ShloMosaic.Lib.ValueIdx

noncomputable section

namespace Cert.LibRowsDot

open Idealize.ShloMosaic Idealize.ShloMosaic.ValueIdx

/-- The dimension numbers of a product of rows `[A, K] × [B, K] → [A, B]`. -/
structure Rows {A K B : Nat} (D : DotDims ⟨2, ![A, K]⟩ ⟨2, ![B, K]⟩ ⟨2, ![A, B]⟩) : Prop where
  lc : D.lhsContracting = [1]
  rc : D.rhsContracting = [1]
  ln : D.lhsNonContracting = [0]
  rn : D.rhsNonContracting = [0]
  lb : D.lhsBatch = []
  rb : D.rhsBatch = []

variable {A K B : Nat} {D : DotDims ⟨2, ![A, K]⟩ ⟨2, ![B, K]⟩ ⟨2, ![A, B]⟩}

/-- One axis is contracted. -/
theorem Rows.rank (h : Rows D) : D.contr.rank = 1 := by rw [D.rank_contr, h.lc]; rfl

/-- Its extent is `K`. -/
theorem Rows.size (h : Rows D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Rows.lhs0 (h : Rows D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Rows.lhs1 (h : Rows D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the result's column, which is ITS row … -/
theorem Rows.rhs0 (h : Rows D) (j : (⟨2, ![A, B]⟩ : Shape).Idx) (q : D.contr.Idx) : (D.rhsIdx j q 0).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- … and the contraction position. -/
theorem Rows.rhs1 (h : Rows D) (j : (⟨2, ![A, B]⟩ : Shape).Idx) (q : D.contr.Idx) :
    (D.rhsIdx j q 1).val = (q ⟨0, by rw [h.rank]; exact Nat.one_pos⟩).val :=
  D.rhsIdx_val_of_single h.rc j q

/-- The contraction sum at result entry `(p, c)` is `Σ_k l (p, k) · r (c, k)`. -/
theorem Rows.sum_eq (h : Rows D) (l : (⟨2, ![A, K]⟩ : Shape).Idx → EReal) (r : (⟨2, ![B, K]⟩ : Shape).Idx → EReal)
    (p : Fin A) (c : Fin B) :
    ∑ q : D.contr.Idx, l (D.lhsIdx (ix2 p c) q) * r (D.rhsIdx (ix2 p c) q) = ∑ k : Fin K, l (ix2 p k) * r (ix2 c k) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 c k := funext fun a => Fin.ext (by
    match a with
    | ⟨0, _⟩ => exact h.rhs0 _ _
    | ⟨1, _⟩ => exact (h.rhs1 _ _).trans hk)
  rw [el, er]

/-- A `tpu.matmul` of such dimension numbers into the zero accumulator, at the ideal values, read at `(p, c)`. -/
theorem Rows.matmul_zero_apply (h : Rows D) (prec : Option ContractPrecision) {φ₁ φ₂ : FTy}
    (l : FVec Ideal ⟨2, ![A, K]⟩ φ₁) (r : FVec Ideal ⟨2, ![B, K]⟩ φ₂) (p : Fin A) (c : Fin B) :
    FloatOps.matmul D prec l r (constant ⟨2, ![A, B]⟩ .f32 0x00000000#32) (ix2 p c) = ∑ k : Fin K, l (ix2 p k) * r (ix2 c k) :=
  (Ideal.matmul_constant_zero_apply D prec l r (ix2 p c)).trans (h.sum_eq l r p c)

end Cert.LibRowsDot

end
-- ==== Proof.KernelRead.lean ====
/-
  The kernel function's two payloads over the extended reals, read at an entry: the first is the guarded normalisation
  of a row of its argument; the second is the sum over sixty of a row of the scratch against a normalised row of its
  argument.
-/
import proofs.«116544_j88252987998983_2_alg».proof.Proof.Gen.KernelIdeal.Skeleton
import proofs.«116544_j88252987998983_2_alg».proof.Proof.Spec
import proofs.«116544_j88252987998983_2_alg».proof.Proof.LibKeepdims
import proofs.«116544_j88252987998983_2_alg».proof.Proof.LibRowsDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Read

open Cert.KernelIdeal Cert.KernelIdeal.Gen
open Idealize.ShloMosaic Idealize.ShloMosaic.ValueIdx
open Cert.Spec Cert.LibKeepdims Cert.LibRowsDot

/-! ## Rows of sixty, normalised: the chain of array operations read at an entry

Both payloads normalise the rows of an `[a, 60]` array by the same chain: the row sums divided by sixty as a one-column
array, spread back over the columns and subtracted; the same statistic of the squares; the guarded square root; the
quotient. Read at an entry `(i, k)` each stage is the row statistic of `Cert.Spec` at row `i`. -/

section Rows

variable {a : ℕ} (v : FVec Ideal ⟨2, ![a, 60]⟩ .f32)
  (hr : (⟨2, ![a, 60]⟩ : Shape).Reduces [1] ⟨1, ![a]⟩) (hc : (⟨1, ![a]⟩ : Shape).ShapeCasts ⟨2, ![a, 1]⟩)
  (hb : (⟨2, ![a, 1]⟩ : Shape).Broadcasts ⟨2, ![a, 60]⟩)
  (hφ : FKind.Formats .f32) (hacc : (0x00000000#32 : BitVec 32) = FKind.add.neutral .f32 hφ)

/-- A square root at an entry is the entry's. -/
theorem sqrt_apply {s : Shape} {φ : FTy} (x : FVec Ideal s φ) (i : s.Idx) : sqrt x i = Ideal.sqrt (x i) := rfl

/-- The row sums of `v`, started from the zero word, as a one-column array, divided by sixty. -/
def sumDiv : FVec Ideal ⟨2, ![a, 1]⟩ .f32 :=
  divf (shapeCast ⟨2, ![a, 1]⟩ (multiReduction (F := Ideal) .add [1] ⟨1, ![a]⟩ v 0x00000000#32 hr hφ hacc) hc)
    (broadcast ⟨2, ![a, 1]⟩ (Scalar.ofBits (F := Ideal) .f32 0x42700000#32))

/-- At row `i` it is `(0 + Σ_k v(i, k)) / 60`: the lane sum drops its neutral start, which the zero word restores. -/
theorem sumDiv_apply (i : Fin a) (u : Fin 1) :
    sumDiv v hr hc hφ hacc (ix2 i u) = Ideal.div (w0 + ∑ k : Fin 60, v (ix2 i k)) w60 := by
  unfold sumDiv
  rw [divf_apply, shapeCast_a_a1_apply, multiReduction_add_rows_apply, broadcast_apply]
  rw [show w0 = 0 from Ideal.ofBits_zero_f32, zero_add]
  rfl

/-- The rows with their mean removed. -/
def centred : FVec Ideal ⟨2, ![a, 60]⟩ .f32 := subf v (broadcastTo ⟨2, ![a, 60]⟩ (sumDiv v hr hc hφ hacc) hb)

theorem centred_apply (i : Fin a) (k : Fin 60) :
    centred v hr hc hb hφ hacc (ix2 i k) = v (ix2 i k) - mu (fun k' => v (ix2 i k')) := by
  unfold centred
  rw [subf_apply, broadcastTo_a1_ab_apply, sumDiv_apply]
  rfl

/-- The rows' variances, as a one-column array. -/
def varCol : FVec Ideal ⟨2, ![a, 1]⟩ .f32 := sumDiv (mulf (centred v hr hc hb hφ hacc) (centred v hr hc hb hφ hacc)) hr hc hφ hacc

theorem varCol_apply (i : Fin a) (u : Fin 1) : varCol v hr hc hb hφ hacc (ix2 i u) = var (fun k' => v (ix2 i k')) := by
  unfold varCol
  rw [sumDiv_apply]
  unfold var ss
  refine congrArg (fun s => Ideal.div (w0 + s) w60) (Finset.sum_congr rfl fun k _ => ?_)
  rw [mulf_apply, centred_apply]

/-- The rows' scales: the square root of the variance where it is positive, one elsewhere. -/
def scaleCol : FVec Ideal ⟨2, ![a, 1]⟩ .f32 :=
  select (cmpf .ogt (varCol v hr hc hb hφ hacc) (broadcast ⟨2, ![a, 1]⟩ (Scalar.ofBits (F := Ideal) .f32 0x00000000#32)))
    (sqrt (varCol v hr hc hb hφ hacc)) (broadcast ⟨2, ![a, 1]⟩ (Scalar.ofBits (F := Ideal) .f32 0x3F800000#32))

/-- The normalised rows. -/
def normRows : FVec Ideal ⟨2, ![a, 60]⟩ .f32 :=
  divf (centred v hr hc hb hφ hacc) (broadcastTo ⟨2, ![a, 60]⟩ (scaleCol v hr hc hb hφ hacc) hb)

/-- At `(i, k)` they are the kernel's normalisation of row `i`, at `k`. -/
theorem normRows_apply (i : Fin a) (k : Fin 60) :
    normRows v hr hc hb hφ hacc (ix2 i k) = kNorm (fun k' => v (ix2 i k')) k := by
  unfold normRows
  rw [divf_apply, broadcastTo_a1_ab_apply, centred_apply]
  unfold scaleCol
  rw [select_apply, cmpf_apply, sqrt_apply, varCol_apply, broadcast_apply, broadcast_apply]
  rfl

end Rows

/-! ## The two payloads at an entry -/

/-- The first payload is the normalised rows of its argument with the leading unit axis dropped (the narrowing to
    bf16 and the cast to the same shape change nothing over the extended reals). -/
theorem pay1_eq (X : Vec Ideal S1x2220x60 .f32) :
    k0_pay1 (F := Ideal) X = shapeCast S2220x60 (truncf .bf16 (normRows (shapeCast S2220x60 X shapeCasts_S1x2220x60_S2220x60)
      reduces_S2220x60_S2220 shapeCasts_S2220_S2220x1 broadcasts_S2220x1_S2220x60 (.inl rfl) rfl) bitsLt_bf16_f32) shapeCasts_S2220x60_S2220x60 := rfl

theorem pay1_apply (X : Vec Ideal S1x2220x60 .f32) (n : Fin 2220) (k : Fin 60) :
    Gen.k0_pay1 (F := Ideal) X (ValueIdx.ix2 n k) = Cert.Spec.kNorm (fun k' => X (ValueIdx.ix3 0 n k')) k := by
  rw [pay1_eq, shapeCast_self, truncf_apply]
  refine (normRows_apply _ _ _ _ _ _ n k).trans ?_
  refine congrArg (fun r => kNorm r k) (funext fun k' => ?_)
  exact shapeCast_1ab_ab_apply X _ n k'

/-- The contraction's dimension numbers are those of a product of rows: the second axis of `[2220, 60]` against the
    second axis of `[768, 60]`. -/
theorem rowsDot : Rows dot_S2220x60_S768x60_S2220x768_1_1_0_0_n_n := ⟨rfl, rfl, rfl, rfl, rfl, rfl⟩

/-- The second payload is the product of the scratch's rows with the normalised rows of its first argument (leading
    unit axis dropped), into the zero accumulator, with a leading unit axis added. -/
theorem pay2_eq (X1 : Vec Ideal S1x768x60 .f32) (S : Vec Ideal S2220x60 .bf16) :
    k0_pay2 (F := Ideal) X1 S = shapeCast S1x2220x768 (matmul (φ₁ := .bf16) dot_S2220x60_S768x60_S2220x768_1_1_0_0_n_n none S
      (truncf .bf16 (normRows (shapeCast S768x60 X1 shapeCasts_S1x768x60_S768x60) reduces_S768x60_S768 shapeCasts_S768_S768x1
        broadcasts_S768x1_S768x60 (.inl rfl) rfl) bitsLt_bf16_f32)
      (constant (F := Ideal) S2220x768 .f32 0x00000000#32)) shapeCasts_S2220x768_S1x2220x768 := rfl

theorem pay2_apply (X1 : Vec Ideal S1x768x60 .f32) (S : Vec Ideal S2220x60 .bf16) (n : Fin 2220) (q : Fin 768) :
    Gen.k0_pay2 (F := Ideal) X1 S (ValueIdx.ix3 0 n q)
      = ∑ k : Fin 60, S (ValueIdx.ix2 n k) * Cert.Spec.kNorm (fun k' => X1 (ValueIdx.ix3 0 q k')) k := by
  rw [pay2_eq]
  refine (shapeCast_ab_1ab_apply _ _ 0 n q).trans ?_
  refine (rowsDot.matmul_zero_apply none (φ₁ := .bf16) (φ₂ := .bf16) S _ n q).trans ?_
  refine Finset.sum_congr rfl fun k _ => congrArg (fun r => S (ix2 n k) * r) ?_
  rw [truncf_apply]
  refine (normRows_apply _ _ _ _ _ _ q k).trans ?_
  refine congrArg (fun r => kNorm r k) (funext fun k' => ?_)
  exact shapeCast_1ab_ab_apply X1 _ q k'

end Cert.KernelIdeal.Read

end
-- ==== Proof.ValueIdeal.lean ====
/-
  What the idealized kernel program leaves in its output array: the product, batch by batch, of the two normalised patch
  arrays.

  Point t = 3·b + j writes back the columns 768·j … of batch b's [2220, 2220] block, cut at column 2220. Entry (n, q) of the
  block the body stored is Σ_k S(n, k) · y(q, k), where S is the scratch — batch b's second patch array, each row normalised —
  and y is window 1's buffer with each row normalised; on a column q the write-back moves, row q of that buffer is row
  768·j + q of batch b's first patch array. So the entry lands at (b, n, 768·j + q) holding the product of the two
  normalised rows, and the 24 blocks cover the array.
-/
import proofs.«116544_j88252987998983_2_alg».proof.Proof.FrameIdeal
import proofs.«116544_j88252987998983_2_alg».proof.Proof.KernelRead
import Idealize.ShloMosaic.Lib.ValueIdx

set_option maxRecDepth 16384

noncomputable section

namespace Cert.KernelIdeal.Out

open Cert.KernelIdeal Cert.KernelIdeal.Gen Cert.KernelIdeal.Data Cert.KernelIdeal.Read
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Row n of batch b of a patch array. -/
abbrev row (P : S8x2220x60.Idx → EReal) (b : Fin 8) (n : Fin 2220) : Fin 60 → EReal := fun k => P (ix3 b n k)

/-- The output array as one function of the two patch arrays: entry (b, n, q) is the product of row n of the second array's
    batch b and row q of the first's, each normalised as the kernel normalises a row. -/
def G (P2 P1 : S8x2220x60.Idx → EReal) : S8x2220x2220.Idx → EReal := fun i =>
  ∑ k : Fin 60, Cert.Spec.kNorm (row P2 (i 0) (i 1)) k * Cert.Spec.kNorm (row P1 (i 0) (i 2)) k

/-! ## The schedule, decided over the 24 points -/

/-- Window 0's block is batch t/3 whole; window 1's is its rows 768·(t mod 3) …; window 2's its columns 768·(t mod 3) …. -/
theorem idx_facts : ∀ t : Fin cfg0.N,
    win0_0.index t (0 : Fin 3) = t.val / 3 ∧ win0_0.index t (1 : Fin 3) = 0 ∧ win0_0.index t (2 : Fin 3) = 0
    ∧ win0_1.index t (0 : Fin 3) = t.val / 3 ∧ win0_1.index t (1 : Fin 3) = t.val % 3 ∧ win0_1.index t (2 : Fin 3) = 0
    ∧ win0_2.index t (0 : Fin 3) = t.val / 3 ∧ win0_2.index t (1 : Fin 3) = 0 ∧ win0_2.index t (2 : Fin 3) = t.val % 3 :=
  (by decide +kernel : ∀ t : Fin grid0.N, _)

/-- The cut sizes: the tile of 768 rows (columns), or the 684 that are left at the last tile. -/
theorem size_facts : ∀ t : Fin cfg0.N,
    win0_1.xsize (grid0.coords t) (0 : Fin 3) = 1 ∧ win0_1.xsize (grid0.coords t) (1 : Fin 3) = min 768 (2220 - 768 * (t.val % 3))
    ∧ win0_1.xsize (grid0.coords t) (2 : Fin 3) = 60
    ∧ win0_2.xsize (grid0.coords t) (0 : Fin 3) = 1 ∧ win0_2.xsize (grid0.coords t) (1 : Fin 3) = 2220
    ∧ win0_2.xsize (grid0.coords t) (2 : Fin 3) = min 768 (2220 - 768 * (t.val % 3)) :=
  (by decide +kernel : ∀ t : Fin grid0.N, _)

/-! ## The blocks, read at coordinates -/

/-- Window 0's block at a point of batch b, read at (0, n, k): the second patch array at (b, n, k). -/
theorem iblk0_apply (c : Dev nD) (t : Fin cfg0.N) (b : Fin 8) (hb : b.val = t.val / 3) (n : Fin 2220) (k : Fin 60) :
    iblk m c 0 t (ix3 (0 : Fin 1) n k) = V m c main_v67 (ix3 b n k) := by
  obtain ⟨e0, e1, e2, -⟩ := idx_facts t
  unfold iblk
  show V m c main_v67 (((cfg0.win 0).blk t).view.emb (ix3 (0 : Fin 1) n k)) = _
  refine congrArg _ ?_
  funext a; apply Fin.ext
  match a with
  | ⟨0, _⟩ => show win0_0.index t (0 : Fin 3) * 1 + 1 * 0 = b.val; omega
  | ⟨1, _⟩ => show win0_0.index t (1 : Fin 3) * 2220 + 1 * n.val = n.val; omega
  | ⟨2, _⟩ => show win0_0.index t (2 : Fin 3) * 60 + 1 * k.val = k.val; omega

/-- Window 1's filled-out block at point t = 3·b + j, read on a row q the fetch moves: the first patch array's row 768·j + q. -/
theorem rowsBlk_apply (c : Dev nD) (t : Fin cfg0.N) (b : Fin 8) (hb : b.val = t.val / 3) (q : Fin 768)
    (hq : q.val < min 768 (2220 - 768 * (t.val % 3))) (r : Fin 2220) (hr : r.val = 768 * (t.val % 3) + q.val) (k : Fin 60) :
    rowsBlk m c t (ix3 (0 : Fin 1) q k) = V m c main_v33 (ix3 b r k) := by
  obtain ⟨-, -, -, e0, e1, e2, -⟩ := idx_facts t
  obtain ⟨s0, s1, s2, -⟩ := size_facts t
  have hmv : win0_1.moved (grid0.coords t) (ix3 (0 : Fin 1) q k) = true := (win0_1.moved_iff _ _).mpr fun a => by
    match a with
    | ⟨0, _⟩ => show 0 < win0_1.xsize (grid0.coords t) (0 : Fin 3); omega
    | ⟨1, _⟩ => show q.val < win0_1.xsize (grid0.coords t) (1 : Fin 3); omega
    | ⟨2, _⟩ => show k.val < win0_1.xsize (grid0.coords t) (2 : Fin 3); have := k.isLt; omega
  unfold rowsBlk Pipeline.Window.fill
  rw [dif_pos hmv]
  unfold iblk
  show V m c main_v33 (((cfg0.win 1).blk t).view.emb _) = _
  refine congrArg _ ?_
  funext a; apply Fin.ext
  match a with
  | ⟨0, _⟩ => show win0_1.index t (0 : Fin 3) * 1 + 1 * 0 = b.val; omega
  | ⟨1, _⟩ => show win0_1.index t (1 : Fin 3) * 768 + 1 * q.val = r.val; omega
  | ⟨2, _⟩ => show win0_1.index t (2 : Fin 3) * 60 + 1 * k.val = k.val; omega

/-! ## What a point writes back -/

theorem G_apply (P2 P1 : S8x2220x60.Idx → EReal) (b : Fin 8) (n r : Fin 2220) :
    G P2 P1 (ix3 b n r) = ∑ k : Fin 60, Cert.Spec.kNorm (row P2 b n) k * Cert.Spec.kNorm (row P1 b r) k := rfl

/-- What point t writes back is block t of G of the two patch arrays as the region finds them. -/
theorem flushed_eq (c : Dev nD) (t : Fin cfg0.N) :
    (dats m 0 c).flushed 2 t = ((cfg0.win 2).blk t).view.read (Elt Ideal) (G (V m c main_v67) (V m c main_v33)) := by
  obtain ⟨-, -, -, -, -, -, e0, e1, e2⟩ := idx_facts t
  obtain ⟨-, -, -, s0, s1, s2⟩ := size_facts t
  have hN : t.val < 24 := lt_of_lt_of_eq t.isLt N_0
  show (cfg0.win 2).cut (grid0.coords t) ((dats m 0 c).after 2 t) = _
  rw [show (dats m 0 c).after 2 t = outBlk m c t from by dsimp only [dats]]
  funext y
  have y0 : (y 0).val < win0_2.xsize (grid0.coords t) (0 : Fin 3) := (y 0).isLt
  have y1 : (y 1).val < win0_2.xsize (grid0.coords t) (1 : Fin 3) := (y 1).isLt
  have y2 : (y 2).val < win0_2.xsize (grid0.coords t) (2 : Fin 3) := (y 2).isLt
  rw [s0] at y0; rw [s1] at y1; rw [s2] at y2
  have y2' : (y 2).val < 768 ∧ 768 * (t.val % 3) + (y 2).val < 2220 := by
    rcases Nat.lt_min.mp y2 with ⟨ha, hb⟩; exact ⟨ha, by omega⟩
  let b : Fin 8 := ⟨t.val / 3, by omega⟩
  let n : Fin 2220 := ⟨(y 1).val, y1⟩
  let q : Fin 768 := ⟨(y 2).val, y2'.1⟩
  let r : Fin 2220 := ⟨768 * (t.val % 3) + (y 2).val, y2'.2⟩
  have hx : win0_2.xinj (grid0.coords t) y = ix3 (0 : Fin 1) n q := by
    funext a; apply Fin.ext
    match a with
    | ⟨0, _⟩ => show (y 0).val = 0; omega
    | ⟨1, _⟩ => rfl
    | ⟨2, _⟩ => rfl
  have he : ((cfg0.win 2).blk t).view.emb y = ix3 b n r := by
    funext a; apply Fin.ext
    match a with
    | ⟨0, _⟩ => show win0_2.index t (0 : Fin 3) * 1 + 1 * (y 0).val = t.val / 3; omega
    | ⟨1, _⟩ => show win0_2.index t (1 : Fin 3) * 2220 + 1 * (y 1).val = (y 1).val; omega
    | ⟨2, _⟩ => show win0_2.index t (2 : Fin 3) * 768 + 1 * (y 2).val = 768 * (t.val % 3) + (y 2).val; omega
  show outBlk m c t (win0_2.xinj (grid0.coords t) y) = G (V m c main_v67) (V m c main_v33) (((cfg0.win 2).blk t).view.emb y)
  rw [hx, he, G_apply]
  unfold outBlk
  rw [pay2_apply]
  refine Finset.sum_congr rfl fun k _ => ?_
  have hb' : b.val = (batchHead t).val / 3 := by show t.val / 3 = (3 * (t.val / 3)) / 3; omega
  have h1 : normed m c t (ix2 n k) = Cert.Spec.kNorm (row (V m c main_v67) b n) k := by
    unfold normed; rw [pay1_apply]
    exact congrArg (fun x => Cert.Spec.kNorm x k) (funext fun k' => iblk0_apply m c (batchHead t) b hb' n k')
  have h2 : Cert.Spec.kNorm (fun k' => rowsBlk m c t (ix3 (0 : Fin 1) q k')) k = Cert.Spec.kNorm (row (V m c main_v33) b r) k :=
    congrArg (fun x => Cert.Spec.kNorm x k) (funext fun k' => rowsBlk_apply m c t b rfl q (Nat.lt_min.mpr ⟨y2'.1, by show (y 2).val < 2220 - 768 * (t.val % 3); omega⟩) r rfl k')
  rw [h1, h2]

/-! ## The blocks cover the array -/

/-- An index of the output array is in point t's block iff each coordinate is in the block's cut range on its axis. -/
theorem mem_blk (t : Fin cfg0.N) (i : S8x2220x2220.Idx) :
    i ∈ ((cfg0.win 2).blk t).view.set ↔ ∀ a : Fin 3, win0_2.index t a * S1x2220x768.size a ≤ (i a).val
      ∧ (i a).val < win0_2.index t a * S1x2220x768.size a + win0_2.xsize (grid0.coords t) a := by
  show i ∈ ((View.whole main_v68).slice (win0_2.rect t)).set ↔ _
  rw [View.set_slice_whole, Rect.mem_set_unit]
  exact Iff.rfl

/-- Entry (b, n, q) is in the block of point 3·b + q / 768. -/
theorem cover (i : S8x2220x2220.Idx) : ∃ t : Fin cfg0.N, (cfg0.win 2).flush t = true ∧ i ∈ ((cfg0.win 2).blk t).view.set := by
  have h0 : (i 0).val < 8 := (i 0).isLt
  have h1 : (i 1).val < 2220 := (i 1).isLt
  have h2 : (i 2).val < 2220 := (i 2).isLt
  let t : Fin cfg0.N := ⟨3 * (i 0).val + (i 2).val / 768, by rw [show cfg0.N = 24 from N_0]; omega⟩
  refine ⟨t, flush0_2 t, ?_⟩
  obtain ⟨-, -, -, -, -, -, e0, e1, e2⟩ := idx_facts t
  obtain ⟨-, -, -, s0, s1, s2⟩ := size_facts t
  have ht : t.val = 3 * (i 0).val + (i 2).val / 768 := rfl
  rw [mem_blk]
  intro a
  match a with
  | ⟨0, _⟩ => show win0_2.index t (0 : Fin 3) * 1 ≤ (i 0).val ∧ (i 0).val < win0_2.index t (0 : Fin 3) * 1 + win0_2.xsize (grid0.coords t) (0 : Fin 3); omega
  | ⟨1, _⟩ => show win0_2.index t (1 : Fin 3) * 2220 ≤ (i 1).val ∧ (i 1).val < win0_2.index t (1 : Fin 3) * 2220 + win0_2.xsize (grid0.coords t) (1 : Fin 3); omega
  | ⟨2, _⟩ =>
    show win0_2.index t (2 : Fin 3) * 768 ≤ (i 2).val ∧ (i 2).val < win0_2.index t (2 : Fin 3) * 768 + win0_2.xsize (grid0.coords t) (2 : Fin 3)
    rw [s2, e2, Nat.min_def]; split <;> omega

/-- After the run the output array holds G of the two patch arrays. -/
theorem final (c : Dev nD) : (dats m 0 c).arrAt 2 cfg0.N = G (V m c main_v67) (V m c main_v33) :=
  (dats m 0 c).arrAt_eq_of_cover 2 _ (fun t _ => flushed_eq m c t) cover

/-! ## The result buffer -/

/-- The host operation after the region reshapes the output array into the result. -/
theorem tail_eq (c : Dev nD) :
    Pipeline.afterTail₀ cfgs (dats m) 0 (V0 m) [hostOps1] c main_v69
      = shapeCast S296x37x12x300 (G (V m c main_v67) (V m c main_v33)) shapeCasts_S8x2220x2220_S296x37x12x300 := by
  have hw : Pipeline.withArrays (cfgs 0).spec c (V0 m c) (fun w => (dats m 0 c).arrAt w (cfgs 0).N) (Proc.devRef .tc main_v68)
      = G (V m c main_v67) (V m c main_v33) :=
    (Pipeline.withArrays_arr spec0 launch0.win.arr_inj c _ _ 2).trans (final m c)
  unfold Pipeline.afterTail₀
  show StableHlo.after hostOps1 _ (Proc.devRef .tc main_v69) = _
  after_results
  rw [hw]
  rfl

/-! ## The run, read -/

/-- Every weakly fair execution of the idealized kernel program terminates without a fault, with the result at the reshaped
    product of the two normalised patch arrays and the two arguments as they began. -/
theorem run (hloc : ColumnLocal Ideal) :
    θ_run defs (onTc (τ := τ) (main (F := Ideal))) ⟨m, fun _ => 0, ρ⟩ (fun r => ∀ c : Dev nD,
      r.2.mem ((c.tc : Thread nD τ).loc main_v69)
        = shapeCast S296x37x12x300 (G (V m c main_v67) (V m c main_v33)) shapeCasts_S8x2220x2220_S296x37x12x300
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v69 (Pipeline.mem_restRefs_of main_v69 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ hloc)

end Cert.KernelIdeal.Out

end
-- ==== Proof.ColumnLocal.lean ====
/-
  The columns of the stored block that window 2's write-back moves depend only on the rows of window 1's buffer that
  its fetch filled: over the extended reals, where the payload is read entry by entry.
-/
import proofs.«116544_j88252987998983_2_alg».proof.Proof.KernelRead
import proofs.«116544_j88252987998983_2_alg».proof.Proof.OblIdeal

noncomputable section

open scoped BigOperators

namespace Cert.KernelIdeal.Read

open Cert.KernelIdeal Cert.KernelIdeal.Gen
open Idealize.ShloMosaic Idealize.ShloMosaic.ValueIdx
open Cert.Spec Cert.LibKeepdims Cert.LibRowsDot

/-! ## The stored block's moved columns depend on the moved rows of window 1's buffer only

Entry `(0, n, q)` of the stored block is the product of row `n` of the scratch with the normalised row `q` of window
1's buffer (`pay2_apply`). The write-back of window 2 at a point moves the columns `q` below its cut size on the
column axis, which is window 1's cut size on its row axis at that point (both are the part of a 768-tile inside 2220);
on those rows window 1's buffer, filled with a block `g`, holds `g`, whatever lay there before. -/

/-- The cut sizes at each of the 24 points: window 2's columns are window 1's rows, and window 1's block is cut on
    its row axis only. -/
theorem cut_sizes : ∀ t : Fin cfg0.N, win0_2.xsize (grid0.coords t) 2 = win0_1.xsize (grid0.coords t) 1
    ∧ win0_1.xsize (grid0.coords t) 2 = 60 ∧ win0_1.xsize (grid0.coords t) 0 = 1 :=
  (by decide +kernel : ∀ t : Fin grid0.N, win0_2.xsize (grid0.coords t) 2 = win0_1.xsize (grid0.coords t) 1
    ∧ win0_1.xsize (grid0.coords t) 2 = 60 ∧ win0_1.xsize (grid0.coords t) 0 = 1)

/-- A row of window 1's buffer below the cut size, after a fill with `g`, does not depend on what was filled over. -/
theorem fill_row_eq (t : Fin cfg0.N) (d d' : S1x768x60.Idx → Elt Ideal .f32)
    (g : (win0_1.xblock (grid0.coords t)).Idx → Elt Ideal .f32) (q : Fin 768)
    (hq : q.val < win0_1.xsize (grid0.coords t) 1) (k' : Fin 60) :
    win0_1.fill (grid0.coords t) d g (ix3 (0 : Fin 1) q k') = win0_1.fill (grid0.coords t) d' g (ix3 (0 : Fin 1) q k') := by
  obtain ⟨-, h2, h0⟩ := cut_sizes t
  have hm : win0_1.moved (grid0.coords t) (ix3 (0 : Fin 1) q k') = true :=
    (win0_1.moved_iff _ _).mpr fun a => by
      match a with
      | ⟨0, _⟩ => show 0 < win0_1.xsize (grid0.coords t) 0; rw [h0]; exact Nat.one_pos
      | ⟨1, _⟩ => exact hq
      | ⟨2, _⟩ => show k'.val < win0_1.xsize (grid0.coords t) 2; rw [h2]; exact k'.isLt
  unfold Pipeline.Window.fill
  rw [dif_pos hm, dif_pos hm]

theorem columnLocal : Cert.KernelIdeal.Data.ColumnLocal Ideal := by
  intro t d d' g S
  funext j
  obtain ⟨h21, -, -⟩ := cut_sizes t
  -- the entry's coordinates: a row of the scratch and a column below window 2's cut size
  have hn : ((win0_2.xinj (grid0.coords t) j) 1).val < 2220 := ((win0_2.xinj (grid0.coords t) j) 1).isLt
  have hq : ((win0_2.xinj (grid0.coords t) j) 2).val < 768 := ((win0_2.xinj (grid0.coords t) j) 2).isLt
  have hy : win0_2.xinj (grid0.coords t) j
      = ix3 (0 : Fin 1) (⟨((win0_2.xinj (grid0.coords t) j) 1).val, hn⟩ : Fin 2220) (⟨((win0_2.xinj (grid0.coords t) j) 2).val, hq⟩ : Fin 768) :=
    funext fun a => Fin.ext (by
      match a with
      | ⟨0, _⟩ => exact Nat.lt_one_iff.mp ((win0_2.xinj (grid0.coords t) j) 0).isLt
      | ⟨1, _⟩ => rfl
      | ⟨2, _⟩ => rfl)
  have hlt : ((win0_2.xinj (grid0.coords t) j) 2).val < win0_1.xsize (grid0.coords t) 1 := by
    rw [← h21]; exact (j 2).isLt
  show k0_pay2 _ S (win0_2.xinj (grid0.coords t) j) = k0_pay2 _ S (win0_2.xinj (grid0.coords t) j)
  rw [hy, pay2_apply, pay2_apply]
  refine Finset.sum_congr rfl fun k _ => congrArg (fun r => S (ix2 _ k) * r) ?_
  refine congrArg (fun r => kNorm r k) (funext fun k' => ?_)
  exact fill_row_eq t d d' g _ hlt k'

end Cert.KernelIdeal.Read

end
-- ==== Proof.RefRun.lean ====
/-
  The run of the reference program, read back as one pure function of its two argument arrays.

  @main is a straight line of 148 host operations once its two calls of @_std are replaced by the operations of
  @_std, @_var and @_where they stand for. The line is cut where the mathematics cuts it: the patch extraction
  (an index table, a gather, a transpose, a reshape) applied to each argument; the row normalisation (mean, variance
  with the normaliser 60 - 0, the guarded select, square root, subtraction, division) applied to each patch array;
  the batched product of the two normalised arrays, and the final reshape. Each piece's value is one definition
  used twice; `after_append` joins the pieces.
-/
import proofs.«116544_j88252987998983_2_alg».proof.ReferenceIdeal
import proofs.«116544_j88252987998983_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The index table of the patch extraction

No float enters here: the table is the same for both arguments and for every float model. -/

/-- Entry (i, j) is i + j, for i < 37 and j < 12: the row of the argument that row j of patch i reads
    (operations %0 … %6). -/
def rowSum : IVec S37x12 32 :=
  addi (broadcastInDim S37x12 ![0, 1] bcast_S37x1_S37x12_0_1 (broadcastInDim S37x1 ![0] bcast_S37_S37x1_0 (iotaInDim S37 32 0)))
    (broadcastInDim S37x12 ![0, 1] bcast_S1x12_S37x12_0_1 (broadcastInDim S1x12 ![1] bcast_S12_S1x12_1 (iotaInDim S12 32 0)))

/-- Entry (j, l) is j + l, for j < 12 and l < 5: the column that column l of patch column j reads
    (operations %7 … %13). -/
def colSum : IVec S12x5 32 :=
  addi (broadcastInDim S12x5 ![0, 1] bcast_S12x1_S12x5_0_1 (broadcastInDim S12x1 ![0] bcast_S12_S12x1_0 (iotaInDim S12 32 0)))
    (broadcastInDim S12x5 ![0, 1] bcast_S1x5_S12x5_0_1 (broadcastInDim S1x5 ![1] bcast_S5_S1x5_1 (iotaInDim S5 32 0)))

/-- `rowSum` laid over [37, 1, 12, 1] (operation %14). -/
def rowSum4 : IVec S37x1x12x1 32 := broadcastInDim S37x1x12x1 ![0, 2] bcast_S37x12_S37x1x12x1_0_2 rowSum

/-- `colSum` laid over [1, 12, 1, 5] (operation %15). -/
def colSum4 : IVec S1x12x1x5 32 := broadcastInDim S1x12x1x5 ![1, 3] bcast_S12x5_S1x12x1x5_1_3 colSum

/-- The row indices with a negative one wrapped by the axis length 48 (operations %16 … %20; none is negative). -/
def rowIndex : IVec S37x1x12x1 32 :=
  select (cmpi .slt rowSum4 (broadcastInDim S37x1x12x1 ![] bcast_S_S37x1x12x1 (constantI S_ 32 0#32)))
    (addi rowSum4 (broadcastInDim S37x1x12x1 ![] bcast_S_S37x1x12x1 (constantI S_ 32 48#32))) rowSum4

/-- The column indices with a negative one wrapped by the axis length 16 (operations %21 … %25). -/
def colIndex : IVec S1x12x1x5 32 :=
  select (cmpi .slt colSum4 (broadcastInDim S1x12x1x5 ![] bcast_S_S1x12x1x5 (constantI S_ 32 0#32)))
    (addi colSum4 (broadcastInDim S1x12x1x5 ![] bcast_S_S1x12x1x5 (constantI S_ 32 16#32))) colSum4

/-- The gather's start indices over [37, 12, 12, 5, 2]: the pair (row, column) at each patch position
    (operations %26 … %30). -/
def patchIndex : IVec S37x12x12x5x2 32 :=
  concatenate S37x12x12x5x2 4
    [⟨S37x12x12x5x1, broadcastInDim S37x12x12x5x1 ![0, 1, 2, 3] bcast_S37x12x12x5_S37x12x12x5x1_0_1_2_3
        (broadcastInDim S37x12x12x5 ![0, 1, 2, 3] bcast_S37x1x12x1_S37x12x12x5_0_1_2_3 rowIndex)⟩,
     ⟨S37x12x12x5x1, broadcastInDim S37x12x12x5x1 ![0, 1, 2, 3] bcast_S37x12x12x5_S37x12x12x5x1_0_1_2_3
        (broadcastInDim S37x12x12x5 ![0, 1, 2, 3] bcast_S1x12x1x5_S37x12x12x5_0_1_2_3 colIndex)⟩]
    concatenates_S37x12x12x5x1_S37x12x12x5x1_S37x12x12x5x2_d4

variable {F : FTy → Type} [FloatOps F]

/-! ## The values -/

/-- @main's patch extraction (its operations %0 … %33) as one function of an argument array: the integer index
    arithmetic (`patchIndex`), the gather, the transpose and the reshape to [8, 2220, 60]. -/
def patches (x : FVec F S8x48x16x5 .f32) : FVec F S8x2220x60 .f32 :=
  shapeCast S8x2220x60
    (transpose S8x5x37x12x12x5 [0, 5, 1, 2, 3, 4]
      (Host.gather gather_S8x48x16x5_S37x12x12x5x2_S8x37x12x12x5x5_05_12_n_n_12_4_8115 x patchIndex)
      transposes_S8x37x12x12x5x5_S8x5x37x12x12x5_0_5_1_2_3_4)
    shapeCasts_S8x5x37x12x12x5_S8x2220x60

/-- The mean of each row over [8, 2220, 1]: the host sum along the last axis from zero, divided by 60
    (operations %68 … %71; @_var computes the same term as its %0 … %3). -/
def rowMean (p : FVec F S8x2220x60 .f32) : FVec F S8x2220x1 .f32 :=
  Host.divf
    (broadcastInDim S8x2220x1 ![0, 1] bcast_S8x2220_S8x2220x1_0_1
      (Host.reduceAdd p (constant S_ .f32 0x00000000#32) reducesTo_S8x2220x60_S8x2220_d2 h_S_))
    (broadcastInDim S8x2220x1 ![] bcast_S_S8x2220x1 (constant S_ .f32 0x42700000#32))

/-- Each entry less its row's mean (operations %73, %74; @_var's %4, %5). -/
def centered (p : FVec F S8x2220x60 .f32) : FVec F S8x2220x60 .f32 :=
  subf p (broadcastInDim S8x2220x60 ![0, 1, 2] bcast_S8x2220x1_S8x2220x60_0_1_2 (rowMean p))

/-- @_var's normaliser 60 - 0: the count 60 less the correction 0 converted to a float (its %7, %8). -/
def varCount : FVec F S_ .f32 :=
  subf (constant S_ .f32 0x42700000#32) (sitofp .f32 (constantI S_ 32 0#32))

/-- @_var: the host sum of the squared deviations divided by the normaliser, kept where the normaliser is
    positive and replaced by the quiet NaN word elsewhere (its %6, %9 … %13 and @_where's select). -/
def rowVar (p : FVec F S8x2220x60 .f32) : FVec F S8x2220x1 .f32 :=
  select (broadcastInDim S8x2220x1 ![] bcast_S_S8x2220x1 (cmpf .ogt (varCount (F := F)) (constant S_ .f32 0x00000000#32)))
    (Host.divf
      (broadcastInDim S8x2220x1 ![0, 1] bcast_S8x2220_S8x2220x1_0_1
        (Host.reduceAdd (mulf (centered p) (centered p)) (constant S_ .f32 0x00000000#32) reducesTo_S8x2220x60_S8x2220_d2 h_S_))
      (broadcastInDim S8x2220x1 ![] bcast_S_S8x2220x1 varCount))
    (broadcastInDim S8x2220x1 ![] bcast_S_S8x2220x1 (constant S_ .f32 0x7FC00000#32))

/-- One call of reference.py's _normalize (operations %68 … %76): the row mean, @_std inlined (its @_var with the
    normaliser 60 - 0, the @_where select against the NaN word, the square root), the subtraction and the division. -/
def normalize (p : FVec F S8x2220x60 .f32) : FVec F S8x2220x60 .f32 :=
  Host.divf (centered p)
    (broadcastInDim S8x2220x60 ![0, 1, 2] bcast_S8x2220x1_S8x2220x60_0_1_2 (Host.sqrt (rowVar p)))

/-- The batched product over [8, 2220, 2220]: batch axis 0, contracted axes 2 and 2 (operation %86). -/
def gram (l r : FVec F S8x2220x60 .f32) : FVec F S8x2220x2220 .f32 :=
  Host.dotGeneral dot_S8x2220x60_S8x2220x60_S8x2220x2220_2_2_1_1_0_0 none l r

/-- @main's result as one function of the two argument arrays: the product of the normalised patches of the
    SECOND argument (left operand) with those of the FIRST (right operand), reshaped to [296, 37, 12, 300]
    (operations %86, %87). -/
def result (a0 a1 : FVec F S8x48x16x5 .f32) : FVec F S296x37x12x300 .f32 :=
  shapeCast S296x37x12x300 (gram (normalize (patches a1)) (normalize (patches a0))) shapeCasts_S8x2220x2220_S296x37x12x300

/-! ## The operations, piece by piece -/

/-- The patch extraction from the first argument: @main's operations %0 … %33 with their four integer constants. -/
abbrev opsP0 : List (HloOp τ sig (Elt F)) :=
  [ StableHlo.nullary main_v0 (iotaInDim S37 32 0),
    StableHlo.unary main_v0 main_v1 (broadcastInDim S37x1 ![0] bcast_S37_S37x1_0 : (⟨S37, .i32⟩ : BufTy).Contents (Elt F) → (⟨S37x1, .i32⟩ : BufTy).Contents (Elt F)),
    StableHlo.nullary main_v2 (iotaInDim S12 32 0),
    StableHlo.unary main_v2 main_v3 (broadcastInDim S1x12 ![1] bcast_S12_S1x12_1 : (⟨S12, .i32⟩ : BufTy).Contents (Elt F) → (⟨S1x12, .i32⟩ : BufTy).Contents (Elt F)),
    StableHlo.unary main_v1 main_v4 (broadcastInDim S37x12 ![0, 1] bcast_S37x1_S37x12_0_1 : (⟨S37x1, .i32⟩ : BufTy).Contents (Elt F) → (⟨S37x12, .i32⟩ : BufTy).Contents (Elt F)),
    StableHlo.unary main_v3 main_v5 (broadcastInDim S37x12 ![0, 1] bcast_S1x12_S37x12_0_1 : (⟨S1x12, .i32⟩ : BufTy).Contents (Elt F) → (⟨S37x12, .i32⟩ : BufTy).Contents (Elt F)),
    StableHlo.binary main_v4 main_v5 main_v6 (addi : (⟨S37x12, .i32⟩ : BufTy).Contents (Elt F) → (⟨S37x12, .i32⟩ : BufTy).Contents (Elt F) → (⟨S37x12, .i32⟩ : BufTy).Contents (Elt F)),
    StableHlo.nullary main_v7 (iotaInDim S12 32 0),
    StableHlo.unary main_v7 main_v8 (broadcastInDim S12x1 ![0] bcast_S12_S12x1_0 : (⟨S12, .i32⟩ : BufTy).Contents (Elt F) → (⟨S12x1, .i32⟩ : BufTy).Contents (Elt F)),
    StableHlo.nullary main_v9 (iotaInDim S5 32 0),
    StableHlo.unary main_v9 main_v10 (broadcastInDim S1x5 ![1] bcast_S5_S1x5_1 : (⟨S5, .i32⟩ : BufTy).Contents (Elt F) → (⟨S1x5, .i32⟩ : BufTy).Contents (Elt F)),
    StableHlo.unary main_v8 main_v11 (broadcastInDim S12x5 ![0, 1] bcast_S12x1_S12x5_0_1 : (⟨S12x1, .i32⟩ : BufTy).Contents (Elt F) → (⟨S12x5, .i32⟩ : BufTy).Contents (Elt F)),
    StableHlo.unary main_v10 main_v12 (broadcastInDim S12x5 ![0, 1] bcast_S1x5_S12x5_0_1 : (⟨S1x5, .i32⟩ : BufTy).Contents (Elt F) → (⟨S12x5, .i32⟩ : BufTy).Contents (Elt F)),
    StableHlo.binary main_v11 main_v12 main_v13 (addi : (⟨S12x5, .i32⟩ : BufTy).Contents (Elt F) → (⟨S12x5, .i32⟩ : BufTy).Contents (Elt F) → (⟨S12x5, .i32⟩ : BufTy).Contents (Elt F)),
    StableHlo.unary main_v6 main_v14 (broadcastInDim S37x1x12x1 ![0, 2] bcast_S37x12_S37x1x12x1_0_2 : (⟨S37x12, .i32⟩ : BufTy).Contents (Elt F) → (⟨S37x1x12x1, .i32⟩ : BufTy).Contents (Elt F)),
    StableHlo.unary main_v13 main_v15 (broadcastInDim S1x12x1x5 ![1, 3] bcast_S12x5_S1x12x1x5_1_3 : (⟨S12x5, .i32⟩ : BufTy).Contents (Elt F) → (⟨S1x12x1x5, .i32⟩ : BufTy).Contents (Elt F)),
    StableHlo.nullary main_c (constantI S_ 32 0#32),
    StableHlo.unary main_c main_v16 (broadcastInDim S37x1x12x1 ![] bcast_S_S37x1x12x1 : (⟨S_, .i32⟩ : BufTy).Contents (Elt F) → (⟨S37x1x12x1, .i32⟩ : BufTy).Contents (Elt F)),
    StableHlo.binary main_v14 main_v16 main_v17 (cmpi .slt : (⟨S37x1x12x1, .i32⟩ : BufTy).Contents (Elt F) → (⟨S37x1x12x1, .i32⟩ : BufTy).Contents (Elt F) → (⟨S37x1x12x1, .i1⟩ : BufTy).Contents (Elt F)),
    StableHlo.nullary main_c_0 (constantI S_ 32 48#32),
    StableHlo.unary main_c_0 main_v18 (broadcastInDim S37x1x12x1 ![] bcast_S_S37x1x12x1 : (⟨S_, .i32⟩ : BufTy).Contents (Elt F) → (⟨S37x1x12x1, .i32⟩ : BufTy).Contents (Elt F)),
    StableHlo.binary main_v14 main_v18 main_v19 (addi : (⟨S37x1x12x1, .i32⟩ : BufTy).Contents (Elt F) → (⟨S37x1x12x1, .i32⟩ : BufTy).Contents (Elt F) → (⟨S37x1x12x1, .i32⟩ : BufTy).Contents (Elt F)),
    StableHlo.ternary main_v17 main_v19 main_v14 main_v20 (select : (⟨S37x1x12x1, .i1⟩ : BufTy).Contents (Elt F) → (⟨S37x1x12x1, .i32⟩ : BufTy).Contents (Elt F) → (⟨S37x1x12x1, .i32⟩ : BufTy).Contents (Elt F) → (⟨S37x1x12x1, .i32⟩ : BufTy).Contents (Elt F)),
    StableHlo.nullary main_c_1 (constantI S_ 32 0#32),
    StableHlo.unary main_c_1 main_v21 (broadcastInDim S1x12x1x5 ![] bcast_S_S1x12x1x5 : (⟨S_, .i32⟩ : BufTy).Contents (Elt F) → (⟨S1x12x1x5, .i32⟩ : BufTy).Contents (Elt F)),
    StableHlo.binary main_v15 main_v21 main_v22 (cmpi .slt : (⟨S1x12x1x5, .i32⟩ : BufTy).Contents (Elt F) → (⟨S1x12x1x5, .i32⟩ : BufTy).Contents (Elt F) → (⟨S1x12x1x5, .i1⟩ : BufTy).Contents (Elt F)),
    StableHlo.nullary main_c_2 (constantI S_ 32 16#32),
    StableHlo.unary main_c_2 main_v23 (broadcastInDim S1x12x1x5 ![] bcast_S_S1x12x1x5 : (⟨S_, .i32⟩ : BufTy).Contents (Elt F) → (⟨S1x12x1x5, .i32⟩ : BufTy).Contents (Elt F)),
    StableHlo.binary main_v15 main_v23 main_v24 (addi : (⟨S1x12x1x5, .i32⟩ : BufTy).Contents (Elt F) → (⟨S1x12x1x5, .i32⟩ : BufTy).Contents (Elt F) → (⟨S1x12x1x5, .i32⟩ : BufTy).Contents (Elt F)),
    StableHlo.ternary main_v22 main_v24 main_v15 main_v25 (select : (⟨S1x12x1x5, .i1⟩ : BufTy).Contents (Elt F) → (⟨S1x12x1x5, .i32⟩ : BufTy).Contents (Elt F) → (⟨S1x12x1x5, .i32⟩ : BufTy).Contents (Elt F) → (⟨S1x12x1x5, .i32⟩ : BufTy).Contents (Elt F)),
    StableHlo.unary main_v20 main_v26 (broadcastInDim S37x12x12x5 ![0, 1, 2, 3] bcast_S37x1x12x1_S37x12x12x5_0_1_2_3 : (⟨S37x1x12x1, .i32⟩ : BufTy).Contents (Elt F) → (⟨S37x12x12x5, .i32⟩ : BufTy).Contents (Elt F)),
    StableHlo.unary main_v25 main_v27 (broadcastInDim S37x12x12x5 ![0, 1, 2, 3] bcast_S1x12x1x5_S37x12x12x5_0_1_2_3 : (⟨S1x12x1x5, .i32⟩ : BufTy).Contents (Elt F) → (⟨S37x12x12x5, .i32⟩ : BufTy).Contents (Elt F)),
    StableHlo.unary main_v26 main_v28 (broadcastInDim S37x12x12x5x1 ![0, 1, 2, 3] bcast_S37x12x12x5_S37x12x12x5x1_0_1_2_3 : (⟨S37x12x12x5, .i32⟩ : BufTy).Contents (Elt F) → (⟨S37x12x12x5x1, .i32⟩ : BufTy).Contents (Elt F)),
    StableHlo.unary main_v27 main_v29 (broadcastInDim S37x12x12x5x1 ![0, 1, 2, 3] bcast_S37x12x12x5_S37x12x12x5x1_0_1_2_3 : (⟨S37x12x12x5, .i32⟩ : BufTy).Contents (Elt F) → (⟨S37x12x12x5x1, .i32⟩ : BufTy).Contents (Elt F)),
    StableHlo.binary main_v28 main_v29 main_v30 ((fun a b => concatenate S37x12x12x5x2 4 [⟨S37x12x12x5x1, a⟩, ⟨S37x12x12x5x1, b⟩] concatenates_S37x12x12x5x1_S37x12x12x5x1_S37x12x12x5x2_d4) : (⟨S37x12x12x5x1, .i32⟩ : BufTy).Contents (Elt F) → (⟨S37x12x12x5x1, .i32⟩ : BufTy).Contents (Elt F) → (⟨S37x12x12x5x2, .i32⟩ : BufTy).Contents (Elt F)),
    StableHlo.binary main_arg0 main_v30 main_v31 ((fun x i => Host.gather gather_S8x48x16x5_S37x12x12x5x2_S8x37x12x12x5x5_05_12_n_n_12_4_8115 x i) : (⟨S8x48x16x5, .f32⟩ : BufTy).Contents (Elt F) → (⟨S37x12x12x5x2, .i32⟩ : BufTy).Contents (Elt F) → (⟨S8x37x12x12x5x5, .f32⟩ : BufTy).Contents (Elt F)),
    StableHlo.unary main_v31 main_v32 ((transpose S8x5x37x12x12x5 [0, 5, 1, 2, 3, 4] · transposes_S8x37x12x12x5x5_S8x5x37x12x12x5_0_5_1_2_3_4) : (⟨S8x37x12x12x5x5, .f32⟩ : BufTy).Contents (Elt F) → (⟨S8x5x37x12x12x5, .f32⟩ : BufTy).Contents (Elt F)),
    StableHlo.reshape main_v32 main_v33 rfl shapeCasts_S8x5x37x12x12x5_S8x2220x60 ]

/-- The same extraction from the second argument: operations %34 … %67 with their four integer constants. -/
abbrev opsP1 : List (HloOp τ sig (Elt F)) :=
  [ StableHlo.nullary main_v34 (iotaInDim S37 32 0),
    StableHlo.unary main_v34 main_v35 (broadcastInDim S37x1 ![0] bcast_S37_S37x1_0 : (⟨S37, .i32⟩ : BufTy).Contents (Elt F) → (⟨S37x1, .i32⟩ : BufTy).Contents (Elt F)),
    StableHlo.nullary main_v36 (iotaInDim S12 32 0),
    StableHlo.unary main_v36 main_v37 (broadcastInDim S1x12 ![1] bcast_S12_S1x12_1 : (⟨S12, .i32⟩ : BufTy).Contents (Elt F) → (⟨S1x12, .i32⟩ : BufTy).Contents (Elt F)),
    StableHlo.unary main_v35 main_v38 (broadcastInDim S37x12 ![0, 1] bcast_S37x1_S37x12_0_1 : (⟨S37x1, .i32⟩ : BufTy).Contents (Elt F) → (⟨S37x12, .i32⟩ : BufTy).Contents (Elt F)),
    StableHlo.unary main_v37 main_v39 (broadcastInDim S37x12 ![0, 1] bcast_S1x12_S37x12_0_1 : (⟨S1x12, .i32⟩ : BufTy).Contents (Elt F) → (⟨S37x12, .i32⟩ : BufTy).Contents (Elt F)),
    StableHlo.binary main_v38 main_v39 main_v40 (addi : (⟨S37x12, .i32⟩ : BufTy).Contents (Elt F) → (⟨S37x12, .i32⟩ : BufTy).Contents (Elt F) → (⟨S37x12, .i32⟩ : BufTy).Contents (Elt F)),
    StableHlo.nullary main_v41 (iotaInDim S12 32 0),
    StableHlo.unary main_v41 main_v42 (broadcastInDim S12x1 ![0] bcast_S12_S12x1_0 : (⟨S12, .i32⟩ : BufTy).Contents (Elt F) → (⟨S12x1, .i32⟩ : BufTy).Contents (Elt F)),
    StableHlo.nullary main_v43 (iotaInDim S5 32 0),
    StableHlo.unary main_v43 main_v44 (broadcastInDim S1x5 ![1] bcast_S5_S1x5_1 : (⟨S5, .i32⟩ : BufTy).Contents (Elt F) → (⟨S1x5, .i32⟩ : BufTy).Contents (Elt F)),
    StableHlo.unary main_v42 main_v45 (broadcastInDim S12x5 ![0, 1] bcast_S12x1_S12x5_0_1 : (⟨S12x1, .i32⟩ : BufTy).Contents (Elt F) → (⟨S12x5, .i32⟩ : BufTy).Contents (Elt F)),
    StableHlo.unary main_v44 main_v46 (broadcastInDim S12x5 ![0, 1] bcast_S1x5_S12x5_0_1 : (⟨S1x5, .i32⟩ : BufTy).Contents (Elt F) → (⟨S12x5, .i32⟩ : BufTy).Contents (Elt F)),
    StableHlo.binary main_v45 main_v46 main_v47 (addi : (⟨S12x5, .i32⟩ : BufTy).Contents (Elt F) → (⟨S12x5, .i32⟩ : BufTy).Contents (Elt F) → (⟨S12x5, .i32⟩ : BufTy).Contents (Elt F)),
    StableHlo.unary main_v40 main_v48 (broadcastInDim S37x1x12x1 ![0, 2] bcast_S37x12_S37x1x12x1_0_2 : (⟨S37x12, .i32⟩ : BufTy).Contents (Elt F) → (⟨S37x1x12x1, .i32⟩ : BufTy).Contents (Elt F)),
    StableHlo.unary main_v47 main_v49 (broadcastInDim S1x12x1x5 ![1, 3] bcast_S12x5_S1x12x1x5_1_3 : (⟨S12x5, .i32⟩ : BufTy).Contents (Elt F) → (⟨S1x12x1x5, .i32⟩ : BufTy).Contents (Elt F)),
    StableHlo.nullary main_c_3 (constantI S_ 32 0#32),
    StableHlo.unary main_c_3 main_v50 (broadcastInDim S37x1x12x1 ![] bcast_S_S37x1x12x1 : (⟨S_, .i32⟩ : BufTy).Contents (Elt F) → (⟨S37x1x12x1, .i32⟩ : BufTy).Contents (Elt F)),
    StableHlo.binary main_v48 main_v50 main_v51 (cmpi .slt : (⟨S37x1x12x1, .i32⟩ : BufTy).Contents (Elt F) → (⟨S37x1x12x1, .i32⟩ : BufTy).Contents (Elt F) → (⟨S37x1x12x1, .i1⟩ : BufTy).Contents (Elt F)),
    StableHlo.nullary main_c_4 (constantI S_ 32 48#32),
    StableHlo.unary main_c_4 main_v52 (broadcastInDim S37x1x12x1 ![] bcast_S_S37x1x12x1 : (⟨S_, .i32⟩ : BufTy).Contents (Elt F) → (⟨S37x1x12x1, .i32⟩ : BufTy).Contents (Elt F)),
    StableHlo.binary main_v48 main_v52 main_v53 (addi : (⟨S37x1x12x1, .i32⟩ : BufTy).Contents (Elt F) → (⟨S37x1x12x1, .i32⟩ : BufTy).Contents (Elt F) → (⟨S37x1x12x1, .i32⟩ : BufTy).Contents (Elt F)),
    StableHlo.ternary main_v51 main_v53 main_v48 main_v54 (select : (⟨S37x1x12x1, .i1⟩ : BufTy).Contents (Elt F) → (⟨S37x1x12x1, .i32⟩ : BufTy).Contents (Elt F) → (⟨S37x1x12x1, .i32⟩ : BufTy).Contents (Elt F) → (⟨S37x1x12x1, .i32⟩ : BufTy).Contents (Elt F)),
    StableHlo.nullary main_c_5 (constantI S_ 32 0#32),
    StableHlo.unary main_c_5 main_v55 (broadcastInDim S1x12x1x5 ![] bcast_S_S1x12x1x5 : (⟨S_, .i32⟩ : BufTy).Contents (Elt F) → (⟨S1x12x1x5, .i32⟩ : BufTy).Contents (Elt F)),
    StableHlo.binary main_v49 main_v55 main_v56 (cmpi .slt : (⟨S1x12x1x5, .i32⟩ : BufTy).Contents (Elt F) → (⟨S1x12x1x5, .i32⟩ : BufTy).Contents (Elt F) → (⟨S1x12x1x5, .i1⟩ : BufTy).Contents (Elt F)),
    StableHlo.nullary main_c_6 (constantI S_ 32 16#32),
    StableHlo.unary main_c_6 main_v57 (broadcastInDim S1x12x1x5 ![] bcast_S_S1x12x1x5 : (⟨S_, .i32⟩ : BufTy).Contents (Elt F) → (⟨S1x12x1x5, .i32⟩ : BufTy).Contents (Elt F)),
    StableHlo.binary main_v49 main_v57 main_v58 (addi : (⟨S1x12x1x5, .i32⟩ : BufTy).Contents (Elt F) → (⟨S1x12x1x5, .i32⟩ : BufTy).Contents (Elt F) → (⟨S1x12x1x5, .i32⟩ : BufTy).Contents (Elt F)),
    StableHlo.ternary main_v56 main_v58 main_v49 main_v59 (select : (⟨S1x12x1x5, .i1⟩ : BufTy).Contents (Elt F) → (⟨S1x12x1x5, .i32⟩ : BufTy).Contents (Elt F) → (⟨S1x12x1x5, .i32⟩ : BufTy).Contents (Elt F) → (⟨S1x12x1x5, .i32⟩ : BufTy).Contents (Elt F)),
    StableHlo.unary main_v54 main_v60 (broadcastInDim S37x12x12x5 ![0, 1, 2, 3] bcast_S37x1x12x1_S37x12x12x5_0_1_2_3 : (⟨S37x1x12x1, .i32⟩ : BufTy).Contents (Elt F) → (⟨S37x12x12x5, .i32⟩ : BufTy).Contents (Elt F)),
    StableHlo.unary main_v59 main_v61 (broadcastInDim S37x12x12x5 ![0, 1, 2, 3] bcast_S1x12x1x5_S37x12x12x5_0_1_2_3 : (⟨S1x12x1x5, .i32⟩ : BufTy).Contents (Elt F) → (⟨S37x12x12x5, .i32⟩ : BufTy).Contents (Elt F)),
    StableHlo.unary main_v60 main_v62 (broadcastInDim S37x12x12x5x1 ![0, 1, 2, 3] bcast_S37x12x12x5_S37x12x12x5x1_0_1_2_3 : (⟨S37x12x12x5, .i32⟩ : BufTy).Contents (Elt F) → (⟨S37x12x12x5x1, .i32⟩ : BufTy).Contents (Elt F)),
    StableHlo.unary main_v61 main_v63 (broadcastInDim S37x12x12x5x1 ![0, 1, 2, 3] bcast_S37x12x12x5_S37x12x12x5x1_0_1_2_3 : (⟨S37x12x12x5, .i32⟩ : BufTy).Contents (Elt F) → (⟨S37x12x12x5x1, .i32⟩ : BufTy).Contents (Elt F)),
    StableHlo.binary main_v62 main_v63 main_v64 ((fun a b => concatenate S37x12x12x5x2 4 [⟨S37x12x12x5x1, a⟩, ⟨S37x12x12x5x1, b⟩] concatenates_S37x12x12x5x1_S37x12x12x5x1_S37x12x12x5x2_d4) : (⟨S37x12x12x5x1, .i32⟩ : BufTy).Contents (Elt F) → (⟨S37x12x12x5x1, .i32⟩ : BufTy).Contents (Elt F) → (⟨S37x12x12x5x2, .i32⟩ : BufTy).Contents (Elt F)),
    StableHlo.binary main_arg1 main_v64 main_v65 ((fun x i => Host.gather gather_S8x48x16x5_S37x12x12x5x2_S8x37x12x12x5x5_05_12_n_n_12_4_8115 x i) : (⟨S8x48x16x5, .f32⟩ : BufTy).Contents (Elt F) → (⟨S37x12x12x5x2, .i32⟩ : BufTy).Contents (Elt F) → (⟨S8x37x12x12x5x5, .f32⟩ : BufTy).Contents (Elt F)),
    StableHlo.unary main_v65 main_v66 ((transpose S8x5x37x12x12x5 [0, 5, 1, 2, 3, 4] · transposes_S8x37x12x12x5x5_S8x5x37x12x12x5_0_5_1_2_3_4) : (⟨S8x37x12x12x5x5, .f32⟩ : BufTy).Contents (Elt F) → (⟨S8x5x37x12x12x5, .f32⟩ : BufTy).Contents (Elt F)),
    StableHlo.reshape main_v66 main_v67 rfl shapeCasts_S8x5x37x12x12x5_S8x2220x60 ]

/-- The normalisation of the first patch array: %68 … %76, the call of @_std standing as the operations of @_var, @_where and the square root. -/
abbrev opsN0 : List (HloOp τ sig (Elt F)) :=
  [ StableHlo.nullary main_cst (constant S_ .f32 0x00000000#32),
    StableHlo.binary main_v33 main_cst main_v68 ((fun x v => Host.reduceAdd x v reducesTo_S8x2220x60_S8x2220_d2 h_S_) : (⟨S8x2220x60, .f32⟩ : BufTy).Contents (Elt F) → (⟨S_, .f32⟩ : BufTy).Contents (Elt F) → (⟨S8x2220, .f32⟩ : BufTy).Contents (Elt F)),
    StableHlo.unary main_v68 main_v69 (broadcastInDim S8x2220x1 ![0, 1] bcast_S8x2220_S8x2220x1_0_1 : (⟨S8x2220, .f32⟩ : BufTy).Contents (Elt F) → (⟨S8x2220x1, .f32⟩ : BufTy).Contents (Elt F)),
    StableHlo.nullary main_cst_7 (constant S_ .f32 0x42700000#32),
    StableHlo.unary main_cst_7 main_v70 (broadcastInDim S8x2220x1 ![] bcast_S_S8x2220x1 : (⟨S_, .f32⟩ : BufTy).Contents (Elt F) → (⟨S8x2220x1, .f32⟩ : BufTy).Contents (Elt F)),
    StableHlo.binary main_v69 main_v70 main_v71 (Host.divf : (⟨S8x2220x1, .f32⟩ : BufTy).Contents (Elt F) → (⟨S8x2220x1, .f32⟩ : BufTy).Contents (Elt F) → (⟨S8x2220x1, .f32⟩ : BufTy).Contents (Elt F)),
    StableHlo.nullary main_c_8 (constantI S_ 32 0#32),
    StableHlo.TRef.nullary main_call0.call0.cst (constant S_ .f32 0x00000000#32),
    StableHlo.TRef.binary (.of main_v33 : TRef sig ⟨S8x2220x60, .f32⟩) main_call0.call0.cst main_call0.call0.v0 (fun x v => Host.reduceAdd x v reducesTo_S8x2220x60_S8x2220_d2 h_S_),
    StableHlo.TRef.unary main_call0.call0.v0 main_call0.call0.v1 (broadcastInDim S8x2220x1 ![0, 1] bcast_S8x2220_S8x2220x1_0_1),
    StableHlo.TRef.nullary main_call0.call0.cst_0 (constant S_ .f32 0x42700000#32),
    StableHlo.TRef.unary main_call0.call0.cst_0 main_call0.call0.v2 (broadcastInDim S8x2220x1 ![] bcast_S_S8x2220x1),
    StableHlo.TRef.binary main_call0.call0.v1 main_call0.call0.v2 main_call0.call0.v3 Host.divf,
    StableHlo.TRef.unary main_call0.call0.v3 main_call0.call0.v4 (broadcastInDim S8x2220x60 ![0, 1, 2] bcast_S8x2220x1_S8x2220x60_0_1_2),
    StableHlo.TRef.binary (.of main_v33 : TRef sig ⟨S8x2220x60, .f32⟩) main_call0.call0.v4 main_call0.call0.v5 subf,
    StableHlo.TRef.binary main_call0.call0.v5 main_call0.call0.v5 main_call0.call0.v6 mulf,
    StableHlo.TRef.unary (.of main_c_8 : TRef sig ⟨S_, .i32⟩) main_call0.call0.v7 (sitofp .f32),
    StableHlo.TRef.nullary main_call0.call0.cst_1 (constant S_ .f32 0x42700000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S8x2220x60_S8x2220_d2 h_S_),
    StableHlo.TRef.unary main_call0.call0.v9 main_call0.call0.v10 (broadcastInDim S8x2220x1 ![0, 1] bcast_S8x2220_S8x2220x1_0_1),
    StableHlo.TRef.unary main_call0.call0.v8 main_call0.call0.v11 (broadcastInDim S8x2220x1 ![] bcast_S_S8x2220x1),
    StableHlo.TRef.binary main_call0.call0.v10 main_call0.call0.v11 main_call0.call0.v12 Host.divf,
    StableHlo.TRef.nullary main_call0.call0.cst_3 (constant S_ .f32 0x00000000#32),
    StableHlo.TRef.binary main_call0.call0.v8 main_call0.call0.cst_3 main_call0.call0.v13 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S8x2220x1 ![] bcast_S_S8x2220x1),
    StableHlo.TRef.ternary main_call0.call0.v13 main_call0.call0.v12 main_call0.call0.call0.v1 main_call0.call0.call0.v2 (fun p a b => select (broadcastInDim S8x2220x1 ![] bcast_S_S8x2220x1 p) a b),
    StableHlo.TRef.unary main_call0.call0.call0.v2 main_call0.v1 Host.sqrt,
    StableHlo.unary main_v71 main_v73 (broadcastInDim S8x2220x60 ![0, 1, 2] bcast_S8x2220x1_S8x2220x60_0_1_2 : (⟨S8x2220x1, .f32⟩ : BufTy).Contents (Elt F) → (⟨S8x2220x60, .f32⟩ : BufTy).Contents (Elt F)),
    StableHlo.binary main_v33 main_v73 main_v74 (subf : (⟨S8x2220x60, .f32⟩ : BufTy).Contents (Elt F) → (⟨S8x2220x60, .f32⟩ : BufTy).Contents (Elt F) → (⟨S8x2220x60, .f32⟩ : BufTy).Contents (Elt F)),
    StableHlo.unary main_v72 main_v75 (broadcastInDim S8x2220x60 ![0, 1, 2] bcast_S8x2220x1_S8x2220x60_0_1_2 : (⟨S8x2220x1, .f32⟩ : BufTy).Contents (Elt F) → (⟨S8x2220x60, .f32⟩ : BufTy).Contents (Elt F)),
    StableHlo.binary main_v74 main_v75 main_v76 (Host.divf : (⟨S8x2220x60, .f32⟩ : BufTy).Contents (Elt F) → (⟨S8x2220x60, .f32⟩ : BufTy).Contents (Elt F) → (⟨S8x2220x60, .f32⟩ : BufTy).Contents (Elt F)) ]

/-- The normalisation of the second patch array: %77 … %85, likewise. -/
abbrev opsN1 : List (HloOp τ sig (Elt F)) :=
  [ StableHlo.nullary main_cst_9 (constant S_ .f32 0x00000000#32),
    StableHlo.binary main_v67 main_cst_9 main_v77 ((fun x v => Host.reduceAdd x v reducesTo_S8x2220x60_S8x2220_d2 h_S_) : (⟨S8x2220x60, .f32⟩ : BufTy).Contents (Elt F) → (⟨S_, .f32⟩ : BufTy).Contents (Elt F) → (⟨S8x2220, .f32⟩ : BufTy).Contents (Elt F)),
    StableHlo.unary main_v77 main_v78 (broadcastInDim S8x2220x1 ![0, 1] bcast_S8x2220_S8x2220x1_0_1 : (⟨S8x2220, .f32⟩ : BufTy).Contents (Elt F) → (⟨S8x2220x1, .f32⟩ : BufTy).Contents (Elt F)),
    StableHlo.nullary main_cst_10 (constant S_ .f32 0x42700000#32),
    StableHlo.unary main_cst_10 main_v79 (broadcastInDim S8x2220x1 ![] bcast_S_S8x2220x1 : (⟨S_, .f32⟩ : BufTy).Contents (Elt F) → (⟨S8x2220x1, .f32⟩ : BufTy).Contents (Elt F)),
    StableHlo.binary main_v78 main_v79 main_v80 (Host.divf : (⟨S8x2220x1, .f32⟩ : BufTy).Contents (Elt F) → (⟨S8x2220x1, .f32⟩ : BufTy).Contents (Elt F) → (⟨S8x2220x1, .f32⟩ : BufTy).Contents (Elt F)),
    StableHlo.nullary main_c_11 (constantI S_ 32 0#32),
    StableHlo.TRef.nullary main_call1.call0.cst (constant S_ .f32 0x00000000#32),
    StableHlo.TRef.binary (.of main_v67 : TRef sig ⟨S8x2220x60, .f32⟩) main_call1.call0.cst main_call1.call0.v0 (fun x v => Host.reduceAdd x v reducesTo_S8x2220x60_S8x2220_d2 h_S_),
    StableHlo.TRef.unary main_call1.call0.v0 main_call1.call0.v1 (broadcastInDim S8x2220x1 ![0, 1] bcast_S8x2220_S8x2220x1_0_1),
    StableHlo.TRef.nullary main_call1.call0.cst_0 (constant S_ .f32 0x42700000#32),
    StableHlo.TRef.unary main_call1.call0.cst_0 main_call1.call0.v2 (broadcastInDim S8x2220x1 ![] bcast_S_S8x2220x1),
    StableHlo.TRef.binary main_call1.call0.v1 main_call1.call0.v2 main_call1.call0.v3 Host.divf,
    StableHlo.TRef.unary main_call1.call0.v3 main_call1.call0.v4 (broadcastInDim S8x2220x60 ![0, 1, 2] bcast_S8x2220x1_S8x2220x60_0_1_2),
    StableHlo.TRef.binary (.of main_v67 : TRef sig ⟨S8x2220x60, .f32⟩) main_call1.call0.v4 main_call1.call0.v5 subf,
    StableHlo.TRef.binary main_call1.call0.v5 main_call1.call0.v5 main_call1.call0.v6 mulf,
    StableHlo.TRef.unary (.of main_c_11 : TRef sig ⟨S_, .i32⟩) main_call1.call0.v7 (sitofp .f32),
    StableHlo.TRef.nullary main_call1.call0.cst_1 (constant S_ .f32 0x42700000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S8x2220x60_S8x2220_d2 h_S_),
    StableHlo.TRef.unary main_call1.call0.v9 main_call1.call0.v10 (broadcastInDim S8x2220x1 ![0, 1] bcast_S8x2220_S8x2220x1_0_1),
    StableHlo.TRef.unary main_call1.call0.v8 main_call1.call0.v11 (broadcastInDim S8x2220x1 ![] bcast_S_S8x2220x1),
    StableHlo.TRef.binary main_call1.call0.v10 main_call1.call0.v11 main_call1.call0.v12 Host.divf,
    StableHlo.TRef.nullary main_call1.call0.cst_3 (constant S_ .f32 0x00000000#32),
    StableHlo.TRef.binary main_call1.call0.v8 main_call1.call0.cst_3 main_call1.call0.v13 (cmpf .ogt),
    StableHlo.TRef.nullary main_call1.call0.cst_4 (constant S_ .f32 0x7FC00000#32),
    StableHlo.TRef.unary main_call1.call0.cst_4 main_call1.call0.call0.v0 id,
    StableHlo.TRef.unary main_call1.call0.call0.v0 main_call1.call0.call0.v1 (broadcastInDim S8x2220x1 ![] bcast_S_S8x2220x1),
    StableHlo.TRef.ternary main_call1.call0.v13 main_call1.call0.v12 main_call1.call0.call0.v1 main_call1.call0.call0.v2 (fun p a b => select (broadcastInDim S8x2220x1 ![] bcast_S_S8x2220x1 p) a b),
    StableHlo.TRef.unary main_call1.call0.call0.v2 main_call1.v1 Host.sqrt,
    StableHlo.unary main_v80 main_v82 (broadcastInDim S8x2220x60 ![0, 1, 2] bcast_S8x2220x1_S8x2220x60_0_1_2 : (⟨S8x2220x1, .f32⟩ : BufTy).Contents (Elt F) → (⟨S8x2220x60, .f32⟩ : BufTy).Contents (Elt F)),
    StableHlo.binary main_v67 main_v82 main_v83 (subf : (⟨S8x2220x60, .f32⟩ : BufTy).Contents (Elt F) → (⟨S8x2220x60, .f32⟩ : BufTy).Contents (Elt F) → (⟨S8x2220x60, .f32⟩ : BufTy).Contents (Elt F)),
    StableHlo.unary main_v81 main_v84 (broadcastInDim S8x2220x60 ![0, 1, 2] bcast_S8x2220x1_S8x2220x60_0_1_2 : (⟨S8x2220x1, .f32⟩ : BufTy).Contents (Elt F) → (⟨S8x2220x60, .f32⟩ : BufTy).Contents (Elt F)),
    StableHlo.binary main_v83 main_v84 main_v85 (Host.divf : (⟨S8x2220x60, .f32⟩ : BufTy).Contents (Elt F) → (⟨S8x2220x60, .f32⟩ : BufTy).Contents (Elt F) → (⟨S8x2220x60, .f32⟩ : BufTy).Contents (Elt F)) ]

/-- The batched product of the two normalised arrays and the final reshape: %86, %87. -/
abbrev opsD : List (HloOp τ sig (Elt F)) :=
  [ StableHlo.binary main_v85 main_v76 main_v86 ((fun l r => Host.dotGeneral dot_S8x2220x60_S8x2220x60_S8x2220x2220_2_2_1_1_0_0 none l r) : (⟨S8x2220x60, .f32⟩ : BufTy).Contents (Elt F) → (⟨S8x2220x60, .f32⟩ : BufTy).Contents (Elt F) → (⟨S8x2220x2220, .f32⟩ : BufTy).Contents (Elt F)),
    StableHlo.reshape main_v86 main_v87 rfl shapeCasts_S8x2220x2220_S296x37x12x300 ]

/-- @main's 148 operations, in order (a called function's operations stand in its call's place). -/
abbrev ops : List (HloOp τ sig (Elt F)) := opsP0 ++ (opsP1 ++ (opsN0 ++ (opsN1 ++ opsD)))

/-! ## What each piece leaves

Each piece's result buffer holds the piece's function of what its operand buffer held before; every buffer the
piece does not write keeps its contents. All by computation over the literal list: each operation's result at its
own buffer is its function's value, at any other buffer what was there. -/

section Pieces

variable (V : Valuation τ sig (Elt F))

theorem P0_v33 : after opsP0 V (main_v33 : DevRef τ sig) = patches (V (main_arg0 : DevRef τ sig)) := by
  after_results_simp <;> rfl
theorem P0_arg0 : after opsP0 V (main_arg0 : DevRef τ sig) = V (main_arg0 : DevRef τ sig) := by after_results_simp
theorem P0_arg1 : after opsP0 V (main_arg1 : DevRef τ sig) = V (main_arg1 : DevRef τ sig) := by after_results_simp

theorem P1_v67 : after opsP1 V (main_v67 : DevRef τ sig) = patches (V (main_arg1 : DevRef τ sig)) := by
  after_results_simp <;> rfl
theorem P1_v33 : after opsP1 V (main_v33 : DevRef τ sig) = V (main_v33 : DevRef τ sig) := by after_results_simp
theorem P1_arg0 : after opsP1 V (main_arg0 : DevRef τ sig) = V (main_arg0 : DevRef τ sig) := by after_results_simp
theorem P1_arg1 : after opsP1 V (main_arg1 : DevRef τ sig) = V (main_arg1 : DevRef τ sig) := by after_results_simp

theorem N0_v76 : after opsN0 V (main_v76 : DevRef τ sig) = normalize (V (main_v33 : DevRef τ sig)) := by
  after_results_simp <;> rfl
theorem N0_v67 : after opsN0 V (main_v67 : DevRef τ sig) = V (main_v67 : DevRef τ sig) := by after_results_simp
theorem N0_arg0 : after opsN0 V (main_arg0 : DevRef τ sig) = V (main_arg0 : DevRef τ sig) := by after_results_simp
theorem N0_arg1 : after opsN0 V (main_arg1 : DevRef τ sig) = V (main_arg1 : DevRef τ sig) := by after_results_simp

theorem N1_v85 : after opsN1 V (main_v85 : DevRef τ sig) = normalize (V (main_v67 : DevRef τ sig)) := by
  after_results_simp <;> rfl
theorem N1_v76 : after opsN1 V (main_v76 : DevRef τ sig) = V (main_v76 : DevRef τ sig) := by after_results_simp
theorem N1_arg0 : after opsN1 V (main_arg0 : DevRef τ sig) = V (main_arg0 : DevRef τ sig) := by after_results_simp
theorem N1_arg1 : after opsN1 V (main_arg1 : DevRef τ sig) = V (main_arg1 : DevRef τ sig) := by after_results_simp

theorem D_v87 : after opsD V (main_v87 : DevRef τ sig)
    = shapeCast S296x37x12x300 (gram (V (main_v85 : DevRef τ sig)) (V (main_v76 : DevRef τ sig))) shapeCasts_S8x2220x2220_S296x37x12x300 := by
  after_results_simp <;> rfl
theorem D_arg0 : after opsD V (main_arg0 : DevRef τ sig) = V (main_arg0 : DevRef τ sig) := by after_results_simp
theorem D_arg1 : after opsD V (main_arg1 : DevRef τ sig) = V (main_arg1 : DevRef τ sig) := by after_results_simp

end Pieces

/-! ## The whole line -/

/-- The result buffer after the whole line: the pieces composed, the left operand of the product from the second argument. -/
theorem after_v87 (V : Valuation τ sig (Elt F)) :
    after ops V (main_v87 : DevRef τ sig) = result (V (main_arg0 : DevRef τ sig)) (V (main_arg1 : DevRef τ sig)) := by
  simp only [ops, after_append]
  rw [D_v87, N1_v85, N1_v76, N0_v76, N0_v67, P1_v67, P1_v33, P0_v33, P0_arg1]
  rfl

theorem after_arg0 (V : Valuation τ sig (Elt F)) : after ops V (main_arg0 : DevRef τ sig) = V (main_arg0 : DevRef τ sig) := by
  simp only [ops, after_append]
  rw [D_arg0, N1_arg0, N0_arg0, P1_arg0, P0_arg0]

theorem after_arg1 (V : Valuation τ sig (Elt F)) : after ops V (main_arg1 : DevRef τ sig) = V (main_arg1 : DevRef τ sig) := by
  simp only [ops, after_append]
  rw [D_arg1, N1_arg1, N0_arg1, P1_arg1, P0_arg1]

/-! ## The program is the line -/

set_option maxRecDepth 8192 in
set_option maxHeartbeats 4000000 in
/-- @main is that straight line: its two windows, the functions' definitions unfolded at their calls and the records at
    their fields; both sides are one chain of `hlo` steps once sequencing is reassociated. -/
theorem main_eq (c : Dev nD) : main (F := F) c = seq ops := by
  simp only [main, main_part0, main_part1, fn_std.body, fn_var.body, fn_where.body, ops, opsP0, opsP1, opsN0, opsN1, opsD,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsP0_sub : (opsP0 : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., nullary_bufs_sub .., unary_bufs_sub .., nullary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., binary_bufs_sub .., unary_bufs_sub .., reshape_bufs_sub ..⟩
set_option maxRecDepth 8192 in
theorem opsP1_sub : (opsP1 : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., nullary_bufs_sub .., unary_bufs_sub .., nullary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., binary_bufs_sub .., unary_bufs_sub .., reshape_bufs_sub ..⟩
set_option maxRecDepth 8192 in
theorem opsN0_sub : (opsN0 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., binary_bufs_sub ..⟩
set_option maxRecDepth 8192 in
theorem opsN1_sub : (opsN1 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., binary_bufs_sub ..⟩
set_option maxRecDepth 8192 in
theorem opsD_sub : (opsD : List (HloOp τ sig (Elt F))).Forall fun op => op.bufs ⊆ tcRefs τ sig :=
  ⟨binary_bufs_sub .., reshape_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp opsP0_sub op h, List.forall_iff_forall_mem.mp opsP1_sub op h,
      List.forall_iff_forall_mem.mp opsN0_sub op h, List.forall_iff_forall_mem.mp opsN1_sub op h,
      List.forall_iff_forall_mem.mp opsD_sub op h]

/-! ## The run -/

set_option maxRecDepth 8192 in
/-- On every device, for any float values, from any memory with zero counters: every weakly fair execution of @main
    terminates with the result buffer at `result` of the two arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v87)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v87).trans (after_v87 _), (h c main_arg0).trans (after_arg0 _),
      (h c main_arg1).trans (after_arg1 _)⟩)
    (run_seq scopedRefs_eq scopedSems_eq defs main (fun _ => ops) main_eq (fun _ => ops_sub) m ρ)

end Cert.ReferenceIdeal.RefRun

end
-- ==== Proof.RefRead.lean ====
/-
  The reference's row normalisation and its batched product, read at an entry, over the extended reals.

  A row of a patch array is sixty entries. Its normalised entry k is (x k - mu) / sqrt(var), with mu = (0 + Σ x)/60 and
  var = (0 + Σ (x - mu)²)/60: the host sum along the last axis is the initial word plus the sum over that axis'
  coordinates; a value kept on a unit axis, or spread along an axis, reads the operand at the same row; the normaliser
  60 - 0 is 60, and the test 60 - 0 > 0 keeps the quotient. The product at (b, n, m) pairs row n of the left operand
  with row m of the right one, within batch b, over the one contracted axis. The final reshape is left as it stands.
-/
import proofs.«116544_j88252987998983_2_alg».proof.Proof.RefRun
import proofs.«116544_j88252987998983_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefRead

open Cert.ReferenceIdeal Cert.ReferenceIdeal.Gen Cert.ReferenceIdeal.RefRun Idealize.ShloMosaic Idealize.ShloMosaic.ValueIdx

/-! ## Single operations at an entry -/

section Ops

variable {s : Shape} {φ : FTy} {α : Type}

/-- The host quotient at an entry is the quotient of the entries. -/
theorem hostDivf_apply (a b : FVec Ideal s φ) (i : s.Idx) : Host.divf a b i = Ideal.div (a i) (b i) := rfl

/-- The host square root at an entry is the square root of the entry. -/
theorem hostSqrt_apply (a : FVec Ideal s φ) (i : s.Idx) : Host.sqrt a i = Ideal.sqrt (a i) := rfl

/-- A scalar laid over a shape reads the scalar everywhere. -/
theorem splat_apply {t : Shape} (h : S_.BroadcastsInDim t ![]) (x : S_.Idx → α) (j : t.Idx) :
    broadcastInDim t ![] h x j = x ix0 :=
  broadcastInDim_apply _ h x j ix0 fun a => a.elim0

/-- A per-row value given a unit last axis reads, at (b, n, 0), the value of row (b, n). -/
theorem keep_apply (x : S8x2220.Idx → α) (b : Fin 8) (n : Fin 2220) (z : Fin 1) :
    broadcastInDim S8x2220x1 ![0, 1] bcast_S8x2220_S8x2220x1_0_1 x (ix3 b n z) = x (ix2 b n) :=
  broadcastInDim_apply _ _ x _ _ fun a => by
    match a with
    | ⟨0, _⟩ => rfl
    | ⟨1, _⟩ => rfl

/-- A per-row value spread along the last axis reads, at (b, n, k), the value of row (b, n). -/
theorem spread_apply (x : S8x2220x1.Idx → α) (b : Fin 8) (n : Fin 2220) (k : Fin 60) :
    broadcastInDim S8x2220x60 ![0, 1, 2] bcast_S8x2220x1_S8x2220x60_0_1_2 x (ix3 b n k) = x (ix3 b n (0 : Fin 1)) :=
  broadcastInDim_apply _ _ x _ _ fun a => by
    match a with
    | ⟨0, _⟩ => rfl
    | ⟨1, _⟩ => rfl
    | ⟨2, _⟩ => rfl

end Ops

/-- The last axis of [8, 2220, 60] summed away leaves [8, 2220]. -/
theorem reduces_last : S8x2220x60.Reduces [2] S8x2220 := by decide

/-- The host sum along the last axis from the zero word: at row (b, n), the word plus the sum of the row's sixty entries. -/
theorem rowSum_apply (x : FVec Ideal S8x2220x60 .f32) (b : Fin 8) (n : Fin 2220) :
    Host.reduceAdd x (constant S_ .f32 0x00000000#32) reducesTo_S8x2220x60_S8x2220_d2 h_S_ (ix2 b n)
      = Spec.w0 + ∑ k : Fin 60, x (ix3 b n k) := by
  refine (Ideal.hostReduceAdd_single reducesTo_S8x2220x60_S8x2220_d2 reduces_last x _ (ix2 b n)).trans ?_
  refine congrArg (Spec.w0 + ·) (Finset.sum_congr rfl fun k _ => congrArg x ?_)
  funext a
  apply Fin.ext
  match a with
  | ⟨0, _⟩ => rfl
  | ⟨1, _⟩ => rfl
  | ⟨2, _⟩ => rfl

/-! ## The normalisation at an entry -/

/-- The row mean: (0 + Σ row) / 60. -/
theorem rowMean_apply (p : FVec Ideal S8x2220x60 .f32) (b : Fin 8) (n : Fin 2220) (z : Fin 1) :
    rowMean p (ix3 b n z) = Spec.mu fun k => p (ix3 b n k) := by
  unfold rowMean
  rw [hostDivf_apply, keep_apply, rowSum_apply, splat_apply, constant_apply]
  rfl

/-- An entry less its row's mean. -/
theorem centered_apply (p : FVec Ideal S8x2220x60 .f32) (b : Fin 8) (n : Fin 2220) (k : Fin 60) :
    centered p (ix3 b n k) = p (ix3 b n k) - Spec.mu fun k' => p (ix3 b n k') := by
  unfold centered
  rw [subf_apply, spread_apply, rowMean_apply]

/-- The normaliser 60 - 0 is 60. -/
theorem varCount_apply (i : S_.Idx) : varCount (F := Ideal) i = ((60 : ℝ) : EReal) :=
  GuardLaw.sixty_minus_zero_ops

/-- The row variance: the test 60 - 0 > 0 holds, so the select keeps (0 + Σ (row - mean)²) / (60 - 0), which is the
    sum divided by 60. -/
theorem rowVar_apply (p : FVec Ideal S8x2220x60 .f32) (b : Fin 8) (n : Fin 2220) (z : Fin 1) :
    rowVar p (ix3 b n z) = Spec.var fun k => p (ix3 b n k) := by
  unfold rowVar
  rw [select_apply, splat_apply]
  refine (GuardLaw.where_sixty_ops _ _).trans ?_
  rw [hostDivf_apply, keep_apply, rowSum_apply, splat_apply, varCount_apply, ← GuardLaw.c60]
  simp only [mulf_apply, centered_apply]
  rfl

/-- The normalised entry: (x k - mu) / sqrt(var) of its row. -/
theorem normalize_apply (p : FVec Ideal S8x2220x60 .f32) (b : Fin 8) (n : Fin 2220) (k : Fin 60) :
    RefRun.normalize p (ix3 b n k) = Spec.rNorm (fun k' => p (ix3 b n k')) k := by
  unfold RefRun.normalize
  rw [hostDivf_apply, centered_apply, spread_apply, hostSqrt_apply, rowVar_apply]
  rfl

/-! ## The batched product at an entry -/

/-- One axis is contracted, of extent 60. -/
theorem gram_rank : dot_S8x2220x60_S8x2220x60_S8x2220x2220_2_2_1_1_0_0.contr.rank = 1 := rfl
theorem gram_size : dot_S8x2220x60_S8x2220x60_S8x2220x2220_2_2_1_1_0_0.contr.size ⟨0, by rw [gram_rank]; exact Nat.one_pos⟩ = 60 := rfl

/-- Entry (b, n, m) of the product: Σ_k l (b, n, k) · r (b, m, k). -/
theorem gram_apply (l r : FVec Ideal S8x2220x60 .f32) (b : Fin 8) (n m' : Fin 2220) :
    gram l r (ix3 b n m') = ∑ k : Fin 60, l (ix3 b n k) * r (ix3 b m' k) := by
  unfold gram
  simp only [Host.dotGeneral]
  rw [Ideal.dotGeneral_apply, ← Equiv.sum_comp (contrEquiv1 _ 60 gram_rank gram_size).symm]
  refine Finset.sum_congr rfl fun k _ => ?_
  have hk := contrEquiv1_symm_val dot_S8x2220x60_S8x2220x60_S8x2220x2220_2_2_1_1_0_0 60 gram_rank gram_size k
  have el : dot_S8x2220x60_S8x2220x60_S8x2220x2220_2_2_1_1_0_0.lhsIdx (ix3 b n m')
      ((contrEquiv1 _ 60 gram_rank gram_size).symm k) = ix3 b n k := funext fun a => Fin.ext (by
    match a with
    | ⟨0, _⟩ => rfl
    | ⟨1, _⟩ => rfl
    | ⟨2, _⟩ => exact (DotDims.lhsIdx_val_of_single _ rfl _ _).trans hk)
  have er : dot_S8x2220x60_S8x2220x60_S8x2220x2220_2_2_1_1_0_0.rhsIdx (ix3 b n m')
      ((contrEquiv1 _ 60 gram_rank gram_size).symm k) = ix3 b m' k := funext fun a => Fin.ext (by
    match a with
    | ⟨0, _⟩ => rfl
    | ⟨1, _⟩ => rfl
    | ⟨2, _⟩ => exact (DotDims.rhsIdx_val_of_single _ rfl _ _).trans hk)
  rw [el, er]

/-- The result is the final reshape of the product of the normalised patch arrays, the left one from the second argument. -/
theorem result_eq (a0 a1 : FVec Ideal S8x48x16x5 .f32) :
    result a0 a1 = shapeCast S296x37x12x300 (gram (RefRun.normalize (patches a1)) (RefRun.normalize (patches a0)))
      shapeCasts_S8x2220x2220_S296x37x12x300 := rfl

end Cert.ReferenceIdeal.RefRead

end
-- ==== Proof.LibAllFinite.lean ====
/-
  Reading a precondition's words. A precondition printed from `jnp.all(jnp.abs(x) < inf) & … & jnp.all(s > 0)` is a
  conjunction of `and`-reductions of comparison words, read at its one index. A comparison word that is `1` is the
  comparison of the two extended reals; `|x| < +∞` makes `x` a real number; hence an all-reduction of `|a| < +∞`
  that is `1` makes every entry of `a` real, and a word `a > b` at an index is `b j < a j`.
-/
import proofs.«116544_j88252987998983_2_alg».proof.Proof.LibRealEntries
import Idealize.ShloMosaic.Lib.ReduceAll
import Idealize.ShloMosaic.Lib.ValueIdx
import Idealize.ShloMosaic.PureOps.Ideal.Laws

noncomputable section

namespace Cert.LibAllFinite

open Idealize.ShloMosaic Idealize.ShloMosaic.ValueIdx Cert.LibRealEntries

instance : Subsingleton (⟨0, ![]⟩ : Shape).Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- A true comparison word is the comparison. -/
theorem lt_of_cmp_olt {x y : EReal} (h : Ideal.cmp .olt x y = 1#1) : x < y := by
  by_contra hn
  have : decide (x < y) = false := decide_eq_false hn
  simp [Ideal.cmp, this] at h

theorem lt_of_cmp_ogt {x y : EReal} (h : Ideal.cmp .ogt x y = 1#1) : y < x := by
  by_contra hn
  have : decide (y < x) = false := decide_eq_false hn
  simp [Ideal.cmp, this] at h

/-- `|x| < +∞` makes `x` a real number. -/
theorem isReal_of_abs_lt_top (x : EReal) (h : max x (-x) < (⊤ : EReal)) : IsReal x := by
  induction x using EReal.rec with
  | bot => simp at h
  | coe r => exact ⟨r, rfl⟩
  | top => simp at h

/-- `jnp.all(|a| < +∞)` that is true makes every entry of `a` a real number. -/
theorem real_of_all {s : Shape} {axes : List (Fin s.rank)} (a : FVec Ideal s .f32)
    (hb : (⟨0, ![]⟩ : Shape).BroadcastsInDim s (![] : Fin 0 → Fin s.rank))
    (init : IVec ⟨0, ![]⟩ 1) (hred : s.ReducesTo axes ⟨0, ![]⟩) (hu : 0 < (⟨0, ![]⟩ : Shape).numel)
    (h : Host.reduce IntOp.andi
      (cmpf .olt (Host.absf a) (broadcastInDim s ![] hb (constant (F := Ideal) ⟨0, ![]⟩ .f32 0x7F800000#32)))
      init hred hu ix0 = 1#1) (i : s.Idx) : IsReal (a i) := by
  have hi := Host.reduce_andi_all _ init hred hu ix0 h i
  have h1 : Ideal.cmp .olt (max (a i) (-(a i))) (Ideal.ofBits .f32 0x7F800000#32) = 1#1 := hi
  rw [ofBits_inf] at h1
  exact isReal_of_abs_lt_top _ (lt_of_cmp_olt h1)

/-- A true comparison word between two arrays at an index is the inequality of their entries. -/
theorem lt_of_cmpf_ogt {s : Shape} (a b : FVec Ideal s .f32) (j : s.Idx) (h : cmpf .ogt a b j = 1#1) : b j < a j :=
  lt_of_cmp_ogt h

end Cert.LibAllFinite

end
-- ==== Proof.PreDecode.lean ====
/-
  What the precondition says, read back.

  The precondition is one bit: the conjunction of four tests on the two argument arrays.  Two tests say that every
  entry is finite (its absolute value is below +∞), so every entry is a real number.  The other two are taken on the
  arrays of patches cut from the arguments (one row of 60 entries per patch position): for every row the sum of
  the squared deviations from the row's mean is above zero.  Here the patch extraction is kept as one function
  `patches` of an argument array, the row statistics are read at a row `(b, n)` as finite sums over the 60 columns,
  and the bit being one is unfolded into the four statements.
-/
import proofs.«116544_j88252987998983_2_alg».proof.Pre_finite_inputs
import proofs.«116544_j88252987998983_2_alg».proof.Proof.LibAllFinite
import proofs.«116544_j88252987998983_2_alg».proof.Proof.LibRealEntries
import proofs.«116544_j88252987998983_2_alg».proof.Proof.Spec
import Idealize.ShloMosaic.Lib.ReduceAll
import Idealize.ShloMosaic.Lib.IdealHost
import Idealize.ShloMosaic.Lib.Pipeline.Value
import Idealize.ShloMosaic.PureOps.Ideal.Laws

noncomputable section

open scoped BigOperators

namespace Cert.PreDecode

open Idealize.ShloMosaic Idealize.ShloMosaic.ValueIdx Cert.Pre_finite_inputs Cert.Pre_finite_inputs.Facts
open Cert.LibRealEntries Cert.LibAllFinite

variable [Facts]

/-! ## The patch extraction and the row statistics, as functions of an array -/

/-- The row positions the patches start at: for patch row `r < 37` and offset `u < 12` the sum `r + u`, with the
    extent 48 added if the sum is negative. -/
def startsRow : IVec S37x1x12x1 32 :=
  let v9 : IVec S37 32 := iotaInDim S37 32 0
  let v10 : IVec S37x1 32 := broadcastInDim S37x1 ![0] bcast_S37_S37x1_0 v9
  let v11 : IVec S12 32 := iotaInDim S12 32 0
  let v12 : IVec S1x12 32 := broadcastInDim S1x12 ![1] bcast_S12_S1x12_1 v11
  let v13 : IVec S37x12 32 := broadcastInDim S37x12 ![0, 1] bcast_S37x1_S37x12_0_1 v10
  let v14 : IVec S37x12 32 := broadcastInDim S37x12 ![0, 1] bcast_S1x12_S37x12_0_1 v12
  let v15 : IVec S37x12 32 := addi v13 v14
  let v23 : IVec S37x1x12x1 32 := broadcastInDim S37x1x12x1 ![0, 2] bcast_S37x12_S37x1x12x1_0_2 v15
  let c2 : IVec S_ 32 := constantI S_ 32 0#32
  let v25 : IVec S37x1x12x1 32 := broadcastInDim S37x1x12x1 ![] bcast_S_S37x1x12x1 c2
  let v26 : IVec S37x1x12x1 1 := cmpi .slt v23 v25
  let c3 : IVec S_ 32 := constantI S_ 32 48#32
  let v27 : IVec S37x1x12x1 32 := broadcastInDim S37x1x12x1 ![] bcast_S_S37x1x12x1 c3
  let v28 : IVec S37x1x12x1 32 := addi v23 v27
  select v26 v28 v23

/-- The column positions: for patch column `c < 12` and offset `w < 5` the sum `c + w`, with the extent 16 added
    if the sum is negative. -/
def startsCol : IVec S1x12x1x5 32 :=
  let v16 : IVec S12 32 := iotaInDim S12 32 0
  let v17 : IVec S12x1 32 := broadcastInDim S12x1 ![0] bcast_S12_S12x1_0 v16
  let v18 : IVec S5 32 := iotaInDim S5 32 0
  let v19 : IVec S1x5 32 := broadcastInDim S1x5 ![1] bcast_S5_S1x5_1 v18
  let v20 : IVec S12x5 32 := broadcastInDim S12x5 ![0, 1] bcast_S12x1_S12x5_0_1 v17
  let v21 : IVec S12x5 32 := broadcastInDim S12x5 ![0, 1] bcast_S1x5_S12x5_0_1 v19
  let v22 : IVec S12x5 32 := addi v20 v21
  let v24 : IVec S1x12x1x5 32 := broadcastInDim S1x12x1x5 ![1, 3] bcast_S12x5_S1x12x1x5_1_3 v22
  let c4 : IVec S_ 32 := constantI S_ 32 0#32
  let v30 : IVec S1x12x1x5 32 := broadcastInDim S1x12x1x5 ![] bcast_S_S1x12x1x5 c4
  let v31 : IVec S1x12x1x5 1 := cmpi .slt v24 v30
  let c5 : IVec S_ 32 := constantI S_ 32 16#32
  let v32 : IVec S1x12x1x5 32 := broadcastInDim S1x12x1x5 ![] bcast_S_S1x12x1x5 c5
  let v33 : IVec S1x12x1x5 32 := addi v24 v32
  select v31 v33 v24

/-- The start positions of the patch extraction: the pair (row position, column position) at every
    (patch row, offset, patch column, offset). -/
def starts : IVec S37x12x12x5x2 32 :=
  (fun a b => concatenate S37x12x12x5x2 4 [⟨S37x12x12x5x1, a⟩, ⟨S37x12x12x5x1, b⟩]
      concatenates_S37x12x12x5x1_S37x12x12x5x1_S37x12x12x5x2_d4)
    (broadcastInDim S37x12x12x5x1 ![0, 1, 2, 3] bcast_S37x12x12x5_S37x12x12x5x1_0_1_2_3
      (broadcastInDim S37x12x12x5 ![0, 1, 2, 3] bcast_S37x1x12x1_S37x12x12x5_0_1_2_3 startsRow))
    (broadcastInDim S37x12x12x5x1 ![0, 1, 2, 3] bcast_S37x12x12x5_S37x12x12x5x1_0_1_2_3
      (broadcastInDim S37x12x12x5 ![0, 1, 2, 3] bcast_S1x12x1x5_S37x12x12x5_0_1_2_3 startsCol))

/-- The patches of an argument array: the gather at `starts`, its axes permuted, read as 2220 rows of 60 entries
    per batch. -/
def patches {F : FTy → Type} (x : FVec F S8x48x16x5 .f32) : FVec F S8x2220x60 .f32 :=
  shapeCast S8x2220x60
    (transpose S8x5x37x12x12x5 [0, 5, 1, 2, 3, 4]
      (Host.gather gather_S8x48x16x5_S37x12x12x5x2_S8x37x12x12x5x5_05_12_n_n_12_4_8115 x starts)
      transposes_S8x37x12x12x5x5_S8x5x37x12x12x5_0_5_1_2_3_4)
    shapeCasts_S8x5x37x12x12x5_S8x2220x60

section Stats
variable {F : FTy → Type} [FloatOps F]

/-- The sum along each row, started from the zero word. -/
def rowSum (p : FVec F S8x2220x60 .f32) : FVec F S8x2220 .f32 :=
  Host.reduceAdd (F := F) p (constant (F := F) S_ .f32 0x00000000#32) reducesTo_S8x2220x60_S8x2220_d2 h_S_

/-- The mean of each row, as a one-column array: the row sum divided by the 60.0 word. -/
def rowMean (p : FVec F S8x2220x60 .f32) : FVec F S8x2220x1 .f32 :=
  Host.divf (F := F) (broadcastInDim S8x2220x1 ![0, 1] bcast_S8x2220_S8x2220x1_0_1 (rowSum p))
    (broadcastInDim S8x2220x1 ![] bcast_S_S8x2220x1 (constant (F := F) S_ .f32 0x42700000#32))

/-- Each entry less its row's mean. -/
def centred (p : FVec F S8x2220x60 .f32) : FVec F S8x2220x60 .f32 :=
  subf p (broadcastInDim S8x2220x60 ![0, 1, 2] bcast_S8x2220x1_S8x2220x60_0_1_2 (rowMean p))

/-- The sum along each row of the squared deviations. -/
def sumSquares (p : FVec F S8x2220x60 .f32) : FVec F S8x2220 .f32 :=
  rowSum (mulf (centred p) (centred p))

/-- The test "every row's sum of squared deviations is above zero". -/
def allPositive (p : FVec F S8x2220x60 .f32) : IVec S_ 1 :=
  Host.reduce IntOp.andi
    (cmpf .ogt (sumSquares p) (broadcastInDim S8x2220 ![] bcast_S_S8x2220 (constant (F := F) S_ .f32 0x00000000#32)))
    (constantI S_ 1 1#1) reducesTo_S8x2220_S_d0_1 h_S_

/-- The test "every entry's absolute value is below +∞". -/
def allFinite (x : FVec F S8x48x16x5 .f32) : IVec S_ 1 :=
  Host.reduce IntOp.andi
    (cmpf .olt (Host.absf x) (broadcastInDim S8x48x16x5 ![] bcast_S_S8x48x16x5 (constant (F := F) S_ .f32 0x7F800000#32)))
    (constantI S_ 1 1#1) reducesTo_S8x48x16x5_S_d0_1_2_3 h_S_

/-- The precondition is the conjunction of the four tests: its operations, composed, are these. -/
theorem fn_eq (a0 a1 : FVec F S8x48x16x5 .f32) :
    Cert.Pre_finite_inputs.fn (F := F) a0 a1
      = andi (andi (andi (allFinite a0) (allFinite a1)) (allPositive (patches a0))) (allPositive (patches a1)) := rfl

end Stats

/-! ## The row statistics read at a row -/

/-- The row sum at row `(b, n)`: the zero word plus the sum over the 60 columns. -/
theorem rowSum_apply (x : FVec Ideal S8x2220x60 .f32) (b : Fin 8) (n : Fin 2220) :
    rowSum x (ix2 b n) = Cert.Spec.w0 + ∑ k : Fin 60, x (ix3 b n k) := by
  have hR : S8x2220x60.Reduces [2] S8x2220 := by decide
  refine (Ideal.hostReduceAdd_single reducesTo_S8x2220x60_S8x2220_d2 hR x (Ideal.ofBits .f32 0x00000000#32) (ix2 b n)).trans ?_
  refine congrArg (Cert.Spec.w0 + ·) (Finset.sum_congr rfl fun k _ => congrArg x ?_)
  funext ax
  apply Fin.ext
  match ax with
  | ⟨0, _⟩ => rfl
  | ⟨1, _⟩ => rfl
  | ⟨2, _⟩ => rfl

/-- A per-row array viewed as one column reads, at `(b, n, u)`, the value of row `(b, n)`. -/
theorem column_apply {α : Type} (v : S8x2220.Idx → α) (b : Fin 8) (n : Fin 2220) (u : Fin 1) :
    broadcastInDim S8x2220x1 ![0, 1] bcast_S8x2220_S8x2220x1_0_1 v (ix3 b n u) = v (ix2 b n) := by
  refine broadcastInDim_apply _ _ v (ix3 b n u) (ix2 b n) fun a => ?_
  match a with
  | ⟨0, _⟩ => rfl
  | ⟨1, _⟩ => rfl

/-- A one-column array spread along the rows reads, at `(b, n, k)`, the one entry of row `(b, n)`. -/
theorem spread_apply {α : Type} (v : S8x2220x1.Idx → α) (b : Fin 8) (n : Fin 2220) (k : Fin 60) :
    broadcastInDim S8x2220x60 ![0, 1, 2] bcast_S8x2220x1_S8x2220x60_0_1_2 v (ix3 b n k) = v (ix3 b n (0 : Fin 1)) := by
  refine broadcastInDim_apply _ _ v (ix3 b n k) (ix3 b n (0 : Fin 1)) fun a => ?_
  match a with
  | ⟨0, _⟩ => rfl
  | ⟨1, _⟩ => rfl
  | ⟨2, _⟩ => rfl

/-- The row mean at `(b, n, u)` is the mean of row `(b, n)`. -/
theorem rowMean_apply (p : FVec Ideal S8x2220x60 .f32) (b : Fin 8) (n : Fin 2220) (u : Fin 1) :
    rowMean p (ix3 b n u) = Cert.Spec.mu fun k => p (ix3 b n k) := by
  unfold rowMean
  rw [hostDivf_apply, column_apply, broadcastInDim_scalar_apply, rowSum_apply]
  rfl

/-- An entry less its row's mean. -/
theorem centred_apply (p : FVec Ideal S8x2220x60 .f32) (b : Fin 8) (n : Fin 2220) (k : Fin 60) :
    centred p (ix3 b n k) = p (ix3 b n k) - Cert.Spec.mu fun j => p (ix3 b n j) := by
  unfold centred
  rw [subf_apply, spread_apply, rowMean_apply]

/-- The sum of squared deviations at row `(b, n)` is the centred sum of squares of that row. -/
theorem sumSquares_apply (p : FVec Ideal S8x2220x60 .f32) (b : Fin 8) (n : Fin 2220) :
    sumSquares p (ix2 b n) = Cert.Spec.ss fun k => p (ix3 b n k) := by
  unfold sumSquares
  rw [rowSum_apply]
  unfold Cert.Spec.ss
  refine congrArg (Cert.Spec.w0 + ·) (Finset.sum_congr rfl fun k _ => ?_)
  rw [mulf_apply, centred_apply]

/-! ## The four statements -/

/-- A true positivity test makes every row's centred sum of squares positive. -/
theorem pos_of_allPositive (p : FVec Ideal S8x2220x60 .f32) (h : allPositive p ix0 = 1#1) (b : Fin 8) (n : Fin 2220) :
    0 < Cert.Spec.ss fun k => p (ix3 b n k) := by
  have h1 := Host.reduce_andi_all _ _ _ _ ix0 h (ix2 b n)
  have h2 := lt_of_cmpf_ogt _ _ _ h1
  rw [broadcastInDim_scalar_apply, sumSquares_apply] at h2
  have h3 : constant (F := Ideal) S_ .f32 0x00000000#32 ix0 = 0 := Ideal.ofBits_zero_f32
  rw [h3] at h2
  exact h2

/-- The precondition, true, says: every entry of both arguments is a real number, and every patch of both has a
    positive centred sum of squares. -/
theorem decode (a0 a1 : FVec Ideal S8x48x16x5 .f32)
    (h : Cert.Pre_finite_inputs.fn (F := Ideal) a0 a1 = fun _ => 1#1) :
    (∀ i, IsReal (a0 i)) ∧ (∀ i, IsReal (a1 i))
      ∧ (∀ (b : Fin 8) (n : Fin 2220), 0 < Cert.Spec.ss fun k => patches a0 (ix3 b n k))
      ∧ (∀ (b : Fin 8) (n : Fin 2220), 0 < Cert.Spec.ss fun k => patches a1 (ix3 b n k)) := by
  have h0 : Cert.Pre_finite_inputs.fn (F := Ideal) a0 a1 ix0 = 1#1 := congrFun h ix0
  rw [fn_eq] at h0
  have h0' : IntOp.andi (IntOp.andi (IntOp.andi (allFinite a0 ix0) (allFinite a1 ix0)) (allPositive (patches a0) ix0))
      (allPositive (patches a1) ix0) = 1#1 := h0
  obtain ⟨h012, h3⟩ := IntOp.andi_eq_one.1 h0'
  obtain ⟨h01, h2⟩ := IntOp.andi_eq_one.1 h012
  obtain ⟨hf0, hf1⟩ := IntOp.andi_eq_one.1 h01
  exact ⟨real_of_all a0 _ _ _ _ hf0, real_of_all a1 _ _ _ _ hf1, pos_of_allPositive _ h2, pos_of_allPositive _ h3⟩

/-- Every entry of a patch array is an entry of the argument it was cut from, so real if those are. -/
theorem real_patches (x : FVec Ideal S8x48x16x5 .f32) (hx : ∀ i, IsReal (x i)) : ∀ i, IsReal (patches x i) := by
  intro i
  unfold patches shapeCast transpose
  exact real_gather _ x _ hx _

end Cert.PreDecode

end
-- ==== Proof.Bridge.lean ====
/-
  The two programs' results are one array, under the precondition.

  Both compute, for batch b, rows n and q: Σ_k N2(b, n, k) · N1(b, q, k), where N2 and N1 are the two patch arrays with each row
  normalised — by the kernel with its guarded scale, by the reference with the standard deviation. The precondition makes every
  entry of the patch arrays a real number and every row's centred sum of squares positive, and on such a row the two
  normalisations are one (the guard chooses the square root); so the two sums agree term by term.
-/
import proofs.«116544_j88252987998983_2_alg».proof.Proof.ValueIdeal
import proofs.«116544_j88252987998983_2_alg».proof.Proof.RefRead
import proofs.«116544_j88252987998983_2_alg».proof.Proof.PreDecode

noncomputable section

namespace Cert.Bridge

open Idealize.ShloMosaic Idealize.ShloMosaic.ValueIdx
open Cert.LibRealEntries

variable [Cert.Pre_finite_inputs.Facts]

/-- The kernel's product of guarded-normalised rows is the reference's product of rows divided by their standard
    deviation, for patch arrays of argument arrays that satisfy the precondition. -/
theorem G_eq_gram (a0 a1 : FVec Ideal Cert.Pre_finite_inputs.S8x48x16x5 .f32)
    (h : Cert.Pre_finite_inputs.fn (F := Ideal) a0 a1 = fun _ => 1#1) :
    Cert.KernelIdeal.Out.G (Cert.PreDecode.patches a1) (Cert.PreDecode.patches a0)
      = Cert.ReferenceIdeal.RefRun.gram (Cert.ReferenceIdeal.RefRun.normalize (Cert.PreDecode.patches a1))
          (Cert.ReferenceIdeal.RefRun.normalize (Cert.PreDecode.patches a0)) := by
  obtain ⟨r0, r1, p0, p1⟩ := Cert.PreDecode.decode a0 a1 h
  funext i
  obtain ⟨b, n, q, rfl⟩ : ∃ (b : Fin 8) (n : Fin 2220) (q : Fin 2220), i = ix3 b n q := ⟨i 0, i 1, i 2, eq_ix3 i⟩
  rw [Cert.KernelIdeal.Out.G_apply, Cert.ReferenceIdeal.RefRead.gram_apply]
  refine Finset.sum_congr rfl fun k _ => ?_
  rw [Cert.ReferenceIdeal.RefRead.normalize_apply, Cert.ReferenceIdeal.RefRead.normalize_apply,
    ← Cert.Spec.kNorm_eq_rNorm _ (fun j => Cert.PreDecode.real_patches a1 r1 _) (p1 b n) k,
    ← Cert.Spec.kNorm_eq_rNorm _ (fun j => Cert.PreDecode.real_patches a0 r0 _) (p0 b q) k]

end Cert.Bridge

end
-- ==== Proof.PatchesEq.lean ====
/-
  The three programs cut the same patches.

  The precondition, the reference and the kernel's host prelude each extract the patch rows of an argument array by
  the same operations: a table of start positions built from counters, sums, a wrap of negative positions and a
  pairing; a gather at that table; a permutation of axes; a reshape to 2220 rows of 60 entries per batch.  Each
  program carries its own copy of the shape facts and of the gather's dimension record, but the compositions are
  the same term, so the three patch functions are one.  For the kernel the statement is about the contents of its
  two patch buffers when the compute region is entered: each is that function of the argument as launched.
-/
import proofs.«116544_j88252987998983_2_alg».proof.Proof.Gen.KernelIdeal.Frame
import proofs.«116544_j88252987998983_2_alg».proof.Proof.PreDecode
import proofs.«116544_j88252987998983_2_alg».proof.Proof.RefRun

noncomputable section

namespace Cert.PatchesEq

open Idealize.ShloMosaic Idealize.ShloMosaic.TcCoe Idealize.SL.Sem Idealize.ShloMosaic.StableHlo

/-- The reference's table of start positions is the precondition's. -/
theorem patchIndex_eq [Cert.Pre_finite_inputs.Facts] : Cert.ReferenceIdeal.RefRun.patchIndex = Cert.PreDecode.starts := rfl

/-- The reference's patch function is the precondition's, over any float model … -/
theorem ref_patches_eq_any {F : FTy → Type} [FloatOps F] [Cert.Pre_finite_inputs.Facts]
    (x : FVec F Cert.Pre_finite_inputs.S8x48x16x5 .f32) :
    Cert.ReferenceIdeal.RefRun.patches x = Cert.PreDecode.patches x := rfl

/-- … in particular over the extended reals. -/
theorem ref_patches_eq [Cert.Pre_finite_inputs.Facts] (x : FVec Ideal Cert.Pre_finite_inputs.S8x48x16x5 .f32) :
    Cert.ReferenceIdeal.RefRun.patches x = Cert.PreDecode.patches x := rfl

section Kernel

open Cert.KernelIdeal Cert.KernelIdeal.Gen

variable {F : FTy → Type} [FloatOps F] [Cert.Pre_finite_inputs.Facts]

set_option maxHeartbeats 4000000 in
/-- After the kernel's host prelude its first patch buffer holds the patches of the first argument … -/
theorem after_v33 (V : Valuation τ sig (Elt F)) :
    (after (hostOps0 (F := F)) V (main_v33 : DevRef τ sig) : S8x2220x60.Idx → F .f32)
      = Cert.PreDecode.patches (F := F) (V (main_arg0 : DevRef τ sig)) := by
  after_results_simp <;> rfl

set_option maxHeartbeats 4000000 in
/-- … and its second patch buffer the patches of the second argument. -/
theorem after_v67 (V : Valuation τ sig (Elt F)) :
    (after (hostOps0 (F := F)) V (main_v67 : DevRef τ sig) : S8x2220x60.Idx → F .f32)
      = Cert.PreDecode.patches (F := F) (V (main_arg1 : DevRef τ sig)) := by
  after_results_simp <;> rfl

/-- When the compute region is entered, core `c`'s first patch buffer holds the patches of the first argument as
    launched (over any float model) … -/
theorem kernel_v33_any (m : (ℓ : Loc nD τ sig) → Buf (Elt F) ℓ) (c : Dev nD) :
    (Gen.V m c main_v33 : S8x2220x60.Idx → F .f32)
      = Cert.PreDecode.patches (F := F) (m ((c.tc : Thread nD τ).loc main_arg0)) :=
  after_v33 (fun b => m (c, b))

/-- … and its second patch buffer the patches of the second argument as launched. -/
theorem kernel_v67_any (m : (ℓ : Loc nD τ sig) → Buf (Elt F) ℓ) (c : Dev nD) :
    (Gen.V m c main_v67 : S8x2220x60.Idx → F .f32)
      = Cert.PreDecode.patches (F := F) (m ((c.tc : Thread nD τ).loc main_arg1)) :=
  after_v67 (fun b => m (c, b))

omit [FloatOps F] in
/-- The same two statements over the extended reals. -/
theorem kernel_v33 (m : (ℓ : Loc nD τ sig) → Buf (Elt Ideal) ℓ) (c : Dev nD) :
    (Gen.V m c main_v33 : S8x2220x60.Idx → EReal)
      = (Cert.PreDecode.patches (F := Ideal) (m ((c.tc : Thread nD τ).loc main_arg0)) : S8x2220x60.Idx → EReal) :=
  after_v33 (F := Ideal) (fun b => m (c, b))

omit [FloatOps F] in
theorem kernel_v67 (m : (ℓ : Loc nD τ sig) → Buf (Elt Ideal) ℓ) (c : Dev nD) :
    (Gen.V m c main_v67 : S8x2220x60.Idx → EReal)
      = (Cert.PreDecode.patches (F := Ideal) (m ((c.tc : Thread nD τ).loc main_arg1)) : S8x2220x60.Idx → EReal) :=
  after_v67 (F := Ideal) (fun b => m (c, b))

end Kernel

end Cert.PatchesEq

end
-- ==== Proof.lean ====
/-
  A batched patch-correlation kernel against its jnp reference, over the extended reals.

  Both programs cut each of two [8, 48, 16, 5] images into the 2220 patches of 12 × 5 pixels per channel (the same host
  operations: a gather, a transpose, a reshape to [8, 2220, 60]), normalise every patch — its mean removed, then divided by
  its population standard deviation —, and for each batch multiply the second array's normalised patches with the
  transposed first's: out[b, n, q] = Σ_k N2[b, n, k] · N1[b, q, k], reshaped to [296, 37, 12, 300].
  The kernel does this on a grid of 8 batches × 3 tiles of 768 columns (the last tile overhanging column 2220), keeping the
  batch's normalised second array in a scratch from tile 0 on; and it divides by sqrt(v) only where the variance v is positive,
  by one otherwise, where the reference divides by sqrt(v) always. On a constant patch the two differ (0/1 against 0/0), which
  is why the precondition asks, beside finite inputs, that every patch's centred sum of squares be positive: then v is a
  positive real, the kernel's test chooses the square root, and the two normalisations are one.

  The word-level kernel's frame says nothing of the output's contents. The idealized kernel's run names its output array as
  one function of the two patch arrays — each point's written-back block is that function's block, whatever the rows of the
  last tile's buffer below the array held, because column q of the stored product depends on row q of that buffer only — and
  the reference's run names its result as the composed host operations of its arguments. Both end with the same reshape.
-/
import proofs.«116544_j88252987998983_2_alg».proof.Defs
import proofs.«116544_j88252987998983_2_alg».proof.Proof.Gen.Kernel
import proofs.«116544_j88252987998983_2_alg».proof.Proof.Gen.KernelIdeal
import proofs.«116544_j88252987998983_2_alg».proof.Proof.Gen.ReferenceIdeal
import proofs.«116544_j88252987998983_2_alg».proof.Proof.Gen.Pre_finite_inputs
import proofs.«116544_j88252987998983_2_alg».proof.Proof.FrameBits
import proofs.«116544_j88252987998983_2_alg».proof.Proof.ValueIdeal
import proofs.«116544_j88252987998983_2_alg».proof.Proof.ColumnLocal
import proofs.«116544_j88252987998983_2_alg».proof.Proof.Bridge
import proofs.«116544_j88252987998983_2_alg».proof.Proof.PatchesEq
import Idealize.ShloMosaic.Adequacy
import Idealize.ShloMosaic.Init

noncomputable section

namespace Cert.Proof

open Idealize.ShloMosaic Idealize.SL.Sem

/-- The word-level kernel program runs to the end without a fault and leaves its arguments unchanged. -/
theorem frame_k : Cert.frame_Kernel := fun m ρ _ => Cert.Kernel.Data.frame m ρ

/-- So does the idealized one. -/
theorem frame_ki : Cert.frame_KernelIdeal := fun m ρ _ =>
  Cert.KernelIdeal.Data.frame m ρ Cert.KernelIdeal.Read.columnLocal

/-- The reference is host operations only: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- From arguments that agree and satisfy the precondition both idealized programs end with the reshaped product of the
    normalised patch arrays: the kernel's guarded rows are the reference's rows. -/
theorem algebraic : Cert.algebraic_KernelIdeal_ReferenceIdeal := by
  intro m ρ m' ρ' hpre hagree
  refine ⟨fun c => shapeCast Cert.KernelIdeal.S296x37x12x300
      (Cert.KernelIdeal.Out.G (Cert.KernelIdeal.Gen.V m c Cert.KernelIdeal.main_v67) (Cert.KernelIdeal.Gen.V m c Cert.KernelIdeal.main_v33))
      Cert.KernelIdeal.Gen.shapeCasts_S8x2220x2220_S296x37x12x300,
    Cert.KernelIdeal.Out.run m ρ Cert.KernelIdeal.Read.columnLocal, ?_⟩
  refine (θ_run Cert.ReferenceIdeal.defs _ _).mono (fun r h c => ⟨(h c).1.trans ?_, (h c).2⟩)
    (Cert.ReferenceIdeal.RefRun.run (F := Ideal) m' ρ')
  beta_reduce
  rw [(hagree c).1, (hagree c).2, Cert.ReferenceIdeal.RefRead.result_eq, Cert.PatchesEq.ref_patches_eq,
    Cert.PatchesEq.ref_patches_eq, Cert.PatchesEq.kernel_v67 m c, Cert.PatchesEq.kernel_v33 m c,
    Cert.Bridge.G_eq_gram _ _ (hpre c)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
